-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x128 : Shape := ⟨2, ![600000, 128]⟩
abbrev S200000x128 : Shape := ⟨2, ![200000, 128]⟩
abbrev S40962x128 : Shape := ⟨2, ![40962, 128]⟩
abbrev S600000 : Shape := ⟨1, ![600000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S600000x128 : S_.BroadcastsInDim S600000x128 (![] : Fin 0 → Fin S600000x128.rank)
  reducesTo_S600000x128_S_d0_1 : S600000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S40962x128 : S_.BroadcastsInDim S40962x128 (![] : Fin 0 → Fin S40962x128.rank)
  reducesTo_S40962x128_S_d0_1 : S40962x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg13 : FVec F S256x128 .f32) (main_arg14 : FVec F S128 .f32) (main_arg15 : FVec F S128x128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S256x128 .f32) (main_arg14 : FVec F S128 .f32) (main_arg15 : FVec F S128x128 .f32) (main_arg16 : FVec F S128 .f32) (main_arg17 : FVec F S128 .f32) (main_arg18 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S256x128 .f32) (main_arg14 : FVec F S128 .f32) (main_arg15 : FVec F S128x128 .f32) (main_arg16 : FVec F S128 .f32) (main_arg17 : FVec F S128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S600000x128 .f32) (main_arg1 : FVec F S200000x128 .f32) (main_arg2 : FVec F S40962x128 .f32) (main_arg3 : IVec S600000 32) (main_arg4 : IVec S600000 32) (main_arg5 : FVec F S128x128 .f32) (main_arg6 : FVec F S128x128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S256x128 .f32) (main_arg14 : FVec F S128 .f32) (main_arg15 : FVec F S128x128 .f32) (main_arg16 : FVec F S128 .f32) (main_arg17 : FVec F S128 .f32) (main_arg18 : FVec F S128 .f32) : IVec S_ 1 :=
  let main_v0 : FVec F S600000x128 .f32 := Host.absf main_arg0
  let main_cst : FVec F S_ .f32 := constant S_ .f32 0x7F800000#32
  let main_v1 : FVec F S600000x128 .f32 := broadcastInDim S600000x128 ![] bcast_S_S600000x128 main_cst
  let main_v2 : IVec S600000x128 1 := cmpf .olt main_v0 main_v1
  let main_c : IVec S_ 1 := constantI S_ 1 1#1
  let main_v3 : IVec S_ 1 := (fun x v => Host.reduce IntOp.andi x v reducesTo_S600000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S40962x128 .f32 := Host.absf main_arg2
  let main_cst_2 : FVec F S_ .f32 := constant S_ .f32 0x7F800000#32
  let main_v10 : FVec F S40962x128 .f32 := broadcastInDim S40962x128 ![] bcast_S_S40962x128 main_cst_2
  let main_v11 : IVec S40962x128 1 := cmpf .olt main_v9 main_v10
  let main_c_3 : IVec S_ 1 := constantI S_ 1 1#1
  let main_v12 : IVec S_ 1 := (fun x v => Host.reduce IntOp.andi x v reducesTo_S40962x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S600000x128 : Shape := ⟨2, ![600000, 128]⟩
abbrev S200000x128 : Shape := ⟨2, ![200000, 128]⟩
abbrev S40962x128 : Shape := ⟨2, ![40962, 128]⟩
abbrev S600000 : Shape := ⟨1, ![600000]⟩
abbrev S128x128 : Shape := ⟨2, ![128, 128]⟩
abbrev S128 : Shape := ⟨1, ![128]⟩
abbrev S256x128 : Shape := ⟨2, ![256, 128]⟩
abbrev S_ : Shape := ⟨0, ![]⟩
abbrev S43008x128 : Shape := ⟨2, ![43008, 128]⟩
abbrev S2048x128 : Shape := ⟨2, ![2048, 128]⟩
abbrev S200704x128 : Shape := ⟨2, ![200704, 128]⟩
abbrev S600000x1 : Shape := ⟨2, ![600000, 1]⟩
abbrev S600064x128 : Shape := ⟨2, ![600064, 128]⟩
abbrev S1x128 : Shape := ⟨2, ![1, 128]⟩
abbrev S2048 : Shape := ⟨1, ![2048]⟩
abbrev S2048x1 : Shape := ⟨2, ![2048, 1]⟩

abbrev nBuf : Space → Nat
  | .hbm => 72
  | .vmem => 37
  | .smem => 0
  | _ => 0

abbrev bufTy : (tb : Table) → Fin (tcTables nBuf tb) → BufTy
  | .hbm, ⟨0, _⟩ => ⟨S600000x128, .f32⟩
  | .hbm, ⟨1, _⟩ => ⟨S200000x128, .f32⟩
  | .hbm, ⟨2, _⟩ => ⟨S40962x128, .f32⟩
  | .hbm, ⟨3, _⟩ => ⟨S600000, .i32⟩
  | .hbm, ⟨4, _⟩ => ⟨S600000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S43008x128, .f32⟩
  | .hbm, ⟨22, _⟩ => ⟨S43008x128, .f32⟩
  | .hbm, ⟨23, _⟩ => ⟨S40962x128, .f32⟩
  | .hbm, ⟨24, _⟩ => ⟨S_, .i32⟩
  | .hbm, ⟨25, _⟩ => ⟨S_, .f32⟩
  | .hbm, ⟨26, _⟩ => ⟨S200704x128, .f32⟩
  | .hbm, ⟨27, _⟩ => ⟨S200704x128, .f32⟩
  | .hbm, ⟨28, _⟩ => ⟨S200000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .i32⟩
  | .hbm, ⟨48, _⟩ => ⟨S_, .f32⟩
  | .hbm, ⟨49, _⟩ => ⟨S600064x128, .f32⟩
  | .hbm, ⟨50, _⟩ => ⟨S_, .i32⟩
  | .hbm, ⟨51, _⟩ => ⟨S_, .f32⟩
  | .hbm, ⟨52, _⟩ => ⟨S600064x128, .f32⟩
  | .hbm, ⟨53, _⟩ => ⟨S_, .i32⟩
  | .hbm, ⟨54, _⟩ => ⟨S_, .f32⟩
  | .hbm, ⟨55, _⟩ => ⟨S600064x128, .f32⟩
  | .hbm, ⟨56, _⟩ => ⟨S600064x128, .f32⟩
  | .hbm, ⟨57, _⟩ => ⟨S600000x128, .f32⟩
  | .hbm, ⟨58, _⟩ => ⟨S_, .f32⟩
  | .hbm, ⟨59, _⟩ => ⟨S200000x128, .f32⟩
  | .hbm, ⟨60, _⟩ => ⟨S600000x1, .i32⟩
  | .hbm, ⟨61, _⟩ => ⟨S200000x128, .f32⟩
  | .hbm, ⟨62, _⟩ => ⟨S128x128, .f32⟩
  | .hbm, ⟨63, _⟩ => ⟨S128x128, .f32⟩
  | .hbm, ⟨64, _⟩ => ⟨S_, .i32⟩
  | .hbm, ⟨65, _⟩ => ⟨S_, .f32⟩
  | .hbm, ⟨66, _⟩ => ⟨S200704x128, .f32⟩
  | .hbm, ⟨67, _⟩ => ⟨S_, .i32⟩
  | .hbm, ⟨68, _⟩ => ⟨S_, .f32⟩
  | .hbm, ⟨69, _⟩ => ⟨S200704x128, .f32⟩
  | .hbm, ⟨70, _⟩ => ⟨S200704x128, .f32⟩
  | .hbm, ⟨71, _⟩ => ⟨S200000x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S128x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S128x128, .f32⟩
  | .local _ .vmem, ⟨32, _⟩ => ⟨S128, .f32⟩
  | .local _ .vmem, ⟨33, _⟩ => ⟨S128, .f32⟩
  | .local _ .vmem, ⟨34, _⟩ => ⟨S128, .f32⟩
  | .local _ .vmem, ⟨35, _⟩ => ⟨S2048x128, .f32⟩
  | .local _ .vmem, ⟨36, _⟩ => ⟨S2048x128, .f32⟩
  | _, _ => ⟨S600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_c_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_call2_v0 : Ref sig .tc := ⟨.hbm, 48, rfl⟩
abbrev main_v20 : Ref sig .tc := ⟨.hbm, 49, rfl⟩
abbrev main_c_6 : Ref sig .tc := ⟨.hbm, 50, rfl⟩
abbrev main_call3_v0 : Ref sig .tc := ⟨.hbm, 51, rfl⟩
abbrev main_v21 : Ref sig .tc := ⟨.hbm, 52, rfl⟩
abbrev main_c_7 : Ref sig .tc := ⟨.hbm, 53, rfl⟩
abbrev main_call4_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_8 : Ref sig .tc := ⟨.hbm, 64, rfl⟩
abbrev main_call5_v0 : Ref sig .tc := ⟨.hbm, 65, rfl⟩
abbrev main_v30 : Ref sig .tc := ⟨.hbm, 66, rfl⟩
abbrev main_c_9 : Ref sig .tc := ⟨.hbm, 67, rfl⟩
abbrev main_call6_v0 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg9_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg9_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem9_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem9_1 : DmaSem sig := 36

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![293], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2048x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  pads_S40962x128_S43008x128_020460_000 : S40962x128.Pads (![0, 0] : Fin 2 → Nat) ![2046, 0] ![0, 0] S43008x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S43008x128_S40962x128_0_0 : S43008x128.Slices ![0, 0] S40962x128
  pads_S200000x128_S200704x128_07040_000 : S200000x128.Pads (![0, 0] : Fin 2 → Nat) ![704, 0] ![0, 0] S200704x128
  slices_S200704x128_S200000x128_0_0 : S200704x128.Slices ![0, 0] S200000x128
  bcast_S_S600000 : S_.BroadcastsInDim S600000 (![] : Fin 0 → Fin S600000.rank)
  bcast_S600000_S600000x1_0 : S600000.BroadcastsInDim S600000x1 (![0] : Fin 1 → Fin S600000x1.rank)
  pads_S600000x128_S600064x128_0640_000 : S600000x128.Pads (![0, 0] : Fin 2 → Nat) ![64, 0] ![0, 0] S600064x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  slices_S600064x128_S600000x128_0_0 : S600064x128.Slices ![0, 0] S600000x128
  bcast_S_S200000x128 : S_.BroadcastsInDim S200000x128 (![] : Fin 0 → Fin S200000x128.rank)
  slices_S256x128_S128x128_0_0 : S256x128.Slices ![0, 0] S128x128
  slices_S256x128_S128x128_128_0 : S256x128.Slices ![128, 0] S128x128
  shapeCasts_S128x128_S128x128 : S128x128.ShapeCasts S128x128
  dot_S2048x128_S128x128_S2048x128_1_0_0_1_n_n_wf : DotDims.WF S2048x128 S128x128 S2048x128 [1] [0] [0] [1] [] []
  gather_S40962x128_S600000x1_S600000x128_1_0_n_n_0_1_1128_wf : GatherDims.WF S40962x128 S600000x1 S600000x128 [1] [0] [] [0] [] 1 ![1, 128]
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S43008x128.size a
  hwx0_0 : ∀ i : grid0.Coords, EltTy.bits .f32 = 32 ∨ (Rect.block (s := S43008x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S43008x128.size a
  hwx0_2 : ∀ i : grid0.Coords, EltTy.bits .f32 = 32 ∨ (Rect.block (s := S43008x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S200704x128.size a
  hwx1_0 : ∀ i : grid1.Coords, EltTy.bits .f32 = 32 ∨ (Rect.block (s := S200704x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S200704x128.size a
  hwx1_2 : ∀ i : grid1.Coords, EltTy.bits .f32 = 32 ∨ (Rect.block (s := S200704x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S600064x128.size a
  hwx2_0 : ∀ i : grid2.Coords, EltTy.bits .f32 = 32 ∨ (Rect.block (s := S600064x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S600064x128.size a
  hwx2_1 : ∀ i : grid2.Coords, EltTy.bits .f32 = 32 ∨ (Rect.block (s := S600064x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S600064x128.size a
  hwx2_2 : ∀ i : grid2.Coords, EltTy.bits .f32 = 32 ∨ (Rect.block (s := S600064x128) S2048x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x128.size a ≤ S600064x128.size a
  hwx2_9 : ∀ i : grid2.Coords, EltTy.bits .f32 = 32 ∨ (Rect.block (s := S600064x128) S2048x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S200704x128.size a
  hwx3_0 : ∀ i : grid3.Coords, EltTy.bits .f32 = 32 ∨ (Rect.block (s := S200704x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S200704x128.size a
  hwx3_1 : ∀ i : grid3.Coords, EltTy.bits .f32 = 32 ∨ (Rect.block (s := S200704x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2048x128.size a ≤ S200704x128.size a
  hwx3_9 : ∀ i : grid3.Coords, EltTy.bits .f32 = 32 ∨ (Rect.block (s := S200704x128) S2048x128.size (cc3_transform_9 i) (hinb3_9 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S40962x128_S600000x1_S600000x128_1_0_n_n_0_1_1128 : GatherDims S40962x128 S600000x1 S600000x128 where
  offsetDims := [1]
  collapsedSliceDims := [0]
  operandBatchingDims := []
  startIndicesBatchingDims := []
  startIndexMap := [0]
  indexVectorDim := 1
  sliceSizes := ![1, 128]
  wf := gather_S40962x128_S600000x1_S600000x128_1_0_n_n_0_1_1128_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v23) S2048x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v30) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg17) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg18) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v32) S2048x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S600000x128 : Shape := ⟨2, ![600000, 128]⟩
abbrev S200000x128 : Shape := ⟨2, ![200000, 128]⟩
abbrev S40962x128 : Shape := ⟨2, ![40962, 128]⟩
abbrev S600000 : Shape := ⟨1, ![600000]⟩
abbrev S128x128 : Shape := ⟨2, ![128, 128]⟩
abbrev S128 : Shape := ⟨1, ![128]⟩
abbrev S256x128 : Shape := ⟨2, ![256, 128]⟩
abbrev S_ : Shape := ⟨0, ![]⟩
abbrev S600000x1 : Shape := ⟨2, ![600000, 1]⟩
abbrev S1x128 : Shape := ⟨2, ![1, 128]⟩
abbrev S200000x256 : Shape := ⟨2, ![200000, 256]⟩
abbrev S200000 : Shape := ⟨1, ![200000]⟩
abbrev S200000x1 : Shape := ⟨2, ![200000, 1]⟩

abbrev nBuf : Space → Nat
  | .hbm => 135
  | .vmem => 0
  | .smem => 0
  | _ => 0

abbrev hbmTy0_0 (i : Nat) : BufTy := match i % 128 with
  | 0 => ⟨S600000x128, .f32⟩
  | 1 => ⟨S200000x128, .f32⟩
  | 2 => ⟨S40962x128, .f32⟩
  | 3 => ⟨S600000, .i32⟩
  | 4 => ⟨S600000, .i32⟩
  | 5 => ⟨S128x128, .f32⟩
  | 6 => ⟨S128x128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S256x128, .f32⟩
  | 14 => ⟨S128, .f32⟩
  | 15 => ⟨S128x128, .f32⟩
  | 16 => ⟨S128, .f32⟩
  | 17 => ⟨S128, .f32⟩
  | 18 => ⟨S128, .f32⟩
  | 19 => ⟨S600000x128, .f32⟩
  | 20 => ⟨S40962x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x128, .f32⟩
  | 31 => ⟨S200000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x128, .f32⟩
  | 42 => ⟨S1x128, .f32⟩
  | 43 => ⟨S600000x128, .f32⟩
  | 44 => ⟨S600000x128, .f32⟩
  | 45 => ⟨S600000x128, .f32⟩
  | 46 => ⟨S600000x128, .f32⟩
  | 47 => ⟨S_, .f32⟩
  | 48 => ⟨S600000x128, .f32⟩
  | 49 => ⟨S600000x128, .f32⟩
  | 50 => ⟨S_, .f32⟩
  | 51 => ⟨S600000x128, .f32⟩
  | 52 => ⟨S600000x128, .f32⟩
  | 53 => ⟨S600000x128, .f32⟩
  | 54 => ⟨S600000x128, .f32⟩
  | 55 => ⟨S1x128, .f32⟩
  | 56 => ⟨S600000x128, .f32⟩
  | 57 => ⟨S600000x128, .f32⟩
  | 58 => ⟨S_, .f32⟩
  | 59 => ⟨S600000, .f32⟩
  | 60 => ⟨S600000x1, .f32⟩
  | 61 => ⟨S_, .f32⟩
  | 62 => ⟨S600000x1, .f32⟩
  | 63 => ⟨S600000x1, .f32⟩
  | 64 => ⟨S600000x128, .f32⟩
  | 65 => ⟨S600000x128, .f32⟩
  | 66 => ⟨S600000x128, .f32⟩
  | 67 => ⟨S_, .f32⟩
  | 68 => ⟨S600000, .f32⟩
  | 69 => ⟨S600000x1, .f32⟩
  | 70 => ⟨S_, .f32⟩
  | 71 => ⟨S600000x1, .f32⟩
  | 72 => ⟨S600000x1, .f32⟩
  | 73 => ⟨S_, .f32⟩
  | 74 => ⟨S600000x1, .f32⟩
  | 75 => ⟨S600000x1, .f32⟩
  | 76 => ⟨S600000x1, .f32⟩
  | 77 => ⟨S600000x128, .f32⟩
  | 78 => ⟨S600000x128, .f32⟩
  | 79 => ⟨S1x128, .f32⟩
  | 80 => ⟨S600000x128, .f32⟩
  | 81 => ⟨S600000x128, .f32⟩
  | 82 => ⟨S1x128, .f32⟩
  | 83 => ⟨S600000x128, .f32⟩
  | 84 => ⟨S600000x128, .f32⟩
  | 85 => ⟨S_, .f32⟩
  | 86 => ⟨S200000x128, .f32⟩
  | 87 => ⟨S600000x1, .i32⟩
  | 88 => ⟨S200000x128, .f32⟩
  | 89 => ⟨S200000x256, .f32⟩
  | 90 => ⟨S200000x128, .f32⟩
  | 91 => ⟨S1x128, .f32⟩
  | 92 => ⟨S200000x128, .f32⟩
  | 93 => ⟨S200000x128, .f32⟩
  | 94 => ⟨S200000x128, .f32⟩
  | 95 => ⟨S200000x128, .f32⟩
  | 96 => ⟨S_, .f32⟩
  | 97 => ⟨S200000x128, .f32⟩
  | 98 => ⟨S200000x128, .f32⟩
  | 99 => ⟨S_, .f32⟩
  | 100 => ⟨S200000x128, .f32⟩
  | 101 => ⟨S200000x128, .f32⟩
  | 102 => ⟨S200000x128, .f32⟩
  | 103 => ⟨S200000x128, .f32⟩
  | 104 => ⟨S1x128, .f32⟩
  | 105 => ⟨S200000x128, .f32⟩
  | 106 => ⟨S200000x128, .f32⟩
  | 107 => ⟨S_, .f32⟩
  | 108 => ⟨S200000, .f32⟩
  | 109 => ⟨S200000x1, .f32⟩
  | 110 => ⟨S_, .f32⟩
  | 111 => ⟨S200000x1, .f32⟩
  | 112 => ⟨S200000x1, .f32⟩
  | 113 => ⟨S200000x128, .f32⟩
  | 114 => ⟨S200000x128, .f32⟩
  | 115 => ⟨S200000x128, .f32⟩
  | 116 => ⟨S_, .f32⟩
  | 117 => ⟨S200000, .f32⟩
  | 118 => ⟨S200000x1, .f32⟩
  | 119 => ⟨S_, .f32⟩
  | 120 => ⟨S200000x1, .f32⟩
  | 121 => ⟨S200000x1, .f32⟩
  | 122 => ⟨S_, .f32⟩
  | 123 => ⟨S200000x1, .f32⟩
  | 124 => ⟨S200000x1, .f32⟩
  | 125 => ⟨S200000x1, .f32⟩
  | 126 => ⟨S200000x128, .f32⟩
  | 127 => ⟨S200000x128, .f32⟩
  | _ => ⟨S600000x128, .f32⟩

abbrev hbmTy0_1 (i : Nat) : BufTy := match i % 128 with
  | 0 => ⟨S1x128, .f32⟩
  | 1 => ⟨S200000x128, .f32⟩
  | 2 => ⟨S200000x128, .f32⟩
  | 3 => ⟨S1x128, .f32⟩
  | 4 => ⟨S200000x128, .f32⟩
  | 5 => ⟨S200000x128, .f32⟩
  | 6 => ⟨S200000x128, .f32⟩
  | _ => ⟨S600000x128, .f32⟩

abbrev hbmTy (i : Nat) : BufTy := match i / 128 with
  | 0 => hbmTy0_0 i
  | 1 => hbmTy0_1 i
  | _ => ⟨S600000x128, .f32⟩

abbrev bufTy : (tb : Table) → Fin (tcTables nBuf tb) → BufTy
  | .hbm, ⟨i, _⟩ => hbmTy i
  | _, _ => ⟨S600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_cst_6 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_7 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_8 : Ref sig .tc := ⟨.hbm, 107, rfl⟩
abbrev main_v62 : Ref sig .tc := ⟨.hbm, 108, rfl⟩
abbrev main_v63 : Ref sig .tc := ⟨.hbm, 109, rfl⟩
abbrev main_cst_9 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_10 : Ref sig .tc := ⟨.hbm, 116, rfl⟩
abbrev main_v69 : Ref sig .tc := ⟨.hbm, 117, rfl⟩
abbrev main_v70 : Ref sig .tc := ⟨.hbm, 118, rfl⟩
abbrev main_cst_11 : Ref sig .tc := ⟨.hbm, 119, rfl⟩
abbrev main_v71 : Ref sig .tc := ⟨.hbm, 120, rfl⟩
abbrev main_v72 : Ref sig .tc := ⟨.hbm, 121, rfl⟩
abbrev main_cst_12 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  reducesTo_S600000x128_S600000_d1 : S600000x128.ReducesTo [1] S600000
  h_S_ : 0 < S_.numel
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  reducesTo_S200000x128_S200000_d1 : S200000x128.ReducesTo [1] S200000
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  dot_S600000x128_S128x128_S600000x128_1_0_0_1_n_n_wf : DotDims.WF S600000x128 S128x128 S600000x128 [1] [0] [0] [1] [] []
  dot_S40962x128_S128x128_S40962x128_1_0_0_1_n_n_wf : DotDims.WF S40962x128 S128x128 S40962x128 [1] [0] [0] [1] [] []
  gather_S40962x128_S600000x1_S600000x128_1_0_n_n_0_1_1128_wf : GatherDims.WF S40962x128 S600000x1 S600000x128 [1] [0] [] [0] [] 1 ![1, 128]
  dot_S200000x128_S128x128_S200000x128_1_0_0_1_n_n_wf : DotDims.WF S200000x128 S128x128 S200000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S200000x256_S256x128_S200000x128_1_0_0_1_n_n_wf : DotDims.WF S200000x256 S256x128 S200000x128 [1] [0] [0] [1] [] []

variable [Facts₀]

def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S40962x128_S128x128_S40962x128_1_0_0_1_n_n : DotDims S40962x128 S128x128 S40962x128 where
  lhsContracting := [1]
  rhsContracting := [0]
  lhsNonContracting := [0]
  rhsNonContracting := [1]
  lhsBatch := []
  rhsBatch := []
  wf := dot_S40962x128_S128x128_S40962x128_1_0_0_1_n_n_wf
def gather_S40962x128_S600000x1_S600000x128_1_0_n_n_0_1_1128 : GatherDims S40962x128 S600000x1 S600000x128 where
  offsetDims := [1]
  collapsedSliceDims := [0]
  operandBatchingDims := []
  startIndicesBatchingDims := []
  startIndexMap := [0]
  indexVectorDim := 1
  sliceSizes := ![1, 128]
  wf := gather_S40962x128_S600000x1_S600000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.KerRun.lean ====
/-
  The idealized kernel's run with its RESULT named.

  @main is nineteen segments: host stretches and four regions. The buffer contents at each segment boundary are
  a fold from the launch memory (a stretch applies its operations; a region leaves its arrays at what its
  write-backs leave and every other buffer as it was). Every weakly fair execution terminates with every
  unscoped buffer at the last boundary's contents; read at the result buffer that is the value of the program,
  and read at each argument it is the launch contents.
-/
import proofs.«179970_j42777874268719_1_alg».proof.Proof.Gen.KernelIdeal.Frame

set_option maxRecDepth 16384

noncomputable section

namespace Cert.EdgeNode.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v33) = W19 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v33 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c)⟩)

end Cert.EdgeNode.Run

end
-- ==== Proof.Spec.lean ====
/-
  The mathematics of one round of edge-to-node message passing, row by row, on the extended reals.

  Every row of the result depends on whole weight matrices and bias vectors but only on ONE row of each
  row-indexed operand, so the functions below are stated on a single row (a function of the 128 lanes).

  * `lin x W`        : the row `x` times the 128 x 128 matrix `W`, lane j being the sum over k of x k * W k j.
  * `silu h`         : h times the logistic function of h.
  * `lnorm y g b`    : layer normalisation of the row `y` (mean and biased variance over the 128 lanes, the
                        reciprocal square root of variance plus epsilon), scaled by `g` and shifted by `b`.
  * `edgeRow`        : an edge's new feature from its own feature row and the two gathered endpoint rows.
  * `nodeRow`        : a node's new feature from its own row and its aggregated edge row, the first linear
                        layer applied as two 128-wide products.
  * `catRow`, `lin256`: the same first layer written as ONE 256-wide product of the concatenated row; the
                        theorem `lin256_cat` says the two spellings agree, by splitting the finite sum at 128.
                        Splitting a finite sum needs only that addition is commutative and associative, so
                        it holds on the extended reals with no finiteness hypothesis.
-/
import Idealize.ShloMosaic.PureOps.Ideal
import Idealize.ShloMosaic.PureOps.Ideal.Laws
import Idealize.ShloMosaic.Lib.ValueIdx

noncomputable section

open scoped BigOperators

namespace Cert.EdgeNode

open Idealize.ShloMosaic Idealize.ShloMosaic.ValueIdx

/-- A row: one extended real per lane. -/
abbrev Row := Fin 128 → EReal
/-- A 128 x 128 weight matrix. -/
abbrev Mat := Fin 128 → Fin 128 → EReal
/-- A 256 x 128 weight matrix. -/
abbrev Mat2 := Fin 256 → Fin 128 → EReal

/-- The lane count 128 as both programs write it (the f32 word of 128.0). -/
abbrev c128 : EReal := Ideal.ofBits .f32 0x43000000#32
/-- The layer normalisation's epsilon as both programs write it (one f32 word, the same on both sides). -/
abbrev eps : EReal := Ideal.ofBits .f32 0x3727C5AC#32

/-- Row `r` of an array of `n` rows and 128 lanes. -/
abbrev row {n : Nat} (x : (⟨2, ![n, 128]⟩ : Shape).Idx → EReal) (r : Fin n) : Row := fun k => x (ix2 r k)
/-- A 128 x 128 array as a matrix. -/
abbrev mat (w : (⟨2, ![128, 128]⟩ : Shape).Idx → EReal) : Mat := fun k j => w (ix2 k j)
/-- A 256 x 128 array as a matrix. -/
abbrev mat2 (w : (⟨2, ![256, 128]⟩ : Shape).Idx → EReal) : Mat2 := fun k j => w (ix2 k j)
/-- A 128-entry array as a row. -/
abbrev vec (b : (⟨1, ![128]⟩ : Shape).Idx → EReal) : Row := fun k => b (ix1 k)

/-- A row times a 128 x 128 matrix. -/
def lin (x : Row) (W : Mat) : Row := fun j => ∑ k : Fin 128, x k * W k j

/-- h · logistic h. -/
def silu (h : EReal) : EReal := h * Ideal.logistic h

/-- The mean of a row's 128 lanes. -/
def mean (y : Row) : EReal := Ideal.div (∑ k : Fin 128, y k) c128

/-- A row minus its mean. -/
def ctr (y : Row) : Row := fun j => y j - mean y

/-- The reciprocal square root of (biased variance + epsilon). -/
def rstd (y : Row) : EReal := Ideal.rsqrt (Ideal.div (∑ k : Fin 128, ctr y k * ctr y k) c128 + eps)

/-- Layer normalisation, scaled and shifted. -/
def lnorm (y g b : Row) : Row := fun j => ctr y j * rstd y * g j + b j

/-- The hidden row of an edge: silu of (own row · We + source row + destination row + bias). -/
def edgeHidden (x s d : Row) (We : Mat) (b0 : Row) : Row := fun k => silu (lin x We k + s k + d k + b0 k)

/-- An edge's new feature row. -/
def edgeRow (x s d : Row) (We : Mat) (b0 : Row) (W1 : Mat) (b1 ge be : Row) : Row :=
  lnorm (fun j => lin (edgeHidden x s d We b0) W1 j + b1 j) ge be

/-- The hidden row of a node, the first layer as two 128-wide products. -/
def nodeHidden (g a : Row) (Wt Wb : Mat) (bn0 : Row) : Row := fun k => silu (lin g Wt k + lin a Wb k + bn0 k)

/-- A node's new feature row (with the residual `+ g`). -/
def nodeRow (g a : Row) (Wt Wb : Mat) (bn0 : Row) (W1 : Mat) (b1 gn bn : Row) : Row :=
  fun j => lnorm (fun j => lin (nodeHidden g a Wt Wb bn0) W1 j + b1 j) gn bn j + g j

/-- Two rows laid end to end: lanes 0..127 from `g`, lanes 128..255 from `a`. -/
def catRow (g a : Row) : Fin 256 → EReal := fun k =>
  if h : k.val < 128 then g ⟨k.val, h⟩ else a ⟨k.val - 128, by have := k.isLt; omega⟩

/-- A 256-lane row times a 256 x 128 matrix. -/
def lin256 (x : Fin 256 → EReal) (W : Mat2) : Row := fun j => ∑ k : Fin 256, x k * W k j

/-- The top 128 rows of a 256 x 128 matrix. -/
def topRows (W : Mat2) : Mat := fun k j => W ⟨k.val, by have := k.isLt; omega⟩ j
/-- The bottom 128 rows of a 256 x 128 matrix. -/
def botRows (W : Mat2) : Mat := fun k j => W ⟨128 + k.val, by have := k.isLt; omega⟩ j

/-- THE LAW that joins the two programs: the product of a concatenated row with a 256 x 128 matrix is the sum
    of the two halves' products. A finite sum over 256 = 128 + 128 indices splits at 128. -/
theorem lin256_cat (g a : Row) (W : Mat2) (j : Fin 128) :
    lin256 (catRow g a) W j = lin g (topRows W) j + lin a (botRows W) j := by
  unfold lin256 lin
  rw [show (∑ k : Fin 256, catRow g a k * W k j)
        = ∑ k : Fin (128 + 128), catRow g a k * W k j from rfl, Fin.sum_univ_add]
  congr 1

/-- The node's hidden row with the first layer written as ONE 256-wide product of the concatenated row. -/
theorem nodeHidden_cat (g a : Row) (W : Mat2) (bn0 : Row) (k : Fin 128) :
    silu (lin256 (catRow g a) W k + bn0 k) = nodeHidden g a (topRows W) (botRows W) bn0 k := by
  unfold nodeHidden
  rw [lin256_cat]

end Cert.EdgeNode

end
-- ==== Proof.LibKeepdims.lean ====
/-
  Column forms of the keepdims idiom, read at an index, and a matrix row's lane sum.

  A row statistic computed with keepdims lives in a one-column matrix: a vector [a] viewed as [a, 1] reads its entry i
  at (i, 0); a one-column matrix [a, 1] broadcast along the columns reads its entry (p, 0) at every (p, c). The sum of
  a matrix over its column axis, at row p, is the sum of that row.
-/
import Idealize.ShloMosaic.Lib.Pipeline.Value
import Idealize.ShloMosaic.Lib.ValueIdx
import Idealize.ShloMosaic.PureOps.Ideal.Laws

namespace Cert.YearBasis

open Idealize.ShloMosaic Idealize.ShloMosaic.ValueIdx
open scoped BigOperators

section Keepdims
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

/-- The sum of a matrix over its column axis from the zero word, at row `p`, is the sum of row `p`. -/
theorem laneSum_apply {n c : ℕ} (src : FVec Ideal ⟨2, ![n, c]⟩ .f32) (h : (⟨2, ![n, c]⟩ : Shape).Reduces [1] ⟨1, ![n]⟩)
    (hφ : FKind.Formats .f32) (hacc : (0x00000000#32 : BitVec 32) = FKind.add.neutral .f32 hφ) (p : Fin n) :
    multiReduction .add [1] ⟨1, ![n]⟩ src 0x00000000#32 h hφ hacc (ix1 p) = ∑ k : Fin c, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

end Cert.YearBasis
-- ==== Proof.KerRows.lean ====
/-
  The kernel's payloads, read at an index, as functions of one row.

  Each payload is a chain of vector operations over the literal shapes. At an index (p, j) every pointwise
  operation reads its operands at (p, j); a matrix product into the zero splat is the sum over the 128
  contraction positions; a bias row, viewed as a one-row matrix and broadcast down the rows, reads the vector at
  j; a lane sum kept as a one-column matrix and broadcast along the lanes reads the sum of row p. Pushing the
  index through the chain gives the row functions of the specification.
-/
import proofs.«179970_j42777874268719_1_alg».proof.Proof.Spec
import proofs.«179970_j42777874268719_1_alg».proof.Proof.LibKeepdims
import proofs.«179970_j42777874268719_1_alg».proof.Proof.Gen.KernelIdeal.Skeleton
import Idealize.ShloMosaic.Lib.ValueLayout

noncomputable section

open scoped BigOperators

namespace Cert.EdgeNode.Ker

open Cert.KernelIdeal Cert.KernelIdeal.Gen Cert.EdgeNode Idealize.ShloMosaic Idealize.ShloMosaic.ValueIdx

/-! ## The coordinates of the matrix product's operand indices -/

theorem lhs0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A matrix product of a 2048 x 128 block with a 128 x 128 matrix into the zero splat, at (p, j): the sum over
    the 128 contraction positions of the left operand's row p times the right operand's column j. -/
theorem mm_apply {φ₁ φ₂ : FTy} (l : FVec Ideal S2048x128 φ₁) (r : FVec Ideal S128x128 φ₂) (p : Fin 2048) (j : Fin 128) :
    matmul dot_S2048x128_S128x128_S2048x128_1_0_0_1_n_n none l r (constant (F := Ideal) S2048x128 .f32 0x00000000#32) (ix2 p j)
      = ∑ k : Fin 128, l (ix2 p k) * r (ix2 k j) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p j) ((contrEquiv1 dot_S2048x128_S128x128_S2048x128_1_0_0_1_n_n 128 rfl rfl).symm k) = ix2 p k := funext fun a => Fin.ext (by
    match a with
    | ⟨0, _⟩ => exact lhs0 _ _
    | ⟨1, _⟩ => exact (lhs1 _ _).trans hk)
  have er : dot_S2048x128_S128x128_S2048x128_1_0_0_1_n_n.rhsIdx (ix2 p j) ((contrEquiv1 dot_S2048x128_S128x128_S2048x128_1_0_0_1_n_n 128 rfl rfl).symm k) = ix2 k j := funext fun a => Fin.ext (by
    match a with
    | ⟨0, _⟩ => exact (rhs0 _ _).trans hk
    | ⟨1, _⟩ => exact rhs1 _ _)
  rw [el, er]

/-- A 128-vector viewed as a one-row matrix and broadcast down 2048 rows reads, at (p, j), the vector at j. -/
theorem biasRow_apply (b : FVec Ideal S128 .f32) (p : Fin 2048) (j : Fin 128) :
    broadcastTo S2048x128 (shapeCast S1x128 b shapeCasts_S128_S1x128) broadcasts_S1x128_S2048x128 (ix2 p j) = b (ix1 j) := by
  refine (broadcastTo_1b_ab_apply (shapeCast S1x128 b shapeCasts_S128_S1x128) broadcasts_S1x128_S2048x128 p j).trans ?_
  refine shapeCast_apply b shapeCasts_S128_S1x128 _ (ix1 j) ?_
  rw [Shape.rowMajor_val_two, Shape.rowMajor_val_one]
  show j.val = 0 * 128 + j.val
  omega

/-- The lane sum of a 2048 x 128 block from the zero word, kept as a one-column matrix, at (p, 0): the sum of row p. -/
theorem colSum_apply (x : FVec Ideal S2048x128 .f32) (p : Fin 2048) :
    shapeCast S2048x1 (multiReduction .add [1] S2048 x 0x00000000#32 reduces_S2048x128_S2048 (.inl rfl) rfl) shapeCasts_S2048_S2048x1 (ix2 p (0 : Fin 1))
      = ∑ k : Fin 128, x (ix2 p k) := by
  refine (Cert.YearBasis.shapeCast_a_a1_apply _ shapeCasts_S2048_S2048x1 p (0 : Fin 1)).trans ?_
  exact Cert.YearBasis.laneSum_apply x reduces_S2048x128_S2048 (.inl rfl) rfl p

/-- A one-column matrix broadcast along the 128 lanes reads, at (p, j), its entry of row p. -/
theorem colBcast_apply (v : FVec Ideal S2048x1 .f32) (p : Fin 2048) (j : Fin 128) :
    broadcastTo S2048x128 v broadcasts_S2048x1_S2048x128 (ix2 p j) = v (ix2 p (0 : Fin 1)) :=
  Cert.YearBasis.broadcastTo_a1_ab_apply v broadcasts_S2048x1_S2048x128 p j

/-- The first linear kernel's product at (p, j): row p of the block times the weight matrix. -/
theorem pay_lin0 (v0 : Vec Ideal S2048x128 .f32) (v3 : Vec Ideal S128x128 .f32) (p : Fin 2048) (j : Fin 128) :
    k0_pay1 (F := Ideal) v0 v3 (ix2 p j) = lin (row v0 p) (mat v3) j := by
  unfold k0_pay1
  rw [mm_apply]
  simp only [truncf_apply, shapeCast_self]
  rfl

/-- The second linear kernel's product at (p, j): row p of the block times the weight matrix. -/
theorem pay_lin1 (v0 : Vec Ideal S2048x128 .f32) (v3 : Vec Ideal S128x128 .f32) (p : Fin 2048) (j : Fin 128) :
    k1_pay1 (F := Ideal) v0 v3 (ix2 p j) = lin (row v0 p) (mat v3) j := by
  unfold k1_pay1
  rw [mm_apply]
  simp only [truncf_apply, shapeCast_self]
  rfl

/-! ## Pointwise operations the index lemmas of the library do not name -/

/-- The logistic function of a vector, at an index. -/
theorem logistic_apply {s : Shape} {φ : FTy} (a : FVec Ideal s φ) (i : s.Idx) : logistic a i = Ideal.logistic (a i) := rfl

/-- The reciprocal square root of a vector, at an index. -/
theorem rsqrt_apply {s : Shape} {φ : FTy} (a : FVec Ideal s φ) (i : s.Idx) : rsqrt a i = Ideal.rsqrt (a i) := rfl

/-- A splat of a scalar constant reads the constant's value everywhere. -/
theorem splat_apply {s : Shape} (b : BitVec 32) (i : s.Idx) :
    broadcast s (Scalar.ofBits (F := Ideal) .f32 b) i = Ideal.ofBits .f32 b := rfl

/-! ## Layer normalisation's two statistics, as the kernels write them -/

/-- A block minus its rows' means, each mean kept as a one-column matrix and broadcast along the lanes. -/
def centre (y : FVec Ideal S2048x128 .f32) : FVec Ideal S2048x128 .f32 :=
  subf y (broadcastTo S2048x128
    (divf (shapeCast S2048x1 (multiReduction .add [1] S2048 y 0x00000000#32 reduces_S2048x128_S2048 (.inl rfl) rfl) shapeCasts_S2048_S2048x1)
      (broadcast S2048x1 (Scalar.ofBits (F := Ideal) .f32 0x43000000#32)))
    broadcasts_S2048x1_S2048x128)

/-- The rows' mean squares of a block, as a one-column matrix. -/
def meanSq (c : FVec Ideal S2048x128 .f32) : FVec Ideal S2048x1 .f32 :=
  divf (shapeCast S2048x1 (multiReduction .add [1] S2048 (mulf c c) 0x00000000#32 reduces_S2048x128_S2048 (.inl rfl) rfl) shapeCasts_S2048_S2048x1)
    (broadcast S2048x1 (Scalar.ofBits (F := Ideal) .f32 0x43000000#32))

/-- The centred block at (p, j) is the centred row p at lane j. -/
theorem centre_apply (y : FVec Ideal S2048x128 .f32) (p : Fin 2048) (j : Fin 128) :
    centre y (ix2 p j) = ctr (row y p) j := by
  unfold centre
  rw [subf_apply, colBcast_apply, divf_apply, colSum_apply, splat_apply]
  rfl

/-- The mean square of row p. -/
theorem meanSq_apply (c : FVec Ideal S2048x128 .f32) (p : Fin 2048) :
    meanSq c (ix2 p (0 : Fin 1)) = Ideal.div (∑ k : Fin 128, c (ix2 p k) * c (ix2 p k)) c128 := by
  unfold meanSq
  rw [divf_apply, colSum_apply, splat_apply]
  rfl

/-! ## The edge kernel -/

/-- The edge kernel's block before normalisation: the second linear layer of the hidden block, plus its bias. -/
def edgePre (v0 : Vec Ideal S2048x128 .f32) (v3 : Vec Ideal S128x128 .f32) (v6 v9 : Vec Ideal S2048x128 .f32)
    (v12 : Vec Ideal S128 .f32) (v19 : Vec Ideal S128x128 .f32) (v22 : Vec Ideal S128 .f32) : FVec Ideal S2048x128 .f32 :=
  have v1 : FVec Ideal S2048x128 .f32 := shapeCast S2048x128 v0 shapeCasts_S2048x128_S2048x128
  have v2 : FVec Ideal S2048x128 .bf16 := truncf .bf16 v1 bitsLt_bf16_f32
  have v4 : FVec Ideal S128x128 .bf16 := truncf .bf16 v3 bitsLt_bf16_f32
  have cst : FVec Ideal S2048x128 .f32 := constant S2048x128 .f32 0x00000000#32
  have v5 : FVec Ideal S2048x128 .f32 := matmul dot_S2048x128_S128x128_S2048x128_1_0_0_1_n_n none v2 v4 cst
  have v7 : FVec Ideal S2048x128 .f32 := shapeCast S2048x128 v6 shapeCasts_S2048x128_S2048x128
  have v8 : FVec Ideal S2048x128 .f32 := addf v5 v7
  have v10 : FVec Ideal S2048x128 .f32 := shapeCast S2048x128 v9 shapeCasts_S2048x128_S2048x128
  have v11 : FVec Ideal S2048x128 .f32 := addf v8 v10
  have v13 : FVec Ideal S1x128 .f32 := shapeCast S1x128 v12 shapeCasts_S128_S1x128
  have v14 : FVec Ideal S2048x128 .f32 := broadcastTo S2048x128 v13 broadcasts_S1x128_S2048x128
  have v15 : FVec Ideal S2048x128 .f32 := addf v11 v14
  have v16 : FVec Ideal S2048x128 .f32 := logistic v15
  have v17 : FVec Ideal S2048x128 .f32 := mulf v15 v16
  have v18 : FVec Ideal S2048x128 .bf16 := truncf .bf16 v17 bitsLt_bf16_f32
  have v20 : FVec Ideal S128x128 .bf16 := truncf .bf16 v19 bitsLt_bf16_f32
  have cst_10 : FVec Ideal S2048x128 .f32 := constant S2048x128 .f32 0x00000000#32
  have v21 : FVec Ideal S2048x128 .f32 := matmul dot_S2048x128_S128x128_S2048x128_1_0_0_1_n_n none v18 v20 cst_10
  have v23 : FVec Ideal S1x128 .f32 := shapeCast S1x128 v22 shapeCasts_S128_S1x128
  have v24 : FVec Ideal S2048x128 .f32 := broadcastTo S2048x128 v23 broadcasts_S1x128_S2048x128
  addf v21 v24

/-- The edge kernel's centred block is the centring of its block before normalisation. -/
theorem k2_pay2_eq (v0 : Vec Ideal S2048x128 .f32) (v3 : Vec Ideal S128x128 .f32) (v6 v9 : Vec Ideal S2048x128 .f32)
    (v12 : Vec Ideal S128 .f32) (v19 : Vec Ideal S128x128 .f32) (v22 : Vec Ideal S128 .f32) :
    k2_pay2 (F := Ideal) v0 v3 v6 v9 v12 v19 v22 = centre (edgePre v0 v3 v6 v9 v12 v19 v22) := rfl

/-- The edge kernel's reciprocal standard deviation, from its centred block. -/
theorem k2_pay3_eq (v0 : Vec Ideal S2048x128 .f32) (v3 : Vec Ideal S128x128 .f32) (v6 v9 : Vec Ideal S2048x128 .f32)
    (v12 : Vec Ideal S128 .f32) (v19 : Vec Ideal S128x128 .f32) (v22 : Vec Ideal S128 .f32) :
    k2_pay3 (F := Ideal) v0 v3 v6 v9 v12 v19 v22
      = rsqrt (addf (meanSq (k2_pay2 (F := Ideal) v0 v3 v6 v9 v12 v19 v22))
          (broadcast S2048x1 (Scalar.ofBits (F := Ideal) .f32 0x3727C5AC#32))) := rfl

/-- The hidden block of the edge kernel at (p, k): the hidden row of edge p at lane k. -/
theorem edgePre_apply (v0 : Vec Ideal S2048x128 .f32) (v3 : Vec Ideal S128x128 .f32) (v6 v9 : Vec Ideal S2048x128 .f32)
    (v12 : Vec Ideal S128 .f32) (v19 : Vec Ideal S128x128 .f32) (v22 : Vec Ideal S128 .f32) (p : Fin 2048) (j : Fin 128) :
    edgePre v0 v3 v6 v9 v12 v19 v22 (ix2 p j)
      = lin (edgeHidden (row v0 p) (row v6 p) (row v9 p) (mat v3) (vec v12)) (mat v19) j + vec v22 j := by
  unfold edgePre
  rw [addf_apply, mm_apply, biasRow_apply]
  simp only [truncf_apply, mulf_apply, logistic_apply, addf_apply, mm_apply, biasRow_apply, shapeCast_self]
  rfl

/-- The edge kernel's stored block at (p, j): the new feature of edge p at lane j. -/
theorem pay_edge (v0 v6 v9 : Vec Ideal S2048x128 .f32) (v3 v19 : Vec Ideal S128x128 .f32) (v12 v22 v42 v46 : Vec Ideal S128 .f32)
    (p : Fin 2048) (j : Fin 128) :
    k2_pay1 (F := Ideal) (k2_pay2 v0 v3 v6 v9 v12 v19 v22) (k2_pay3 v0 v3 v6 v9 v12 v19 v22) v42 v46 (ix2 p j)
      = edgeRow (row v0 p) (row v6 p) (row v9 p) (mat v3) (vec v12) (mat v19) (vec v22) (vec v42) (vec v46) j := by
  have hrow : row (edgePre v0 v3 v6 v9 v12 v19 v22) p
      = fun j => lin (edgeHidden (row v0 p) (row v6 p) (row v9 p) (mat v3) (vec v12)) (mat v19) j + vec v22 j :=
    funext fun k => edgePre_apply v0 v3 v6 v9 v12 v19 v22 p k
  unfold k2_pay1
  rw [addf_apply, mulf_apply, mulf_apply, biasRow_apply, biasRow_apply, colBcast_apply, k2_pay3_eq, rsqrt_apply, addf_apply,
    meanSq_apply, splat_apply, k2_pay2_eq]
  simp only [centre_apply, hrow]
  rfl

/-! ## The node kernel -/

/-- The node kernel's block before normalisation: the first layer as two products added, the hidden block, the second
    linear layer, plus its bias. -/
def nodePre (v0 v2 : Vec Ideal S2048x128 .f32) (v6 v9 : Vec Ideal S128x128 .f32) (v15 : Vec Ideal S128 .f32)
    (v22 : Vec Ideal S128x128 .f32) (v25 : Vec Ideal S128 .f32) : FVec Ideal S2048x128 .f32 :=
  have v3 : FVec Ideal S2048x128 .f32 := shapeCast S2048x128 v2 shapeCasts_S2048x128_S2048x128
  have v4 : FVec Ideal S2048x128 .bf16 := truncf .bf16 (k3_pay2 (F := Ideal) v0) bitsLt_bf16_f32
  have v5 : FVec Ideal S2048x128 .bf16 := truncf .bf16 v3 bitsLt_bf16_f32
  have v7 : FVec Ideal S128x128 .f32 := shapeCast S128x128 v6 shapeCasts_S128x128_S128x128
  have v8 : FVec Ideal S128x128 .bf16 := truncf .bf16 v7 bitsLt_bf16_f32
  have v10 : FVec Ideal S128x128 .f32 := shapeCast S128x128 v9 shapeCasts_S128x128_S128x128
  have v11 : FVec Ideal S128x128 .bf16 := truncf .bf16 v10 bitsLt_bf16_f32
  have cst : FVec Ideal S2048x128 .f32 := constant S2048x128 .f32 0x00000000#32
  have v12 : FVec Ideal S2048x128 .f32 := matmul dot_S2048x128_S128x128_S2048x128_1_0_0_1_n_n none v4 v8 cst
  have cst_7 : FVec Ideal S2048x128 .f32 := constant S2048x128 .f32 0x00000000#32
  have v13 : FVec Ideal S2048x128 .f32 := matmul dot_S2048x128_S128x128_S2048x128_1_0_0_1_n_n none v5 v11 cst_7
  have v14 : FVec Ideal S2048x128 .f32 := addf v12 v13
  have v16 : FVec Ideal S1x128 .f32 := shapeCast S1x128 v15 shapeCasts_S128_S1x128
  have v17 : FVec Ideal S2048x128 .f32 := broadcastTo S2048x128 v16 broadcasts_S1x128_S2048x128
  have v18 : FVec Ideal S2048x128 .f32 := addf v14 v17
  have v19 : FVec Ideal S2048x128 .f32 := logistic v18
  have v20 : FVec Ideal S2048x128 .f32 := mulf v18 v19
  have v21 : FVec Ideal S2048x128 .bf16 := truncf .bf16 v20 bitsLt_bf16_f32
  have v23 : FVec Ideal S128x128 .bf16 := truncf .bf16 v22 bitsLt_bf16_f32
  have cst_11 : FVec Ideal S2048x128 .f32 := constant S2048x128 .f32 0x00000000#32
  have v24 : FVec Ideal S2048x128 .f32 := matmul dot_S2048x128_S128x128_S2048x128_1_0_0_1_n_n none v21 v23 cst_11
  have v26 : FVec Ideal S1x128 .f32 := shapeCast S1x128 v25 shapeCasts_S128_S1x128
  have v27 : FVec Ideal S2048x128 .f32 := broadcastTo S2048x128 v26 broadcasts_S1x128_S2048x128
  addf v24 v27

/-- The node kernel's centred block is the centring of its block before normalisation. -/
theorem k3_pay3_eq (v0 v2 : Vec Ideal S2048x128 .f32) (v6 v9 : Vec Ideal S128x128 .f32) (v15 : Vec Ideal S128 .f32)
    (v22 : Vec Ideal S128x128 .f32) (v25 : Vec Ideal S128 .f32) :
    k3_pay3 (F := Ideal) v0 v2 v6 v9 v15 v22 v25 = centre (nodePre v0 v2 v6 v9 v15 v22 v25) := rfl

/-- The node kernel's variance column is the mean square of its centred block. -/
theorem k3_pay4_eq (v0 v2 : Vec Ideal S2048x128 .f32) (v6 v9 : Vec Ideal S128x128 .f32) (v15 : Vec Ideal S128 .f32)
    (v22 : Vec Ideal S128x128 .f32) (v25 : Vec Ideal S128 .f32) :
    k3_pay4 (F := Ideal) v0 v2 v6 v9 v15 v22 v25 = meanSq (k3_pay3 (F := Ideal) v0 v2 v6 v9 v15 v22 v25) := rfl

/-- The node kernel's block before normalisation at (p, j). -/
theorem nodePre_apply (v0 v2 : Vec Ideal S2048x128 .f32) (v6 v9 : Vec Ideal S128x128 .f32) (v15 : Vec Ideal S128 .f32)
    (v22 : Vec Ideal S128x128 .f32) (v25 : Vec Ideal S128 .f32) (p : Fin 2048) (j : Fin 128) :
    nodePre v0 v2 v6 v9 v15 v22 v25 (ix2 p j)
      = lin (nodeHidden (row v0 p) (row v2 p) (mat v6) (mat v9) (vec v15)) (mat v22) j + vec v25 j := by
  unfold nodePre k3_pay2
  rw [addf_apply, mm_apply, biasRow_apply]
  simp only [truncf_apply, mulf_apply, logistic_apply, addf_apply, mm_apply, biasRow_apply, shapeCast_self]
  rfl

/-- The node kernel's stored block at (p, j): the new feature of node p at lane j, the residual added. -/
theorem pay_node (v0 v2 : Vec Ideal S2048x128 .f32) (v6 v9 v22 : Vec Ideal S128x128 .f32) (v15 v25 v45 v49 : Vec Ideal S128 .f32)
    (p : Fin 2048) (j : Fin 128) :
    k3_pay1 (F := Ideal) (k3_pay2 v0) (k3_pay3 v0 v2 v6 v9 v15 v22 v25) (k3_pay4 v0 v2 v6 v9 v15 v22 v25) v45 v49 (ix2 p j)
      = nodeRow (row v0 p) (row v2 p) (mat v6) (mat v9) (vec v15) (mat v22) (vec v25) (vec v45) (vec v49) j := by
  have hrow : row (nodePre v0 v2 v6 v9 v15 v22 v25) p
      = fun j => lin (nodeHidden (row v0 p) (row v2 p) (mat v6) (mat v9) (vec v15)) (mat v22) j + vec v25 j :=
    funext fun k => nodePre_apply v0 v2 v6 v9 v15 v22 v25 p k
  unfold k3_pay1
  rw [addf_apply, addf_apply, mulf_apply, mulf_apply, biasRow_apply, biasRow_apply, colBcast_apply, rsqrt_apply, addf_apply,
    k3_pay4_eq, meanSq_apply, splat_apply, k3_pay3_eq]
  simp only [centre_apply, hrow]
  unfold k3_pay2
  rw [shapeCast_self]
  rfl

end Cert.EdgeNode.Ker

end
-- ==== Proof.LibBatchStats.lean ====
import Idealize.ShloMosaic.PureOps.Ideal
import Idealize.ShloMosaic.PureOps.Ideal.Laws
import Mathlib

noncomputable section

namespace Cert.Lib.BatchStats

open Idealize.ShloMosaic
open scoped BigOperators

/-- The coercion of the reals into the extended reals commutes with finite sums:
    the sum of the reals `f i`, coerced, is the sum of the coerced `f i`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The variance identity on the reals: with `μ = (Σ x)/n`,
    `(Σ x²)/n − μ·μ = (Σ (x − μ)·(x − μ))/n`. -/
theorem real_variance {n : ℕ} (hn : n ≠ 0) (x : Fin n → ℝ) :
    (∑ i, x i * x i) / (n : ℝ) - (∑ i, x i) / (n : ℝ) * ((∑ i, x i) / (n : ℝ))
      = (∑ i, (x i - (∑ i', x i') / (n : ℝ)) * (x i - (∑ i', x i') / (n : ℝ))) / (n : ℝ) := by
  have hn' : (n : ℝ) ≠ 0 := by exact_mod_cast hn
  set S : ℝ := ∑ i, x i with hS
  set μ : ℝ := S / (n : ℝ) with hμ
  have key : ∑ i, (x i - μ) * (x i - μ) = (∑ i, x i * x i) - 2 * μ * S + (n : ℝ) * (μ * μ) := by
    have : ∀ i, (x i - μ) * (x i - μ) = x i * x i - 2 * μ * x i + μ * μ := fun i => by ring
    simp only [this, Finset.sum_add_distrib, Finset.sum_sub_distrib, ← Finset.mul_sum,
      Finset.sum_const, Finset.card_univ, Fintype.card_fin, nsmul_eq_mul, ← hS]
    ring
  rw [key, hμ]
  field_simp
  ring

/-- The one-pass and the two-pass variance agree on real data: with `μ = (Σ x)/n`,
    `(Σ x²)/n − μ·μ = (Σ (x−μ)·(x−μ))/n`, all operations the extended reals' and the quotient
    `Ideal.div` by the real `n ≠ 0`. -/
theorem variance_one_pass_eq_two_pass {n : ℕ} (hn : n ≠ 0) (x : Fin n → ℝ) :
    Ideal.div (∑ i, ((x i : EReal) * (x i : EReal))) ((n : ℝ) : EReal)
        - Ideal.div (∑ i, (x i : EReal)) ((n : ℝ) : EReal)
          * Ideal.div (∑ i, (x i : EReal)) ((n : ℝ) : EReal)
      = Ideal.div (∑ i, (((x i : EReal) - Ideal.div (∑ i', (x i' : EReal)) ((n : ℝ) : EReal))
          * ((x i : EReal) - Ideal.div (∑ i', (x i' : EReal)) ((n : ℝ) : EReal)))) ((n : ℝ) : EReal) := by
  have hn' : (n : ℝ) ≠ 0 := by exact_mod_cast hn
  simp only [← EReal.coe_mul, ← coe_sum, div_coe_coe _ hn', ← EReal.coe_sub]
  rw [real_variance hn x]

/-- The same identity with each sum spelled as the initial value `0` plus the sum. -/
theorem variance_one_pass_eq_two_pass' {n : ℕ} (hn : n ≠ 0) (x : Fin n → ℝ) :
    Ideal.div (0 + ∑ i, ((x i : EReal) * (x i : EReal))) ((n : ℝ) : EReal)
        - Ideal.div (0 + ∑ i, (x i : EReal)) ((n : ℝ) : EReal)
          * Ideal.div (0 + ∑ i, (x i : EReal)) ((n : ℝ) : EReal)
      = Ideal.div (0 + ∑ i, (((x i : EReal) - Ideal.div (0 + ∑ i', (x i' : EReal)) ((n : ℝ) : EReal))
          * ((x i : EReal) - Ideal.div (0 + ∑ i', (x i' : EReal)) ((n : ℝ) : EReal)))) ((n : ℝ) : EReal) := by
  simp only [zero_add]
  exact variance_one_pass_eq_two_pass hn x

/-! ## Extended reals that are reals -/

/-- An extended real that is (the coercion of) a real: neither infinity. -/
def IsReal (x : EReal) : Prop := ∃ r : ℝ, x = (r : EReal)

namespace IsReal

/-- A coerced real is a real. -/
theorem coe (r : ℝ) : IsReal (r : EReal) := ⟨r, rfl⟩

/-- `0` is a real. -/
theorem zero : IsReal 0 := ⟨0, EReal.coe_zero.symm⟩

/-- `1` is a real. -/
theorem one : IsReal 1 := ⟨1, EReal.coe_one.symm⟩

/-- A real extended real is the coercion of its real part. -/
theorem coe_toReal {x : EReal} (h : IsReal x) : ((x.toReal : ℝ) : EReal) = x := by
  obtain ⟨r, rfl⟩ := h; simp

/-- A real extended real is neither infinity. -/
theorem ne_top {x : EReal} (h : IsReal x) : x ≠ ⊤ := by
  obtain ⟨r, rfl⟩ := h; exact EReal.coe_ne_top r

/-- A real extended real is neither infinity. -/
theorem ne_bot {x : EReal} (h : IsReal x) : x ≠ ⊥ := by
  obtain ⟨r, rfl⟩ := h; exact EReal.coe_ne_bot r

/-- An extended real that is neither infinity is a real. -/
theorem of_ne {x : EReal} (ht : x ≠ ⊤) (hb : x ≠ ⊥) : IsReal x :=
  ⟨x.toReal, (EReal.coe_toReal ht hb).symm⟩

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem neg {x : EReal} (hx : IsReal x) : IsReal (-x) := by
  obtain ⟨a, rfl⟩ := hx; exact ⟨-a, (EReal.coe_neg a).symm⟩

/-- A finite sum of reals is a real. -/
theorem sum {ι : Type*} (s : Finset ι) (f : ι → EReal) (h : ∀ i ∈ s, IsReal (f i)) :
    IsReal (∑ i ∈ s, f i) :=
  Finset.sum_induction f IsReal (fun _ _ => add) zero h

/-- A sum of reals over a whole finite type is a real. -/
theorem sum_univ {ι : Type*} [Fintype ι] (f : ι → EReal) (h : ∀ i, IsReal (f i)) :
    IsReal (∑ i, f i) :=
  sum Finset.univ f fun i _ => h i

/-- The quotient of a real by a nonzero real is a real. -/
theorem div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h, EReal.coe_zero])
  exact ⟨a / b, div_coe_coe a hb⟩

/-- The exponential of a real is a real. -/
theorem exp {x : EReal} (hx : IsReal x) : IsReal (Ideal.exp x) := by
  obtain ⟨a, rfl⟩ := hx; exact ⟨Real.exp a, Ideal.exp_coe a⟩

/-- The logistic function `1 / (1 + e^{-x})` of a real is a real: the denominator is positive. -/
theorem logistic {x : EReal} (hx : IsReal x) : IsReal (Ideal.div 1 (1 + Ideal.exp (-x))) := by
  obtain ⟨a, rfl⟩ := hx
  have hpos : (1 + Real.exp (-a)) ≠ 0 := (add_pos one_pos (Real.exp_pos _)).ne'
  refine ⟨1 / (1 + Real.exp (-a)), ?_⟩
  rw [← EReal.coe_neg, Ideal.exp_coe, ← EReal.coe_one, ← EReal.coe_add, div_coe_coe _ hpos]

/-- The same for the library's name of the logistic function. -/
theorem logistic' {x : EReal} (hx : IsReal x) : IsReal (Ideal.logistic x) := logistic hx

/-- The larger of two reals is a real. -/
theorem max {x y : EReal} (hx : IsReal x) (hy : IsReal y) : IsReal (Max.max x y) := by
  rcases le_total x y with h | h
  · rw [max_eq_right h]; exact hy
  · rw [max_eq_left h]; exact hx

/-- The smaller of two reals is a real. -/
theorem min {x y : EReal} (hx : IsReal x) (hy : IsReal y) : IsReal (Min.min x y) := by
  rcases le_total x y with h | h
  · rw [min_eq_left h]; exact hx
  · rw [min_eq_right h]; exact hy

/-- The reciprocal square root of a positive real is a real. -/
theorem rsqrt {x : EReal} (hx : IsReal x) (hpos : 0 < x) : IsReal (Ideal.rsqrt x) := by
  obtain ⟨a, rfl⟩ := hx
  have ha : 0 < a := by exact_mod_cast hpos
  refine ⟨(Real.sqrt a)⁻¹, ?_⟩
  rw [Ideal.rsqrt_coe, if_neg (not_lt.mpr ha.le), if_neg ha.ne']

end IsReal

/-- The reciprocal square root of a positive real, named: `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The one-pass and two-pass variance agree on extended-real data all of whose entries are reals. -/
theorem variance_one_pass_eq_two_pass_of_isReal {n : ℕ} (hn : n ≠ 0) (X : Fin n → EReal)
    (hX : ∀ i, IsReal (X i)) :
    Ideal.div (∑ i, (X i * X i)) ((n : ℝ) : EReal)
        - Ideal.div (∑ i, X i) ((n : ℝ) : EReal) * Ideal.div (∑ i, X i) ((n : ℝ) : EReal)
      = Ideal.div (∑ i, ((X i - Ideal.div (∑ i', X i') ((n : ℝ) : EReal))
          * (X i - Ideal.div (∑ i', X i') ((n : ℝ) : EReal)))) ((n : ℝ) : EReal) := by
  choose x hx using hX
  obtain rfl : X = fun i => (x i : EReal) := funext hx
  exact variance_one_pass_eq_two_pass hn x

/-- The same with each sum spelled as the initial value `0` plus the sum. -/
theorem variance_one_pass_eq_two_pass_of_isReal' {n : ℕ} (hn : n ≠ 0) (X : Fin n → EReal)
    (hX : ∀ i, IsReal (X i)) :
    Ideal.div (0 + ∑ i, (X i * X i)) ((n : ℝ) : EReal)
        - Ideal.div (0 + ∑ i, X i) ((n : ℝ) : EReal) * Ideal.div (0 + ∑ i, X i) ((n : ℝ) : EReal)
      = Ideal.div (0 + ∑ i, ((X i - Ideal.div (0 + ∑ i', X i') ((n : ℝ) : EReal))
          * (X i - Ideal.div (0 + ∑ i', X i') ((n : ℝ) : EReal)))) ((n : ℝ) : EReal) := by
  simp only [zero_add]
  exact variance_one_pass_eq_two_pass_of_isReal hn X hX

/-- The two-pass variance of real data is a nonnegative real. -/
theorem variance_two_pass_nonneg {n : ℕ} (hn : n ≠ 0) (x : Fin n → ℝ) :
    ∃ v : ℝ, 0 ≤ v ∧
      Ideal.div (∑ i, (((x i : EReal) - Ideal.div (∑ i', (x i' : EReal)) ((n : ℝ) : EReal))
          * ((x i : EReal) - Ideal.div (∑ i', (x i' : EReal)) ((n : ℝ) : EReal)))) ((n : ℝ) : EReal)
        = (v : EReal) := by
  have hn' : (n : ℝ) ≠ 0 := by exact_mod_cast hn
  refine ⟨(∑ i, (x i - (∑ i', x i') / (n : ℝ)) * (x i - (∑ i', x i') / (n : ℝ))) / (n : ℝ), ?_, ?_⟩
  · exact div_nonneg (Finset.sum_nonneg fun i _ => mul_self_nonneg _) (Nat.cast_nonneg n)
  · simp only [← EReal.coe_mul, ← coe_sum, div_coe_coe _ hn', ← EReal.coe_sub]

/-! ## Literals -/

/-- The binary32 pattern `0x3F800000` denotes the real `1`. -/
theorem ofBits_one : Ideal.ofBits .f32 0x3F800000#32 = ((1 : ℝ) : EReal) := by
  simp [Ideal.ofBits, Ideal.ieee, -EReal.coe_mul]; norm_num

/-- The binary32 pattern `0x47435000` denotes the real `50000`. -/
theorem ofBits_50000 : Ideal.ofBits .f32 0x47435000#32 = ((50000 : ℝ) : EReal) := by
  simp [Ideal.ofBits, Ideal.ieee, -EReal.coe_mul]; norm_num

/-- The binary32 pattern `0x3727C5AC` (the binary32 value nearest `10⁻⁵`) denotes a positive real,
    `10995116 · 2⁻⁴⁰`. -/
theorem ofBits_eps_pos : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

/-! ## Sums by blocks, and accumulators -/

/-- Row `r` of block `t`, among `n` blocks of `b` rows: the row `t·b + r` of the `n·b` rows. -/
def blockIdx {n b : ℕ} (t : Fin n) (r : Fin b) : Fin (n * b) :=
  ⟨t.val * b + r.val, by
    have h1 : t.val * b + r.val < (t.val + 1) * b := by rw [Nat.succ_mul]; exact Nat.add_lt_add_left r.isLt _
    exact lt_of_lt_of_le h1 (Nat.mul_le_mul_right b t.isLt)⟩

/-- The value of `blockIdx t r` is `t·b + r`. -/
@[simp] theorem blockIdx_val {n b : ℕ} (t : Fin n) (r : Fin b) : (blockIdx t r).val = t.val * b + r.val := rfl

/-- A sum over `n·b` rows taken `b` rows at a time: `Σ_{t<n} Σ_{r<b} f(t·b + r) = Σ_{i<n·b} f i`,
    in any additive commutative monoid. -/
theorem sum_blocks {M : Type*} [AddCommMonoid M] (n b : ℕ) (f : Fin (n * b) → M) :
    (∑ t : Fin n, ∑ r : Fin b, f (blockIdx t r)) = ∑ i : Fin (n * b), f i := by
  rw [← Equiv.sum_comp finProdFinEquiv f, Fintype.sum_prod_type]
  refine Finset.sum_congr rfl fun t _ => Finset.sum_congr rfl fun r _ => ?_
  congr 1
  apply Fin.ext
  simp [blockIdx, finProdFinEquiv, Nat.mul_comm, Nat.add_comm]

/-- The same for a function of the natural-number row index:
    `Σ_{t<n} Σ_{r<b} f(t·b + r) = Σ_{i<n·b} f i`. -/
theorem sum_blocks_nat {M : Type*} [AddCommMonoid M] (n b : ℕ) (f : ℕ → M) :
    (∑ t : Fin n, ∑ r : Fin b, f (t.val * b + r.val)) = ∑ i : Fin (n * b), f i.val :=
  sum_blocks n b fun i => f i.val

/-- The same over ranges of natural numbers. -/
theorem sum_blocks_range {M : Type*} [AddCommMonoid M] (n b : ℕ) (f : ℕ → M) :
    (∑ t ∈ Finset.range n, ∑ r ∈ Finset.range b, f (t * b + r)) = ∑ i ∈ Finset.range (n * b), f i := by
  rw [Finset.sum_range, Finset.sum_range (fun i => f i), ← sum_blocks_nat]
  exact Finset.sum_congr rfl fun t _ => Finset.sum_range _

/-- The same when the number of rows is given as `N = n·b`. -/
theorem sum_blocks_of_eq {M : Type*} [AddCommMonoid M] {N n b : ℕ} (h : N = n * b) (f : Fin N → M) :
    (∑ t : Fin n, ∑ r : Fin b, f ⟨t.val * b + r.val, h ▸ (blockIdx t r).isLt⟩) = ∑ i : Fin N, f i := by
  subst h
  exact sum_blocks n b f

/-- An accumulator started at `0` and increased by `s t` at step `t` holds `Σ_{t<k} s t` after
    `k` steps. -/
theorem acc_eq_sum {M : Type*} [AddCommMonoid M] (s : ℕ → M) (acc : ℕ → M) (h0 : acc 0 = 0)
    (hstep : ∀ t, acc (t + 1) = acc t + s t) (k : ℕ) : acc k = ∑ t ∈ Finset.range k, s t := by
  induction k with
  | zero => simpa using h0
  | succ k ih => rw [hstep, ih, Finset.sum_range_succ]

/-- The same when the step rule is known only for the first `K` steps: for `k ≤ K`. -/
theorem acc_eq_sum_le {M : Type*} [AddCommMonoid M] (s : ℕ → M) (acc : ℕ → M) (K : ℕ) (h0 : acc 0 = 0)
    (hstep : ∀ t, t < K → acc (t + 1) = acc t + s t) (k : ℕ) (hk : k ≤ K) :
    acc k = ∑ t ∈ Finset.range k, s t := by
  induction k with
  | zero => simpa using h0
  | succ k ih => rw [hstep k hk, ih (Nat.le_of_succ_le hk), Finset.sum_range_succ]

/-! ## The literals are reals; the variance identity with a named divisor -/

/-- The binary32 pattern of `0` is a real. -/
theorem isReal_ofBits_zero : IsReal (Ideal.ofBits .f32 0x00000000#32) := by
  rw [Ideal.ofBits_zero_f32]; exact IsReal.zero

/-- The binary32 pattern of `1` is a real. -/
theorem isReal_ofBits_one : IsReal (Ideal.ofBits .f32 0x3F800000#32) := ⟨1, ofBits_one⟩

/-- The binary32 pattern of `50000` is a real. -/
theorem isReal_ofBits_50000 : IsReal (Ideal.ofBits .f32 0x47435000#32) := ⟨50000, ofBits_50000⟩

/-- The binary32 pattern nearest `10⁻⁵` is a real. -/
theorem isReal_ofBits_eps : IsReal (Ideal.ofBits .f32 0x3727C5AC#32) := by
  obtain ⟨ε, _, h⟩ := ofBits_eps_pos; exact ⟨ε, h⟩

/-- The binary32 pattern of `50000` is not `0`. -/
theorem ofBits_50000_ne_zero : Ideal.ofBits .f32 0x47435000#32 ≠ 0 := by
  rw [ofBits_50000]; exact_mod_cast (by norm_num : (50000 : ℝ) ≠ 0)

/-- The one-pass and two-pass variance agree on real-valued extended-real data, the divisor any
    extended real `d` equal to the count `n ≠ 0`. -/
theorem variance_one_pass_eq_two_pass_of_isReal_div {n : ℕ} (hn : n ≠ 0) (X : Fin n → EReal)
    (hX : ∀ i, IsReal (X i)) (d : EReal) (hd : d = ((n : ℝ) : EReal)) :
    Ideal.div (∑ i, (X i * X i)) d - Ideal.div (∑ i, X i) d * Ideal.div (∑ i, X i) d
      = Ideal.div (∑ i, ((X i - Ideal.div (∑ i', X i') d) * (X i - Ideal.div (∑ i', X i') d))) d := by
  subst hd
  exact variance_one_pass_eq_two_pass_of_isReal hn X hX

/-- The same with each sum spelled as the initial value `0` plus the sum. -/
theorem variance_one_pass_eq_two_pass_of_isReal_div' {n : ℕ} (hn : n ≠ 0) (X : Fin n → EReal)
    (hX : ∀ i, IsReal (X i)) (d : EReal) (hd : d = ((n : ℝ) : EReal)) :
    Ideal.div (0 + ∑ i, (X i * X i)) d - Ideal.div (0 + ∑ i, X i) d * Ideal.div (0 + ∑ i, X i) d
      = Ideal.div (0 + ∑ i, ((X i - Ideal.div (0 + ∑ i', X i') d)
          * (X i - Ideal.div (0 + ∑ i', X i') d))) d := by
  subst hd
  exact variance_one_pass_eq_two_pass_of_isReal' hn X hX

/-- Ten successive additions onto an initial value `z` give `z` plus the sum of the ten terms. -/
theorem fold10 {M : Type*} [AddCommMonoid M] (z : M) (a : ℕ → M) :
    (((((((((z + a 0) + a 1) + a 2) + a 3) + a 4) + a 5) + a 6) + a 7) + a 8) + a 9
      = z + ∑ t ∈ Finset.range 10, a t := by
  simp only [Finset.sum_range_succ, Finset.sum_range_zero, zero_add, add_assoc]

/-- A sum over a range of natural numbers of a function read at the index's value is the sum over
    the finite type: `Σ_{t<n} a t = Σ_{t : Fin n} a t`. -/
theorem sum_range_eq_sum_fin {M : Type*} [AddCommMonoid M] (n : ℕ) (a : ℕ → M) :
    ∑ t ∈ Finset.range n, a t = ∑ t : Fin n, a t.val :=
  Finset.sum_range a

end Cert.Lib.BatchStats

end
-- ==== Proof.RefRows.lean ====
/-
  The reference program read one row at a time.

  Each stage of the reference, read at row r and lane j, is the corresponding row function of the specification
  applied to row r of the row-indexed operands and to the whole weight matrices and bias vectors:

  * the two endpoint products are a row times a matrix;
  * an edge's hidden row is silu of (own row times We + gathered source row + gathered destination row + bias),
    the program's silu h * (1 / (1 + exp (-h))) being h times the logistic function of h because the word
    0x3F800000 denotes 1;
  * the second product plus its bias is the row that is normalised; its lane sum starts from the zero word, which
    denotes 0, so it is the plain sum; mean, centred row, variance and reciprocal square root follow stage by stage;
  * a node's first layer multiplies the concatenation of its own row and its aggregated row by a 256 x 128 matrix,
    which is the sum of the two 128-wide products (the specification's law for a concatenated row).

  The two gathers and the scatter are never opened: they occur only as arrays whose rows are read.
-/
import proofs.«179970_j42777874268719_1_alg».proof.Proof.Spec
import proofs.«179970_j42777874268719_1_alg».proof.Proof.LibBatchStats
import proofs.«179970_j42777874268719_1_alg».proof.Proof.Gen.ReferenceIdeal.Read

noncomputable section

open scoped BigOperators

namespace Cert.EdgeNode.Ref

open Cert.ReferenceIdeal Cert.ReferenceIdeal.Read Cert.EdgeNode Idealize.ShloMosaic Idealize.ShloMosaic.ValueIdx

/-- Two rank-2 indices given by cases on the axis are equal when their coordinates are. -/
local macro "idx2" : tactic => `(tactic| (funext a; match a with | ⟨0, _⟩ => rfl | ⟨1, _⟩ => rfl))
/-- The same for rank-1 indices. -/
local macro "idx1" : tactic => `(tactic| (funext a; match a with | ⟨0, _⟩ => rfl))

variable (x0 : (⟨S600000x128, .f32⟩ : BufTy).Contents (Elt Ideal))
  (x1 : (⟨S200000x128, .f32⟩ : BufTy).Contents (Elt Ideal))
  (x2 : (⟨S40962x128, .f32⟩ : BufTy).Contents (Elt Ideal))
  (x3 x4 : (⟨S600000, .i32⟩ : BufTy).Contents (Elt Ideal))
  (x5 x6 x7 : (⟨S128x128, .f32⟩ : BufTy).Contents (Elt Ideal))
  (x8 : (⟨S128, .f32⟩ : BufTy).Contents (Elt Ideal))
  (x9 : (⟨S128x128, .f32⟩ : BufTy).Contents (Elt Ideal))
  (x10 x11 x12 : (⟨S128, .f32⟩ : BufTy).Contents (Elt Ideal))
  (x13 : (⟨S256x128, .f32⟩ : BufTy).Contents (Elt Ideal))
  (x14 : (⟨S128, .f32⟩ : BufTy).Contents (Elt Ideal))
  (x15 : (⟨S128x128, .f32⟩ : BufTy).Contents (Elt Ideal))
  (x16 x17 x18 : (⟨S128, .f32⟩ : BufTy).Contents (Elt Ideal))

/-! ## The two endpoint products -/

/-- The mesh-side product, row r: row r of the operand times the matrix. -/
theorem ref_lin_mesh (r : Fin 40962) (j : Fin 128) :
    val_main_v1 (F := Ideal) x2 x6 (ix2 r j) = lin (row x2 r) (mat x6) j := by
  rw [val_main_v1_apply]
  unfold lin
  exact Finset.sum_congr rfl fun k _ => congrArg₂ (· * ·) (congrArg x2 (by idx2)) (congrArg x6 (by idx2))

/-- The grid-side product, row r. -/
theorem ref_lin_grid (r : Fin 200000) (j : Fin 128) :
    val_main_v10 (F := Ideal) x1 x7 (ix2 r j) = lin (row x1 r) (mat x7) j := by
  rw [val_main_v10_apply]
  unfold lin
  exact Finset.sum_congr rfl fun k _ => congrArg₂ (· * ·) (congrArg x1 (by idx2)) (congrArg x7 (by idx2))

/-! ## The edge stages -/

/-- The hidden row of edge r before silu: own row times We, plus the two gathered rows, plus the bias. -/
theorem ref_v21 (r : Fin 600000) (k : Fin 128) :
    val_main_v21 (F := Ideal) x0 x1 x2 x3 x4 x5 x6 x7 x8 (ix2 r k)
      = lin (row x0 r) (mat x5) k + row (val_main_v8 (F := Ideal) x2 x3 x6) r k
          + row (val_main_v17 (F := Ideal) x1 x4 x7) r k + vec x8 k := by
  rw [val_main_v21_apply, val_main_v18_apply, val_main_v9_apply, val_main_v0_apply, val_main_v20_apply,
    val_main_v19_apply]
  simp only [Ideal.addf_def]
  unfold lin
  refine congrArg₂ (· + ·) (congrArg₂ (· + ·) (congrArg₂ (· + ·) ?_ rfl) rfl) (congrArg x8 (by idx1))
  exact Finset.sum_congr rfl fun k' _ => congrArg₂ (· * ·) (congrArg x0 (by idx2)) (congrArg x5 (by idx2))

/-- The hidden row of edge r: the program's h * (1 / (1 + exp (-h))) is h times the logistic function of h. -/
theorem ref_v22 (r : Fin 600000) (k : Fin 128) :
    val_main_v22 (F := Ideal) x0 x1 x2 x3 x4 x5 x6 x7 x8 (ix2 r k)
      = edgeHidden (row x0 r) (row (val_main_v8 (F := Ideal) x2 x3 x6) r)
          (row (val_main_v17 (F := Ideal) x1 x4 x7) r) (mat x5) (vec x8) k := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply, ref_v21 x0 x1 x2 x3 x4 x5 x6 x7 x8 r k]
  simp only [Ideal.mulf_def, Ideal.hostDivf_def, Ideal.addf_def, Ideal.hostUnary_exp_def, Ideal.hostNegf_def,
    Ideal.negf_def, Ideal.ofBits_def]
  rw [Cert.Lib.BatchStats.ofBits_one, EReal.coe_one]
  rfl

/-- The row of edge r that is normalised: the hidden row times W1, plus the bias. -/
theorem ref_v26 (r : Fin 600000) (j : Fin 128) :
    val_main_v26 (F := Ideal) x0 x1 x2 x3 x4 x5 x6 x7 x8 x9 x10 (ix2 r j)
      = lin (edgeHidden (row x0 r) (row (val_main_v8 (F := Ideal) x2 x3 x6) r)
          (row (val_main_v17 (F := Ideal) x1 x4 x7) r) (mat x5) (vec x8)) (mat x9) j + vec x10 j := by
  rw [val_main_v26_apply, val_main_v23_apply, val_main_v25_apply, val_main_v24_apply, Ideal.addf_def]
  unfold lin
  refine congrArg₂ (· + ·) (Finset.sum_congr rfl fun k _ => ?_) (congrArg x10 (by idx1))
  rw [show lidx_main_v23 (ix2 r j) k = ix2 r k from by idx2, ref_v22 x0 x1 x2 x3 x4 x5 x6 x7 x8 r k]
  exact congrArg (_ * ·) (congrArg x9 (by idx2))

section EdgeNorm
/-! Layer normalisation of edge r, for any row Y that the normalised stage reads as. -/
variable (r : Fin 600000) (Y : Row)
  (hY : ∀ k : Fin 128, val_main_v26 (F := Ideal) x0 x1 x2 x3 x4 x5 x6 x7 x8 x9 x10 (ix2 r k) = Y k)
include hY

/-- The lane sum from the zero word is the plain sum of the row. -/
theorem ref_v27 : val_main_v27 (F := Ideal) x0 x1 x2 x3 x4 x5 x6 x7 x8 x9 x10 (ix1 r) = ∑ k : Fin 128, Y k := by
  rw [val_main_v27_apply, val_main_cst_apply, Ideal.ofBits_def, Ideal.ofBits_zero_f32, zero_add]
  exact Finset.sum_congr rfl fun k _ =>
    (congrArg (val_main_v26 (F := Ideal) x0 x1 x2 x3 x4 x5 x6 x7 x8 x9 x10) (show idx_main_v27 (ix1 r) k = ix2 r k by idx2)).trans (hY k)

/-- The mean of the row. -/
theorem ref_v30 : val_main_v30 (F := Ideal) x0 x1 x2 x3 x4 x5 x6 x7 x8 x9 x10 (ix2 r (0 : Fin 1)) = mean Y := by
  rw [val_main_v30_apply, val_main_v28_apply, val_main_v29_apply, val_main_cst_3_apply,
    show idx_main_v28 (ix2 r (0 : Fin 1)) = ix1 r from by idx1, ref_v27 x0 x1 x2 x3 x4 x5 x6 x7 x8 x9 x10 r Y hY]
  rfl

/-- The centred row. -/
theorem ref_v32 (j : Fin 128) : val_main_v32 (F := Ideal) x0 x1 x2 x3 x4 x5 x6 x7 x8 x9 x10 (ix2 r j) = ctr Y j := by
  rw [val_main_v32_apply, val_main_v31_apply, hY j,
    show idx_main_v31 (ix2 r j) = ix2 r (0 : Fin 1) from by idx2, ref_v30 x0 x1 x2 x3 x4 x5 x6 x7 x8 x9 x10 r Y hY]
  rfl

/-- The sum of the squared centred row. -/
theorem ref_v34 : val_main_v34 (F := Ideal) x0 x1 x2 x3 x4 x5 x6 x7 x8 x9 x10 (ix1 r) = ∑ k : Fin 128, ctr Y k * ctr Y k := by
  rw [val_main_v34_apply, val_main_cst_4_apply, Ideal.ofBits_def, Ideal.ofBits_zero_f32, zero_add]
  refine Finset.sum_congr rfl fun k _ => ?_
  rw [show idx_main_v34 (ix1 r) k = ix2 r k from by idx2, val_main_v33_apply, ref_v32 x0 x1 x2 x3 x4 x5 x6 x7 x8 x9 x10 r Y hY k]
  rfl

/-- The reciprocal square root of variance plus epsilon. -/
theorem ref_v40 : val_main_v40 (F := Ideal) x0 x1 x2 x3 x4 x5 x6 x7 x8 x9 x10 (ix2 r (0 : Fin 1)) = rstd Y := by
  rw [val_main_v40_apply, val_main_v39_apply, val_main_v37_apply, val_main_v35_apply, val_main_v36_apply,
    val_main_cst_5_apply, val_main_v38_apply, val_main_cst_6_apply,
    show idx_main_v35 (ix2 r (0 : Fin 1)) = ix1 r from by idx1, ref_v34 x0 x1 x2 x3 x4 x5 x6 x7 x8 x9 x10 r Y hY]
  rfl

/-- The normalised row, scaled and shifted. -/
theorem ref_v48 (j : Fin 128) :
    val_main_v48 (F := Ideal) x0 x1 x2 x3 x4 x5 x6 x7 x8 x9 x10 x11 x12 (ix2 r j) = lnorm Y (vec x11) (vec x12) j := by
  rw [val_main_v48_apply, val_main_v45_apply, val_main_v42_apply, val_main_v41_apply, val_main_v44_apply,
    val_main_v43_apply, val_main_v47_apply, val_main_v46_apply, ref_v32 x0 x1 x2 x3 x4 x5 x6 x7 x8 x9 x10 r Y hY j,
    show idx_main_v41 (ix2 r j) = ix2 r (0 : Fin 1) from by idx2, ref_v40 x0 x1 x2 x3 x4 x5 x6 x7 x8 x9 x10 r Y hY,
    show idx_main_v43 (idx_main_v44 (ix2 r j)) = ix1 j from by idx1,
    show idx_main_v46 (idx_main_v47 (ix2 r j)) = ix1 j from by idx1]
  rfl

end EdgeNorm

/-- THE EDGE STAGE: row r of the reference's new edge features is the specification's edge row of row r of the
    edge features and of the two gathered arrays. -/
theorem ref_edge (r : Fin 600000) (j : Fin 128) :
    val_main_v48 (F := Ideal) x0 x1 x2 x3 x4 x5 x6 x7 x8 x9 x10 x11 x12 (ix2 r j)
      = edgeRow (row x0 r) (row (val_main_v8 (F := Ideal) x2 x3 x6) r) (row (val_main_v17 (F := Ideal) x1 x4 x7) r)
          (mat x5) (vec x8) (mat x9) (vec x10) (vec x11) (vec x12) j := by
  unfold edgeRow
  exact ref_v48 x0 x1 x2 x3 x4 x5 x6 x7 x8 x9 x10 x11 x12 r _ (fun k => ref_v26 x0 x1 x2 x3 x4 x5 x6 x7 x8 x9 x10 r k) j

/-! ## The node stages -/

/-- The concatenated row of node r: lanes below 128 from the node's own row, the other lanes from its aggregated
    row. -/
theorem ref_v52 (r : Fin 200000) (c : Fin 256) :
    val_main_v52 (F := Ideal) x0 x1 x2 x3 x4 x5 x6 x7 x8 x9 x10 x11 x12 (ix2 r c) = catRow (row x1 r) (row (val_main_v51 (F := Ideal) x0 x1 x2 x3 x4 x5 x6 x7 x8 x9 x10 x11 x12) r) c := by
  unfold val_main_v52 catRow
  by_cases h : c.val < 128
  · rw [dif_pos h]
    exact concatenate_pair_apply_left (t := S200000x256) (s₁ := S200000x128) (s₂ := S200000x128) (1 : Fin S200000x256.rank) x1 (val_main_v51 (F := Ideal) x0 x1 x2 x3 x4 x5 x6 x7 x8 x9 x10 x11 x12) _
      (ix2 r c) rfl (ix2 r ⟨c.val, h⟩)
      (fun b => match b with | ⟨0, _⟩ => rfl | ⟨1, _⟩ => rfl)
  · rw [dif_neg h]
    exact concatenate_pair_apply_right (t := S200000x256) (s₁ := S200000x128) (s₂ := S200000x128) (1 : Fin S200000x256.rank) x1 (val_main_v51 (F := Ideal) x0 x1 x2 x3 x4 x5 x6 x7 x8 x9 x10 x11 x12) _
      (ix2 r c) rfl rfl
      (ix2 r ⟨c.val - 128, by have := c.isLt; omega⟩)
      (fun b => match b with | ⟨0, _⟩ => fun _ => rfl | ⟨1, _⟩ => fun hb => absurd rfl hb)
      (by show c.val - 128 + 128 = c.val; omega)

/-- The first layer of node r as one 256-wide product of the concatenated row. -/
theorem ref_v53 (r : Fin 200000) (k : Fin 128) :
    val_main_v53 (F := Ideal) x0 x1 x2 x3 x4 x5 x6 x7 x8 x9 x10 x11 x12 x13 (ix2 r k) = lin256 (catRow (row x1 r) (row (val_main_v51 (F := Ideal) x0 x1 x2 x3 x4 x5 x6 x7 x8 x9 x10 x11 x12) r)) (mat2 x13) k := by
  rw [val_main_v53_apply]
  unfold lin256
  refine Finset.sum_congr rfl fun c _ => ?_
  rw [show lidx_main_v53 (ix2 r k) c = ix2 r c from by idx2, ref_v52 x0 x1 x2 x3 x4 x5 x6 x7 x8 x9 x10 x11 x12 r c]
  exact congrArg (_ * ·) (congrArg x13 (by idx2))

/-- The hidden row of node r before silu. -/
theorem ref_v56 (r : Fin 200000) (k : Fin 128) :
    val_main_v56 (F := Ideal) x0 x1 x2 x3 x4 x5 x6 x7 x8 x9 x10 x11 x12 x13 x14 (ix2 r k) = lin256 (catRow (row x1 r) (row (val_main_v51 (F := Ideal) x0 x1 x2 x3 x4 x5 x6 x7 x8 x9 x10 x11 x12) r)) (mat2 x13) k + vec x14 k := by
  rw [val_main_v56_apply, val_main_v55_apply, val_main_v54_apply, ref_v53 x0 x1 x2 x3 x4 x5 x6 x7 x8 x9 x10 x11 x12 x13 r k, Ideal.addf_def]
  exact congrArg (_ + ·) (congrArg x14 (by idx1))

/-- The hidden row of node r, the 256-wide product split into its two 128-wide halves. -/
theorem ref_v57 (r : Fin 200000) (k : Fin 128) :
    val_main_v57 (F := Ideal) x0 x1 x2 x3 x4 x5 x6 x7 x8 x9 x10 x11 x12 x13 x14 (ix2 r k) = nodeHidden (row x1 r) (row (val_main_v51 (F := Ideal) x0 x1 x2 x3 x4 x5 x6 x7 x8 x9 x10 x11 x12) r) (topRows (mat2 x13)) (botRows (mat2 x13)) (vec x14) k := by
  rw [val_main_v57_apply, val_main_call1_v5_apply, val_main_call1_v4_apply, val_main_call1_cst_0_apply,
    val_main_call1_v3_apply, val_main_call1_v2_apply, val_main_call1_cst_apply, val_main_call1_v1_apply,
    val_main_call1_v0_apply, ref_v56 x0 x1 x2 x3 x4 x5 x6 x7 x8 x9 x10 x11 x12 x13 x14 r k]
  simp only [Ideal.mulf_def, Ideal.hostDivf_def, Ideal.addf_def, Ideal.hostUnary_exp_def, Ideal.hostNegf_def,
    Ideal.negf_def, Ideal.ofBits_def]
  rw [Cert.Lib.BatchStats.ofBits_one, EReal.coe_one]
  exact nodeHidden_cat (row x1 r) (row (val_main_v51 (F := Ideal) x0 x1 x2 x3 x4 x5 x6 x7 x8 x9 x10 x11 x12) r) (mat2 x13) (vec x14) k

/-- The row of node r that is normalised: the hidden row times W1, plus the bias. -/
theorem ref_v61 (r : Fin 200000) (j : Fin 128) :
    val_main_v61 (F := Ideal) x0 x1 x2 x3 x4 x5 x6 x7 x8 x9 x10 x11 x12 x13 x14 x15 x16 (ix2 r j) = lin (nodeHidden (row x1 r) (row (val_main_v51 (F := Ideal) x0 x1 x2 x3 x4 x5 x6 x7 x8 x9 x10 x11 x12) r) (topRows (mat2 x13)) (botRows (mat2 x13)) (vec x14)) (mat x15) j + vec x16 j := by
  rw [val_main_v61_apply, val_main_v58_apply, val_main_v60_apply, val_main_v59_apply, Ideal.addf_def]
  unfold lin
  refine congrArg₂ (· + ·) (Finset.sum_congr rfl fun k _ => ?_) (congrArg x16 (by idx1))
  rw [show lidx_main_v58 (ix2 r j) k = ix2 r k from by idx2, ref_v57 x0 x1 x2 x3 x4 x5 x6 x7 x8 x9 x10 x11 x12 x13 x14 r k]
  exact congrArg (_ * ·) (congrArg x15 (by idx2))

section NodeNorm
/-! Layer normalisation of node r, for any row Y that the normalised stage reads as. -/
variable (r : Fin 200000) (Y : Row)
  (hY : ∀ k : Fin 128, val_main_v61 (F := Ideal) x0 x1 x2 x3 x4 x5 x6 x7 x8 x9 x10 x11 x12 x13 x14 x15 x16 (ix2 r k) = Y k)
include hY

/-- The lane sum from the zero word is the plain sum of the row. -/
theorem ref_v62 : val_main_v62 (F := Ideal) x0 x1 x2 x3 x4 x5 x6 x7 x8 x9 x10 x11 x12 x13 x14 x15 x16 (ix1 r) = ∑ k : Fin 128, Y k := by
  rw [val_main_v62_apply, val_main_cst_8_apply, Ideal.ofBits_def, Ideal.ofBits_zero_f32, zero_add]
  exact Finset.sum_congr rfl fun k _ =>
    (congrArg (val_main_v61 (F := Ideal) x0 x1 x2 x3 x4 x5 x6 x7 x8 x9 x10 x11 x12 x13 x14 x15 x16) (show idx_main_v62 (ix1 r) k = ix2 r k by idx2)).trans (hY k)

/-- The mean of the row. -/
theorem ref_v65 : val_main_v65 (F := Ideal) x0 x1 x2 x3 x4 x5 x6 x7 x8 x9 x10 x11 x12 x13 x14 x15 x16 (ix2 r (0 : Fin 1)) = mean Y := by
  rw [val_main_v65_apply, val_main_v63_apply, val_main_v64_apply, val_main_cst_9_apply,
    show idx_main_v63 (ix2 r (0 : Fin 1)) = ix1 r from by idx1, ref_v62 x0 x1 x2 x3 x4 x5 x6 x7 x8 x9 x10 x11 x12 x13 x14 x15 x16 r Y hY]
  rfl

/-- The centred row. -/
theorem ref_v67 (j : Fin 128) : val_main_v67 (F := Ideal) x0 x1 x2 x3 x4 x5 x6 x7 x8 x9 x10 x11 x12 x13 x14 x15 x16 (ix2 r j) = ctr Y j := by
  rw [val_main_v67_apply, val_main_v66_apply, hY j,
    show idx_main_v66 (ix2 r j) = ix2 r (0 : Fin 1) from by idx2, ref_v65 x0 x1 x2 x3 x4 x5 x6 x7 x8 x9 x10 x11 x12 x13 x14 x15 x16 r Y hY]
  rfl

/-- The sum of the squared centred row. -/
theorem ref_v69 : val_main_v69 (F := Ideal) x0 x1 x2 x3 x4 x5 x6 x7 x8 x9 x10 x11 x12 x13 x14 x15 x16 (ix1 r) = ∑ k : Fin 128, ctr Y k * ctr Y k := by
  rw [val_main_v69_apply, val_main_cst_10_apply, Ideal.ofBits_def, Ideal.ofBits_zero_f32, zero_add]
  refine Finset.sum_congr rfl fun k _ => ?_
  rw [show idx_main_v69 (ix1 r) k = ix2 r k from by idx2, val_main_v68_apply, ref_v67 x0 x1 x2 x3 x4 x5 x6 x7 x8 x9 x10 x11 x12 x13 x14 x15 x16 r Y hY k]
  rfl

/-- The reciprocal square root of variance plus epsilon. -/
theorem ref_v75 : val_main_v75 (F := Ideal) x0 x1 x2 x3 x4 x5 x6 x7 x8 x9 x10 x11 x12 x13 x14 x15 x16 (ix2 r (0 : Fin 1)) = rstd Y := by
  rw [val_main_v75_apply, val_main_v74_apply, val_main_v72_apply, val_main_v70_apply, val_main_v71_apply,
    val_main_cst_11_apply, val_main_v73_apply, val_main_cst_12_apply,
    show idx_main_v70 (ix2 r (0 : Fin 1)) = ix1 r from by idx1, ref_v69 x0 x1 x2 x3 x4 x5 x6 x7 x8 x9 x10 x11 x12 x13 x14 x15 x16 r Y hY]
  rfl

/-- The normalised row, scaled and shifted. -/
theorem ref_v83 (j : Fin 128) :
    val_main_v83 (F := Ideal) x0 x1 x2 x3 x4 x5 x6 x7 x8 x9 x10 x11 x12 x13 x14 x15 x16 x17 x18 (ix2 r j) = lnorm Y (vec x17) (vec x18) j := by
  rw [val_main_v83_apply, val_main_v80_apply, val_main_v77_apply, val_main_v76_apply, val_main_v79_apply,
    val_main_v78_apply, val_main_v82_apply, val_main_v81_apply, ref_v67 x0 x1 x2 x3 x4 x5 x6 x7 x8 x9 x10 x11 x12 x13 x14 x15 x16 r Y hY j,
    show idx_main_v76 (ix2 r j) = ix2 r (0 : Fin 1) from by idx2, ref_v75 x0 x1 x2 x3 x4 x5 x6 x7 x8 x9 x10 x11 x12 x13 x14 x15 x16 r Y hY,
    show idx_main_v78 (idx_main_v79 (ix2 r j)) = ix1 j from by idx1,
    show idx_main_v81 (idx_main_v82 (ix2 r j)) = ix1 j from by idx1]
  rfl

end NodeNorm

/-- THE NODE STAGE: row r of the reference's new node features is the specification's node row of row r of the node
    features and of the aggregated array, the first layer as two 128-wide products, with the residual row added. -/
theorem ref_node (r : Fin 200000) (j : Fin 128) :
    val_main_v84 (F := Ideal) x0 x1 x2 x3 x4 x5 x6 x7 x8 x9 x10 x11 x12 x13 x14 x15 x16 x17 x18 (ix2 r j)
      = nodeRow (row x1 r) (row (val_main_v51 (F := Ideal) x0 x1 x2 x3 x4 x5 x6 x7 x8 x9 x10 x11 x12) r) (topRows (mat2 x13)) (botRows (mat2 x13)) (vec x14) (mat x15) (vec x16) (vec x17) (vec x18) j := by
  rw [val_main_v84_apply, ref_v83 x0 x1 x2 x3 x4 x5 x6 x7 x8 x9 x10 x11 x12 x13 x14 x15 x16 x17 x18 r _ (fun k => ref_v61 x0 x1 x2 x3 x4 x5 x6 x7 x8 x9 x10 x11 x12 x13 x14 x15 x16 r k) j, Ideal.addf_def]
  rfl

end Cert.EdgeNode.Ref

end
-- ==== Proof.HostChains.lean ====
/-
  The two programs' shared host chains.

  Both programs wrap a negative row index around (compare with 0, add the row count, select), view the index vector
  as a column, gather rows with it, and scatter-add rows into a zero array. Each program declares its own copy of every
  shape, side condition and dimension record, with the same bodies, so one program's chain applied to an operand is
  the other's applied to the same operand. The big float operand stays a variable throughout: the gather and the
  scatter are never opened.
-/
import proofs.«179970_j42777874268719_1_alg».proof.Proof.Gen.ReferenceIdeal.Read
import proofs.«179970_j42777874268719_1_alg».proof.KernelIdeal

noncomputable section

namespace Cert.EdgeNode.Chain

open Idealize.ShloMosaic Idealize.SL.Sem Idealize.ShloMosaic.StableHlo

variable [Cert.KernelIdeal.Facts₀]

/-- Rows gathered by the wrapped source index: the kernel program's chain is the reference's. -/
theorem gather_src (X : (⟨Cert.KernelIdeal.S40962x128, .f32⟩ : BufTy).Contents (Elt Ideal))
    (x3 : (⟨Cert.KernelIdeal.S600000, .i32⟩ : BufTy).Contents (Elt Ideal))
    {hb0 : Cert.KernelIdeal.S_.BroadcastsInDim Cert.KernelIdeal.S600000 (![] : Fin 0 → Fin Cert.KernelIdeal.S600000.rank)}
    {hb1 : Cert.KernelIdeal.S600000.BroadcastsInDim Cert.KernelIdeal.S600000x1 (![0] : Fin 1 → Fin Cert.KernelIdeal.S600000x1.rank)} :
    Host.gather Cert.KernelIdeal.gather_S40962x128_S600000x1_S600000x128_1_0_n_n_0_1_1128 X
      (broadcastInDim Cert.KernelIdeal.S600000x1 ![0] hb1
        (select (cmpi CmpIPredicate.slt x3 (broadcastInDim Cert.KernelIdeal.S600000 ![] hb0 (constantI Cert.KernelIdeal.S_ 32 0#32)))
          (addi x3 (broadcastInDim Cert.KernelIdeal.S600000 ![] hb0 (constantI Cert.KernelIdeal.S_ 32 40962#32))) x3))
    = Host.gather Cert.ReferenceIdeal.gather_S40962x128_S600000x1_S600000x128_1_0_n_n_0_1_1128 X
        (Cert.ReferenceIdeal.Read.val_main_v7 (F := Ideal) x3) := rfl

/-- The same with the source nodes' projected features as the operand: the reference's gathered source rows. -/
theorem gather_src' (x2 : (⟨Cert.ReferenceIdeal.S40962x128, .f32⟩ : BufTy).Contents (Elt Ideal))
    (x3 : (⟨Cert.ReferenceIdeal.S600000, .i32⟩ : BufTy).Contents (Elt Ideal))
    (x6 : (⟨Cert.ReferenceIdeal.S128x128, .f32⟩ : BufTy).Contents (Elt Ideal))
    {hb0 : Cert.KernelIdeal.S_.BroadcastsInDim Cert.KernelIdeal.S600000 (![] : Fin 0 → Fin Cert.KernelIdeal.S600000.rank)}
    {hb1 : Cert.KernelIdeal.S600000.BroadcastsInDim Cert.KernelIdeal.S600000x1 (![0] : Fin 1 → Fin Cert.KernelIdeal.S600000x1.rank)} :
    Host.gather Cert.KernelIdeal.gather_S40962x128_S600000x1_S600000x128_1_0_n_n_0_1_1128
      (Cert.ReferenceIdeal.Read.val_main_v1 (F := Ideal) x2 x6)
      (broadcastInDim Cert.KernelIdeal.S600000x1 ![0] hb1
        (select (cmpi CmpIPredicate.slt x3 (broadcastInDim Cert.KernelIdeal.S600000 ![] hb0 (constantI Cert.KernelIdeal.S_ 32 0#32)))
          (addi x3 (broadcastInDim Cert.KernelIdeal.S600000 ![] hb0 (constantI Cert.KernelIdeal.S_ 32 40962#32))) x3))
    = Cert.ReferenceIdeal.Read.val_main_v8 (F := Ideal) x2 x3 x6 :=
  gather_src (Cert.ReferenceIdeal.Read.val_main_v1 (F := Ideal) x2 x6) x3

/-- Rows gathered by the wrapped destination index: the kernel program's chain is the reference's. -/
theorem gather_dst (X : (⟨Cert.KernelIdeal.S200000x128, .f32⟩ : BufTy).Contents (Elt Ideal))
    (x4 : (⟨Cert.KernelIdeal.S600000, .i32⟩ : BufTy).Contents (Elt Ideal))
    {hb0 : Cert.KernelIdeal.S_.BroadcastsInDim Cert.KernelIdeal.S600000 (![] : Fin 0 → Fin Cert.KernelIdeal.S600000.rank)}
    {hb1 : Cert.KernelIdeal.S600000.BroadcastsInDim Cert.KernelIdeal.S600000x1 (![0] : Fin 1 → Fin Cert.KernelIdeal.S600000x1.rank)} :
    Host.gather Cert.KernelIdeal.gather_S200000x128_S600000x1_S600000x128_1_0_n_n_0_1_1128 X
      (broadcastInDim Cert.KernelIdeal.S600000x1 ![0] hb1
        (select (cmpi CmpIPredicate.slt x4 (broadcastInDim Cert.KernelIdeal.S600000 ![] hb0 (constantI Cert.KernelIdeal.S_ 32 0#32)))
          (addi x4 (broadcastInDim Cert.KernelIdeal.S600000 ![] hb0 (constantI Cert.KernelIdeal.S_ 32 200000#32))) x4))
    = Host.gather Cert.ReferenceIdeal.gather_S200000x128_S600000x1_S600000x128_1_0_n_n_0_1_1128 X
        (Cert.ReferenceIdeal.Read.val_main_v16 (F := Ideal) x4) := rfl

/-- The same with the destination nodes' projected features as the operand: the reference's gathered destination rows. -/
theorem gather_dst' (x1 : (⟨Cert.ReferenceIdeal.S200000x128, .f32⟩ : BufTy).Contents (Elt Ideal))
    (x4 : (⟨Cert.ReferenceIdeal.S600000, .i32⟩ : BufTy).Contents (Elt Ideal))
    (x7 : (⟨Cert.ReferenceIdeal.S128x128, .f32⟩ : BufTy).Contents (Elt Ideal))
    {hb0 : Cert.KernelIdeal.S_.BroadcastsInDim Cert.KernelIdeal.S600000 (![] : Fin 0 → Fin Cert.KernelIdeal.S600000.rank)}
    {hb1 : Cert.KernelIdeal.S600000.BroadcastsInDim Cert.KernelIdeal.S600000x1 (![0] : Fin 1 → Fin Cert.KernelIdeal.S600000x1.rank)} :
    Host.gather Cert.KernelIdeal.gather_S200000x128_S600000x1_S600000x128_1_0_n_n_0_1_1128
      (Cert.ReferenceIdeal.Read.val_main_v10 (F := Ideal) x1 x7)
      (broadcastInDim Cert.KernelIdeal.S600000x1 ![0] hb1
        (select (cmpi CmpIPredicate.slt x4 (broadcastInDim Cert.KernelIdeal.S600000 ![] hb0 (constantI Cert.KernelIdeal.S_ 32 0#32)))
          (addi x4 (broadcastInDim Cert.KernelIdeal.S600000 ![] hb0 (constantI Cert.KernelIdeal.S_ 32 200000#32))) x4))
    = Cert.ReferenceIdeal.Read.val_main_v17 (F := Ideal) x1 x4 x7 :=
  gather_dst (Cert.ReferenceIdeal.Read.val_main_v10 (F := Ideal) x1 x7) x4

/-- Rows scatter-added by the destination index into the zero array: the kernel program's chain is the reference's. -/
theorem scatter_agg (U : (⟨Cert.KernelIdeal.S600000x128, .f32⟩ : BufTy).Contents (Elt Ideal))
    (x4 : (⟨Cert.KernelIdeal.S600000, .i32⟩ : BufTy).Contents (Elt Ideal))
    {hb2 : Cert.KernelIdeal.S_.BroadcastsInDim Cert.KernelIdeal.S200000x128 (![] : Fin 0 → Fin Cert.KernelIdeal.S200000x128.rank)}
    {hb1 : Cert.KernelIdeal.S600000.BroadcastsInDim Cert.KernelIdeal.S600000x1 (![0] : Fin 1 → Fin Cert.KernelIdeal.S600000x1.rank)} :
    Host.scatterAdd Cert.KernelIdeal.scatter_S200000x128_S600000x1_S600000x128_1_0_0_1
      (broadcastInDim Cert.KernelIdeal.S200000x128 ![] hb2 (constant (F := Ideal) Cert.KernelIdeal.S_ .f32 0x00000000#32))
      (broadcastInDim Cert.KernelIdeal.S600000x1 ![0] hb1 x4) U
    = Host.scatterAdd Cert.ReferenceIdeal.scatter_S200000x128_S600000x1_S600000x128_1_0_0_1
        (Cert.ReferenceIdeal.Read.val_main_v49 (F := Ideal)) (Cert.ReferenceIdeal.Read.val_main_v50 (F := Ideal) x4) U := rfl

/-- The same with the edges' new features as the updates: the reference's aggregated rows. -/
theorem scatter_agg' (x0 : (⟨Cert.ReferenceIdeal.S600000x128, .f32⟩ : BufTy).Contents (Elt Ideal))
    (x1 : (⟨Cert.ReferenceIdeal.S200000x128, .f32⟩ : BufTy).Contents (Elt Ideal))
    (x2 : (⟨Cert.ReferenceIdeal.S40962x128, .f32⟩ : BufTy).Contents (Elt Ideal))
    (x3 x4 : (⟨Cert.ReferenceIdeal.S600000, .i32⟩ : BufTy).Contents (Elt Ideal))
    (x5 x6 x7 : (⟨Cert.ReferenceIdeal.S128x128, .f32⟩ : BufTy).Contents (Elt Ideal))
    (x8 : (⟨Cert.ReferenceIdeal.S128, .f32⟩ : BufTy).Contents (Elt Ideal))
    (x9 : (⟨Cert.ReferenceIdeal.S128x128, .f32⟩ : BufTy).Contents (Elt Ideal))
    (x10 x11 x12 : (⟨Cert.ReferenceIdeal.S128, .f32⟩ : BufTy).Contents (Elt Ideal))
    {hb2 : Cert.KernelIdeal.S_.BroadcastsInDim Cert.KernelIdeal.S200000x128 (![] : Fin 0 → Fin Cert.KernelIdeal.S200000x128.rank)}
    {hb1 : Cert.KernelIdeal.S600000.BroadcastsInDim Cert.KernelIdeal.S600000x1 (![0] : Fin 1 → Fin Cert.KernelIdeal.S600000x1.rank)} :
    Host.scatterAdd Cert.KernelIdeal.scatter_S200000x128_S600000x1_S600000x128_1_0_0_1
      (broadcastInDim Cert.KernelIdeal.S200000x128 ![] hb2 (constant (F := Ideal) Cert.KernelIdeal.S_ .f32 0x00000000#32))
      (broadcastInDim Cert.KernelIdeal.S600000x1 ![0] hb1 x4)
      (Cert.ReferenceIdeal.Read.val_main_v48 (F := Ideal) x0 x1 x2 x3 x4 x5 x6 x7 x8 x9 x10 x11 x12)
    = Cert.ReferenceIdeal.Read.val_main_v51 (F := Ideal) x0 x1 x2 x3 x4 x5 x6 x7 x8 x9 x10 x11 x12 :=
  scatter_agg (Cert.ReferenceIdeal.Read.val_main_v48 (F := Ideal) x0 x1 x2 x3 x4 x5 x6 x7 x8 x9 x10 x11 x12) x4

end Cert.EdgeNode.Chain

end
-- ==== Proof.KerReg0.lean ====
/-
  The first projection (mesh rows times the source weights): what the region's output array holds.

  The padded mesh array has 43008 = 21 x 2048 rows. Grid point t stages rows 2048 t … 2048 t + 2047 of it, the
  whole 128 x 128 weight matrix, and writes back rows 2048 t … 2048 t + 2047 of the result. Row r of the result
  is therefore row r of the padded input times the matrix, whichever point wrote it: the result array is ONE
  function of the arrays the region finds, index by index, and the 21 blocks cover it.
-/
import proofs.«179970_j42777874268719_1_alg».proof.Proof.Gen.KernelIdeal.Frame
import proofs.«179970_j42777874268719_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.EdgeNode.Reg0

open Cert.KernelIdeal Cert.KernelIdeal.Gen Cert.EdgeNode

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 21 grid points: the row blocks move with the point, the weights stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input rows' block at point t is rows 2048 t + p of the padded input. -/
theorem blk_rows (c : Dev nD) (t : Fin cfg0.N) (p : Fin 2048) (k : Fin 128) (r : Fin 43008)
    (hr : r.val = t.val * 2048 + p.val) :
    (iblk0 V c 0 t : S2048x128.Idx → EReal) (ix2 p k) = (V c main_v0 : S43008x128.Idx → EReal) (ix2 r k) := by
  obtain ⟨e0, e1, -⟩ := idx t
  unfold iblk0
  rw [View.read_apply]
  show (V c main_v0 : S43008x128.Idx → EReal) _ = _
  congr 1
  funext a
  apply Fin.ext
  match a with
  | ⟨0, _⟩ => show win0_0.index t 0 * 2048 + 1 * p.val = r.val; rw [e0, hr]; omega
  | ⟨1, _⟩ => show win0_0.index t 1 * 128 + 1 * k.val = k.val; rw [e1]; omega

/-- The weights' block at every point is the whole matrix. -/
theorem blk_w (c : Dev nD) (t : Fin cfg0.N) (k j : Fin 128) :
    (iblk0 V c 1 t : S128x128.Idx → EReal) (ix2 k j) = (V c main_arg6 : S128x128.Idx → EReal) (ix2 k j) := by
  obtain ⟨-, -, e2, e3, -⟩ := idx t
  unfold iblk0
  rw [View.read_apply]
  show (V c main_arg6 : S128x128.Idx → EReal) _ = _
  congr 1
  funext a
  apply Fin.ext
  match a with
  | ⟨0, _⟩ => show win0_1.index t 0 * 128 + 1 * k.val = k.val; rw [e2]; omega
  | ⟨1, _⟩ => show win0_1.index t 1 * 128 + 1 * j.val = j.val; rw [e3]; omega

/-- What the output array ends holding: each row of the padded input times the weight matrix. -/
def G (c : Dev nD) : S43008x128.Idx → EReal := fun i =>
  lin (row (V c main_v0 : S43008x128.Idx → EReal) ⟨(i 0).val, idx2_lt0 i⟩) (mat (V c main_arg6 : S128x128.Idx → EReal))
    ⟨(i 1).val, idx2_lt1 i⟩

/-- The hypothesis the body's arithmetic supplies: the payload at (p, j) is row p times the matrix at lane j. -/
abbrev PayLin : Prop := ∀ (v0 : Vec Ideal S2048x128 .f32) (v3 : Vec Ideal S128x128 .f32) (p : Fin 2048) (j : Fin 128),
    k0_pay1 (F := Ideal) v0 v3 (ix2 p j) = lin (row v0 p) (mat v3) j

/-- What point t writes back is block t of G. -/
theorem flushed_eq (hpay : PayLin) (c : Dev nD) (t : Fin cfg0.N) :
    (dat0 V c).flushed 2 t = ((cfg0.win 2).blk t).view.read (Elt Ideal) (G V c) := by
  have hN : cfg0.N = 21 := N_0
  obtain ⟨-, -, -, -, e4, e5⟩ := idx t
  show (cfg0.win 2).cut (grid0.coords t) ((dat0 V c).after 2 t) = _
  rw [after0_2]
  unfold out0_2
  rw [View.canon_unit_zero hz]
  simp only [View.ld_unit_zero (S := S2048x128) hz, View.ld_unit_zero (S := S128x128) hz]
  funext y
  obtain ⟨p, j, rfl⟩ : ∃ (p : Fin 2048) (j : Fin 128), y = ix2 p j := ⟨y 0, y 1, eq_ix2 y⟩
  refine (hpay (iblk0 V c 0 t) (iblk0 V c 1 t) p j).trans ?_
  rw [View.read_apply]
  have ht : t.val < 21 := hN ▸ t.isLt
  have h0 : ((((cfg0.win 2).blk t).view.emb (ix2 p j)) 0).val = t.val * 2048 + p.val := by
    show win0_2.index t 0 * 2048 + 1 * p.val = _; rw [e4]; omega
  have h1 : ((((cfg0.win 2).blk t).view.emb (ix2 p j)) 1).val = j.val := by
    show win0_2.index t 1 * 128 + 1 * j.val = _; rw [e5]; omega
  unfold G lin
  refine Finset.sum_congr rfl fun k _ => ?_
  have ea : row (iblk0 V c 0 t : S2048x128.Idx → EReal) p k
      = row (V c main_v0 : S43008x128.Idx → EReal) ⟨_, idx2_lt0 (((cfg0.win 2).blk t).view.emb (ix2 p j))⟩ k :=
    blk_rows V c t p k _ h0
  have eb : mat (iblk0 V c 1 t : S128x128.Idx → EReal) k j
      = mat (V c main_arg6 : S128x128.Idx → EReal) k ⟨_, idx2_lt1 (((cfg0.win 2).blk t).view.emb (ix2 p j))⟩ := by
    rw [show (⟨_, idx2_lt1 (((cfg0.win 2).blk t).view.emb (ix2 p j))⟩ : Fin 128) = j from Fin.ext h1]
    exact blk_w V c t k j
  rw [ea, eb]

/-- An index of the array is in point t's block iff each coordinate is in the block's range on its axis. -/
theorem mem_blk (t : Fin cfg0.N) (i : S43008x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v1).slice (win0_2.rect t)).set ↔ _
  rw [View.set_slice_whole, Rect.mem_set_unit]
  exact Iff.rfl

/-- Row r lies in the block of point r / 2048. -/
theorem cover (i : S43008x128.Idx) : ∃ t : Fin cfg0.N, (cfg0.win 2).flush t = true ∧ i ∈ ((cfg0.win 2).blk t).view.set := by
  have hN : cfg0.N = 21 := N_0
  have hi0 : (i 0).val < 43008 := (i 0).isLt
  have hi1 : (i 1).val < 128 := (i 1).isLt
  refine ⟨⟨(i 0).val / 2048, by rw [hN]; omega⟩, flush0_2 _, ?_⟩
  obtain ⟨-, -, -, -, e4, e5⟩ := idx ⟨(i 0).val / 2048, by rw [hN]; omega⟩
  rw [mem_blk]
  intro a
  match a with
  | ⟨0, _⟩ => show win0_2.index _ (0 : Fin 2) * 2048 ≤ (i 0).val ∧ (i 0).val < win0_2.index _ (0 : Fin 2) * 2048 + 2048; rw [e4]; show (i 0).val / 2048 * 2048 ≤ _ ∧ _ < (i 0).val / 2048 * 2048 + 2048; omega
  | ⟨1, _⟩ => show win0_2.index _ (1 : Fin 2) * 128 ≤ (i 1).val ∧ (i 1).val < win0_2.index _ (1 : Fin 2) * 128 + 128; rw [e5]; omega

/-- THE ARRAY after the region: G. -/
theorem final (hpay : PayLin) (c : Dev nD) : (dat0 V c).arrAt 2 cfg0.N = G V c :=
  (dat0 V c).arrAt_eq_of_cover 2 (G V c) (fun t _ => flushed_eq V hpay c t) (cover)

end Cert.EdgeNode.Reg0

end
-- ==== Proof.KerReg1.lean ====
/-
  The second projection (grid rows times the destination weights): what the region's output array holds.

  The padded grid array has 200704 = 98 x 2048 rows. Grid point t stages rows 2048 t … 2048 t + 2047 of it, the
  whole 128 x 128 weight matrix, and writes back rows 2048 t … 2048 t + 2047 of the result. Row r of the result
  is therefore row r of the padded input times the matrix, whichever point wrote it: the result array is ONE
  function of the arrays the region finds, index by index, and the 98 blocks cover it.
-/
import proofs.«179970_j42777874268719_1_alg».proof.Proof.Gen.KernelIdeal.Frame
import proofs.«179970_j42777874268719_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.EdgeNode.Reg1

open Cert.KernelIdeal Cert.KernelIdeal.Gen Cert.EdgeNode

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 98 grid points: the row blocks move with the point, the weights stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input rows' block at point t is rows 2048 t + p of the padded input. -/
theorem blk_rows (c : Dev nD) (t : Fin cfg1.N) (p : Fin 2048) (k : Fin 128) (r : Fin 200704)
    (hr : r.val = t.val * 2048 + p.val) :
    (iblk1 V c 0 t : S2048x128.Idx → EReal) (ix2 p k) = (V c main_v3 : S200704x128.Idx → EReal) (ix2 r k) := by
  obtain ⟨e0, e1, -⟩ := idx t
  unfold iblk1
  rw [View.read_apply]
  show (V c main_v3 : S200704x128.Idx → EReal) _ = _
  congr 1
  funext a
  apply Fin.ext
  match a with
  | ⟨0, _⟩ => show win1_0.index t 0 * 2048 + 1 * p.val = r.val; rw [e0, hr]; omega
  | ⟨1, _⟩ => show win1_0.index t 1 * 128 + 1 * k.val = k.val; rw [e1]; omega

/-- The weights' block at every point is the whole matrix. -/
theorem blk_w (c : Dev nD) (t : Fin cfg1.N) (k j : Fin 128) :
    (iblk1 V c 1 t : S128x128.Idx → EReal) (ix2 k j) = (V c main_arg7 : S128x128.Idx → EReal) (ix2 k j) := by
  obtain ⟨-, -, e2, e3, -⟩ := idx t
  unfold iblk1
  rw [View.read_apply]
  show (V c main_arg7 : S128x128.Idx → EReal) _ = _
  congr 1
  funext a
  apply Fin.ext
  match a with
  | ⟨0, _⟩ => show win1_1.index t 0 * 128 + 1 * k.val = k.val; rw [e2]; omega
  | ⟨1, _⟩ => show win1_1.index t 1 * 128 + 1 * j.val = j.val; rw [e3]; omega

/-- What the output array ends holding: each row of the padded input times the weight matrix. -/
def G (c : Dev nD) : S200704x128.Idx → EReal := fun i =>
  lin (row (V c main_v3 : S200704x128.Idx → EReal) ⟨(i 0).val, idx2_lt0 i⟩) (mat (V c main_arg7 : S128x128.Idx → EReal))
    ⟨(i 1).val, idx2_lt1 i⟩

/-- The hypothesis the body's arithmetic supplies: the payload at (p, j) is row p times the matrix at lane j. -/
abbrev PayLin : Prop := ∀ (v0 : Vec Ideal S2048x128 .f32) (v3 : Vec Ideal S128x128 .f32) (p : Fin 2048) (j : Fin 128),
    k1_pay1 (F := Ideal) v0 v3 (ix2 p j) = lin (row v0 p) (mat v3) j

/-- What point t writes back is block t of G. -/
theorem flushed_eq (hpay : PayLin) (c : Dev nD) (t : Fin cfg1.N) :
    (dat1 V c).flushed 2 t = ((cfg1.win 2).blk t).view.read (Elt Ideal) (G V c) := by
  have hN : cfg1.N = 98 := N_1
  obtain ⟨-, -, -, -, e4, e5⟩ := idx t
  show (cfg1.win 2).cut (grid1.coords t) ((dat1 V c).after 2 t) = _
  rw [after1_2]
  unfold out1_2
  rw [View.canon_unit_zero hz]
  simp only [View.ld_unit_zero (S := S2048x128) hz, View.ld_unit_zero (S := S128x128) hz]
  funext y
  obtain ⟨p, j, rfl⟩ : ∃ (p : Fin 2048) (j : Fin 128), y = ix2 p j := ⟨y 0, y 1, eq_ix2 y⟩
  refine (hpay (iblk1 V c 0 t) (iblk1 V c 1 t) p j).trans ?_
  rw [View.read_apply]
  have ht : t.val < 98 := hN ▸ t.isLt
  have h0 : ((((cfg1.win 2).blk t).view.emb (ix2 p j)) 0).val = t.val * 2048 + p.val := by
    show win1_2.index t 0 * 2048 + 1 * p.val = _; rw [e4]; omega
  have h1 : ((((cfg1.win 2).blk t).view.emb (ix2 p j)) 1).val = j.val := by
    show win1_2.index t 1 * 128 + 1 * j.val = _; rw [e5]; omega
  unfold G lin
  refine Finset.sum_congr rfl fun k _ => ?_
  have ea : row (iblk1 V c 0 t : S2048x128.Idx → EReal) p k
      = row (V c main_v3 : S200704x128.Idx → EReal) ⟨_, idx2_lt0 (((cfg1.win 2).blk t).view.emb (ix2 p j))⟩ k :=
    blk_rows V c t p k _ h0
  have eb : mat (iblk1 V c 1 t : S128x128.Idx → EReal) k j
      = mat (V c main_arg7 : S128x128.Idx → EReal) k ⟨_, idx2_lt1 (((cfg1.win 2).blk t).view.emb (ix2 p j))⟩ := by
    rw [show (⟨_, idx2_lt1 (((cfg1.win 2).blk t).view.emb (ix2 p j))⟩ : Fin 128) = j from Fin.ext h1]
    exact blk_w V c t k j
  rw [ea, eb]

/-- An index of the array is in point t's block iff each coordinate is in the block's range on its axis. -/
theorem mem_blk (t : Fin cfg1.N) (i : S200704x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v4).slice (win1_2.rect t)).set ↔ _
  rw [View.set_slice_whole, Rect.mem_set_unit]
  exact Iff.rfl

/-- Row r lies in the block of point r / 2048. -/
theorem cover (i : S200704x128.Idx) : ∃ t : Fin cfg1.N, (cfg1.win 2).flush t = true ∧ i ∈ ((cfg1.win 2).blk t).view.set := by
  have hN : cfg1.N = 98 := N_1
  have hi0 : (i 0).val < 200704 := (i 0).isLt
  have hi1 : (i 1).val < 128 := (i 1).isLt
  refine ⟨⟨(i 0).val / 2048, by rw [hN]; omega⟩, flush1_2 _, ?_⟩
  obtain ⟨-, -, -, -, e4, e5⟩ := idx ⟨(i 0).val / 2048, by rw [hN]; omega⟩
  rw [mem_blk]
  intro a
  match a with
  | ⟨0, _⟩ => show win1_2.index _ (0 : Fin 2) * 2048 ≤ (i 0).val ∧ (i 0).val < win1_2.index _ (0 : Fin 2) * 2048 + 2048; rw [e4]; show (i 0).val / 2048 * 2048 ≤ _ ∧ _ < (i 0).val / 2048 * 2048 + 2048; omega
  | ⟨1, _⟩ => show win1_2.index _ (1 : Fin 2) * 128 ≤ (i 1).val ∧ (i 1).val < win1_2.index _ (1 : Fin 2) * 128 + 128; rw [e5]; omega

/-- THE ARRAY after the region: G. -/
theorem final (hpay : PayLin) (c : Dev nD) : (dat1 V c).arrAt 2 cfg1.N = G V c :=
  (dat1 V c).arrAt_eq_of_cover 2 (G V c) (fun t _ => flushed_eq V hpay c t) (cover)

end Cert.EdgeNode.Reg1

end
-- ==== Proof.KerFoldA.lean ====
/-
  The argument arrays are never written: no host operation's result buffer and no region's output array is an
  argument. So an argument's buffer, read at the boundary where a region has just ended, holds what it held at
  launch: cross the region (it leaves every buffer that is not one of its arrays as it found it, and an array it
  only reads — a staged weight matrix — as it found it too), then walk back
  over the host stretches before it (each leaves every buffer but its operations' results as it found it), down to
  the previous region's end or to the launch.
-/
import proofs.«179970_j42777874268719_1_alg».proof.Proof.Gen.KernelIdeal.Frame
import Idealize.ShloMosaic.Lib.StableHlo.Run

set_option maxRecDepth 16384

noncomputable section

namespace Cert.EdgeNode.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first region -/

theorem arg0_at3 (c : Dev nD) : W3 m ρ c (Proc.devRef .tc main_arg0) = m ((c : Thread nD τ).loc main_arg0) := by
  rw [W3_of_ne m ρ c main_arg0 (by decide)]
  show StableHlo.after hostOps0_1 (W1 m ρ c) (Proc.devRef .tc main_arg0) = _
  after_results

theorem arg1_at3 (c : Dev nD) : W3 m ρ c (Proc.devRef .tc main_arg1) = m ((c : Thread nD τ).loc main_arg1) := by
  rw [W3_of_ne m ρ c main_arg1 (by decide)]
  show StableHlo.after hostOps0_1 (W1 m ρ c) (Proc.devRef .tc main_arg1) = _
  after_results

theorem arg2_at3 (c : Dev nD) : W3 m ρ c (Proc.devRef .tc main_arg2) = m ((c : Thread nD τ).loc main_arg2) := by
  rw [W3_of_ne m ρ c main_arg2 (by decide)]
  show StableHlo.after hostOps0_1 (W1 m ρ c) (Proc.devRef .tc main_arg2) = _
  after_results

theorem arg3_at3 (c : Dev nD) : W3 m ρ c (Proc.devRef .tc main_arg3) = m ((c : Thread nD τ).loc main_arg3) := by
  rw [W3_of_ne m ρ c main_arg3 (by decide)]
  show StableHlo.after hostOps0_1 (W1 m ρ c) (Proc.devRef .tc main_arg3) = _
  after_results

theorem arg4_at3 (c : Dev nD) : W3 m ρ c (Proc.devRef .tc main_arg4) = m ((c : Thread nD τ).loc main_arg4) := by
  rw [W3_of_ne m ρ c main_arg4 (by decide)]
  show StableHlo.after hostOps0_1 (W1 m ρ c) (Proc.devRef .tc main_arg4) = _
  after_results

theorem arg5_at3 (c : Dev nD) : W3 m ρ c (Proc.devRef .tc main_arg5) = m ((c : Thread nD τ).loc main_arg5) := by
  rw [W3_of_ne m ρ c main_arg5 (by decide)]
  show StableHlo.after hostOps0_1 (W1 m ρ c) (Proc.devRef .tc main_arg5) = _
  after_results

theorem arg6_at3 (c : Dev nD) : W3 m ρ c (Proc.devRef .tc main_arg6) = m ((c : Thread nD τ).loc main_arg6) := by
  rw [show W3 m ρ c (Proc.devRef .tc main_arg6) = W2 m ρ c (Proc.devRef .tc main_arg6) from
    (W3_arr m ρ c 1).trans (((dat0 (V2 m ρ) c).arrAt_in 1 rfl _).trans (A_eq0 (V2 m ρ) c 1))]
  show StableHlo.after hostOps0_1 (W1 m ρ c) (Proc.devRef .tc main_arg6) = _
  after_results

theorem arg7_at3 (c : Dev nD) : W3 m ρ c (Proc.devRef .tc main_arg7) = m ((c : Thread nD τ).loc main_arg7) := by
  rw [W3_of_ne m ρ c main_arg7 (by decide)]
  show StableHlo.after hostOps0_1 (W1 m ρ c) (Proc.devRef .tc main_arg7) = _
  after_results

theorem arg8_at3 (c : Dev nD) : W3 m ρ c (Proc.devRef .tc main_arg8) = m ((c : Thread nD τ).loc main_arg8) := by
  rw [W3_of_ne m ρ c main_arg8 (by decide)]
  show StableHlo.after hostOps0_1 (W1 m ρ c) (Proc.devRef .tc main_arg8) = _
  after_results

theorem arg9_at3 (c : Dev nD) : W3 m ρ c (Proc.devRef .tc main_arg9) = m ((c : Thread nD τ).loc main_arg9) := by
  rw [W3_of_ne m ρ c main_arg9 (by decide)]
  show StableHlo.after hostOps0_1 (W1 m ρ c) (Proc.devRef .tc main_arg9) = _
  after_results

theorem arg10_at3 (c : Dev nD) : W3 m ρ c (Proc.devRef .tc main_arg10) = m ((c : Thread nD τ).loc main_arg10) := by
  rw [W3_of_ne m ρ c main_arg10 (by decide)]
  show StableHlo.after hostOps0_1 (W1 m ρ c) (Proc.devRef .tc main_arg10) = _
  after_results

theorem arg11_at3 (c : Dev nD) : W3 m ρ c (Proc.devRef .tc main_arg11) = m ((c : Thread nD τ).loc main_arg11) := by
  rw [W3_of_ne m ρ c main_arg11 (by decide)]
  show StableHlo.after hostOps0_1 (W1 m ρ c) (Proc.devRef .tc main_arg11) = _
  after_results

theorem arg12_at3 (c : Dev nD) : W3 m ρ c (Proc.devRef .tc main_arg12) = m ((c : Thread nD τ).loc main_arg12) := by
  rw [W3_of_ne m ρ c main_arg12 (by decide)]
  show StableHlo.after hostOps0_1 (W1 m ρ c) (Proc.devRef .tc main_arg12) = _
  after_results

theorem arg13_at3 (c : Dev nD) : W3 m ρ c (Proc.devRef .tc main_arg13) = m ((c : Thread nD τ).loc main_arg13) := by
  rw [W3_of_ne m ρ c main_arg13 (by decide)]
  show StableHlo.after hostOps0_1 (W1 m ρ c) (Proc.devRef .tc main_arg13) = _
  after_results

theorem arg14_at3 (c : Dev nD) : W3 m ρ c (Proc.devRef .tc main_arg14) = m ((c : Thread nD τ).loc main_arg14) := by
  rw [W3_of_ne m ρ c main_arg14 (by decide)]
  show StableHlo.after hostOps0_1 (W1 m ρ c) (Proc.devRef .tc main_arg14) = _
  after_results

theorem arg15_at3 (c : Dev nD) : W3 m ρ c (Proc.devRef .tc main_arg15) = m ((c : Thread nD τ).loc main_arg15) := by
  rw [W3_of_ne m ρ c main_arg15 (by decide)]
  show StableHlo.after hostOps0_1 (W1 m ρ c) (Proc.devRef .tc main_arg15) = _
  after_results

theorem arg16_at3 (c : Dev nD) : W3 m ρ c (Proc.devRef .tc main_arg16) = m ((c : Thread nD τ).loc main_arg16) := by
  rw [W3_of_ne m ρ c main_arg16 (by decide)]
  show StableHlo.after hostOps0_1 (W1 m ρ c) (Proc.devRef .tc main_arg16) = _
  after_results

theorem arg17_at3 (c : Dev nD) : W3 m ρ c (Proc.devRef .tc main_arg17) = m ((c : Thread nD τ).loc main_arg17) := by
  rw [W3_of_ne m ρ c main_arg17 (by decide)]
  show StableHlo.after hostOps0_1 (W1 m ρ c) (Proc.devRef .tc main_arg17) = _
  after_results

theorem arg18_at3 (c : Dev nD) : W3 m ρ c (Proc.devRef .tc main_arg18) = m ((c : Thread nD τ).loc main_arg18) := by
  rw [W3_of_ne m ρ c main_arg18 (by decide)]
  show StableHlo.after hostOps0_1 (W1 m ρ c) (Proc.devRef .tc main_arg18) = _
  after_results

/-! ## After the second region -/

theorem arg0_at6 (c : Dev nD) : W6 m ρ c (Proc.devRef .tc main_arg0) = m ((c : Thread nD τ).loc main_arg0) := by
  rw [W6_of_ne m ρ c main_arg0 (by decide)]
  show StableHlo.after hostOps1_1 (W4 m ρ c) (Proc.devRef .tc main_arg0) = _
  after_results
  exact arg0_at3 m ρ c

theorem arg1_at6 (c : Dev nD) : W6 m ρ c (Proc.devRef .tc main_arg1) = m ((c : Thread nD τ).loc main_arg1) := by
  rw [W6_of_ne m ρ c main_arg1 (by decide)]
  show StableHlo.after hostOps1_1 (W4 m ρ c) (Proc.devRef .tc main_arg1) = _
  after_results
  exact arg1_at3 m ρ c

theorem arg2_at6 (c : Dev nD) : W6 m ρ c (Proc.devRef .tc main_arg2) = m ((c : Thread nD τ).loc main_arg2) := by
  rw [W6_of_ne m ρ c main_arg2 (by decide)]
  show StableHlo.after hostOps1_1 (W4 m ρ c) (Proc.devRef .tc main_arg2) = _
  after_results
  exact arg2_at3 m ρ c

theorem arg3_at6 (c : Dev nD) : W6 m ρ c (Proc.devRef .tc main_arg3) = m ((c : Thread nD τ).loc main_arg3) := by
  rw [W6_of_ne m ρ c main_arg3 (by decide)]
  show StableHlo.after hostOps1_1 (W4 m ρ c) (Proc.devRef .tc main_arg3) = _
  after_results
  exact arg3_at3 m ρ c

theorem arg4_at6 (c : Dev nD) : W6 m ρ c (Proc.devRef .tc main_arg4) = m ((c : Thread nD τ).loc main_arg4) := by
  rw [W6_of_ne m ρ c main_arg4 (by decide)]
  show StableHlo.after hostOps1_1 (W4 m ρ c) (Proc.devRef .tc main_arg4) = _
  after_results
  exact arg4_at3 m ρ c

theorem arg5_at6 (c : Dev nD) : W6 m ρ c (Proc.devRef .tc main_arg5) = m ((c : Thread nD τ).loc main_arg5) := by
  rw [W6_of_ne m ρ c main_arg5 (by decide)]
  show StableHlo.after hostOps1_1 (W4 m ρ c) (Proc.devRef .tc main_arg5) = _
  after_results
  exact arg5_at3 m ρ c

theorem arg6_at6 (c : Dev nD) : W6 m ρ c (Proc.devRef .tc main_arg6) = m ((c : Thread nD τ).loc main_arg6) := by
  rw [W6_of_ne m ρ c main_arg6 (by decide)]
  show StableHlo.after hostOps1_1 (W4 m ρ c) (Proc.devRef .tc main_arg6) = _
  after_results
  exact arg6_at3 m ρ c

theorem arg7_at6 (c : Dev nD) : W6 m ρ c (Proc.devRef .tc main_arg7) = m ((c : Thread nD τ).loc main_arg7) := by
  rw [show W6 m ρ c (Proc.devRef .tc main_arg7) = W5 m ρ c (Proc.devRef .tc main_arg7) from
    (W6_arr m ρ c 1).trans (((dat1 (V5 m ρ) c).arrAt_in 1 rfl _).trans (A_eq1 (V5 m ρ) c 1))]
  show StableHlo.after hostOps1_1 (W4 m ρ c) (Proc.devRef .tc main_arg7) = _
  after_results
  exact arg7_at3 m ρ c

theorem arg8_at6 (c : Dev nD) : W6 m ρ c (Proc.devRef .tc main_arg8) = m ((c : Thread nD τ).loc main_arg8) := by
  rw [W6_of_ne m ρ c main_arg8 (by decide)]
  show StableHlo.after hostOps1_1 (W4 m ρ c) (Proc.devRef .tc main_arg8) = _
  after_results
  exact arg8_at3 m ρ c

theorem arg9_at6 (c : Dev nD) : W6 m ρ c (Proc.devRef .tc main_arg9) = m ((c : Thread nD τ).loc main_arg9) := by
  rw [W6_of_ne m ρ c main_arg9 (by decide)]
  show StableHlo.after hostOps1_1 (W4 m ρ c) (Proc.devRef .tc main_arg9) = _
  after_results
  exact arg9_at3 m ρ c

theorem arg10_at6 (c : Dev nD) : W6 m ρ c (Proc.devRef .tc main_arg10) = m ((c : Thread nD τ).loc main_arg10) := by
  rw [W6_of_ne m ρ c main_arg10 (by decide)]
  show StableHlo.after hostOps1_1 (W4 m ρ c) (Proc.devRef .tc main_arg10) = _
  after_results
  exact arg10_at3 m ρ c

theorem arg11_at6 (c : Dev nD) : W6 m ρ c (Proc.devRef .tc main_arg11) = m ((c : Thread nD τ).loc main_arg11) := by
  rw [W6_of_ne m ρ c main_arg11 (by decide)]
  show StableHlo.after hostOps1_1 (W4 m ρ c) (Proc.devRef .tc main_arg11) = _
  after_results
  exact arg11_at3 m ρ c

theorem arg12_at6 (c : Dev nD) : W6 m ρ c (Proc.devRef .tc main_arg12) = m ((c : Thread nD τ).loc main_arg12) := by
  rw [W6_of_ne m ρ c main_arg12 (by decide)]
  show StableHlo.after hostOps1_1 (W4 m ρ c) (Proc.devRef .tc main_arg12) = _
  after_results
  exact arg12_at3 m ρ c

theorem arg13_at6 (c : Dev nD) : W6 m ρ c (Proc.devRef .tc main_arg13) = m ((c : Thread nD τ).loc main_arg13) := by
  rw [W6_of_ne m ρ c main_arg13 (by decide)]
  show StableHlo.after hostOps1_1 (W4 m ρ c) (Proc.devRef .tc main_arg13) = _
  after_results
  exact arg13_at3 m ρ c

theorem arg14_at6 (c : Dev nD) : W6 m ρ c (Proc.devRef .tc main_arg14) = m ((c : Thread nD τ).loc main_arg14) := by
  rw [W6_of_ne m ρ c main_arg14 (by decide)]
  show StableHlo.after hostOps1_1 (W4 m ρ c) (Proc.devRef .tc main_arg14) = _
  after_results
  exact arg14_at3 m ρ c

theorem arg15_at6 (c : Dev nD) : W6 m ρ c (Proc.devRef .tc main_arg15) = m ((c : Thread nD τ).loc main_arg15) := by
  rw [W6_of_ne m ρ c main_arg15 (by decide)]
  show StableHlo.after hostOps1_1 (W4 m ρ c) (Proc.devRef .tc main_arg15) = _
  after_results
  exact arg15_at3 m ρ c

theorem arg16_at6 (c : Dev nD) : W6 m ρ c (Proc.devRef .tc main_arg16) = m ((c : Thread nD τ).loc main_arg16) := by
  rw [W6_of_ne m ρ c main_arg16 (by decide)]
  show StableHlo.after hostOps1_1 (W4 m ρ c) (Proc.devRef .tc main_arg16) = _
  after_results
  exact arg16_at3 m ρ c

theorem arg17_at6 (c : Dev nD) : W6 m ρ c (Proc.devRef .tc main_arg17) = m ((c : Thread nD τ).loc main_arg17) := by
  rw [W6_of_ne m ρ c main_arg17 (by decide)]
  show StableHlo.after hostOps1_1 (W4 m ρ c) (Proc.devRef .tc main_arg17) = _
  after_results
  exact arg17_at3 m ρ c

theorem arg18_at6 (c : Dev nD) : W6 m ρ c (Proc.devRef .tc main_arg18) = m ((c : Thread nD τ).loc main_arg18) := by
  rw [W6_of_ne m ρ c main_arg18 (by decide)]
  show StableHlo.after hostOps1_1 (W4 m ρ c) (Proc.devRef .tc main_arg18) = _
  after_results
  exact arg18_at3 m ρ c

/-! ## After the third region -/

theorem arg1_at13 (c : Dev nD) : W13 m ρ c (Proc.devRef .tc main_arg1) = m ((c : Thread nD τ).loc main_arg1) := by
  rw [W13_of_ne m ρ c main_arg1 (by decide)]
  show StableHlo.after hostOps2_5 (W11 m ρ c) (Proc.devRef .tc main_arg1) = _
  after_results
  exact arg1_at6 m ρ c

theorem arg4_at13 (c : Dev nD) : W13 m ρ c (Proc.devRef .tc main_arg4) = m ((c : Thread nD τ).loc main_arg4) := by
  rw [W13_of_ne m ρ c main_arg4 (by decide)]
  show StableHlo.after hostOps2_5 (W11 m ρ c) (Proc.devRef .tc main_arg4) = _
  after_results
  exact arg4_at6 m ρ c

theorem arg13_at13 (c : Dev nD) : W13 m ρ c (Proc.devRef .tc main_arg13) = m ((c : Thread nD τ).loc main_arg13) := by
  rw [W13_of_ne m ρ c main_arg13 (by decide)]
  show StableHlo.after hostOps2_5 (W11 m ρ c) (Proc.devRef .tc main_arg13) = _
  after_results
  exact arg13_at6 m ρ c

theorem arg14_at13 (c : Dev nD) : W13 m ρ c (Proc.devRef .tc main_arg14) = m ((c : Thread nD τ).loc main_arg14) := by
  rw [W13_of_ne m ρ c main_arg14 (by decide)]
  show StableHlo.after hostOps2_5 (W11 m ρ c) (Proc.devRef .tc main_arg14) = _
  after_results
  exact arg14_at6 m ρ c

theorem arg15_at13 (c : Dev nD) : W13 m ρ c (Proc.devRef .tc main_arg15) = m ((c : Thread nD τ).loc main_arg15) := by
  rw [W13_of_ne m ρ c main_arg15 (by decide)]
  show StableHlo.after hostOps2_5 (W11 m ρ c) (Proc.devRef .tc main_arg15) = _
  after_results
  exact arg15_at6 m ρ c

theorem arg16_at13 (c : Dev nD) : W13 m ρ c (Proc.devRef .tc main_arg16) = m ((c : Thread nD τ).loc main_arg16) := by
  rw [W13_of_ne m ρ c main_arg16 (by decide)]
  show StableHlo.after hostOps2_5 (W11 m ρ c) (Proc.devRef .tc main_arg16) = _
  after_results
  exact arg16_at6 m ρ c

theorem arg17_at13 (c : Dev nD) : W13 m ρ c (Proc.devRef .tc main_arg17) = m ((c : Thread nD τ).loc main_arg17) := by
  rw [W13_of_ne m ρ c main_arg17 (by decide)]
  show StableHlo.after hostOps2_5 (W11 m ρ c) (Proc.devRef .tc main_arg17) = _
  after_results
  exact arg17_at6 m ρ c

theorem arg18_at13 (c : Dev nD) : W13 m ρ c (Proc.devRef .tc main_arg18) = m ((c : Thread nD τ).loc main_arg18) := by
  rw [W13_of_ne m ρ c main_arg18 (by decide)]
  show StableHlo.after hostOps2_5 (W11 m ρ c) (Proc.devRef .tc main_arg18) = _
  after_results
  exact arg18_at6 m ρ c

end Cert.EdgeNode.Fold

end
-- ==== Proof.KerFoldB.lean ====
/-
  The two projections, from the launch to the arrays the gathers read.

  A row below the original row count of a zero-padded array is the original array's row. Each projection region
  leaves in its output array, row by row, the padded input's row times the weight matrix; the slice that follows
  keeps the original rows. So row r of the sliced result is row r of the ORIGINAL input times the weights.
-/
import proofs.«179970_j42777874268719_1_alg».proof.Proof.KerReg0
import proofs.«179970_j42777874268719_1_alg».proof.Proof.KerReg1
import proofs.«179970_j42777874268719_1_alg».proof.Proof.KerFoldA
import Idealize.ShloMosaic.Lib.KernelVsHost

set_option maxRecDepth 16384

noncomputable section

namespace Cert.EdgeNode.Fold

open Cert.KernelIdeal Cert.KernelIdeal.Gen Cert.EdgeNode
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The mesh projection -/

/-- The padded mesh array, as the first region finds it. -/
theorem v0_eq (c : Dev nD) : (W2 m ρ c (Proc.devRef .tc main_v0) : S43008x128.Idx → EReal)
    = pad S43008x128 ![0, 0] ![2046, 0] ![0, 0] (m ((c : Thread nD τ).loc main_arg2) : S40962x128.Idx → EReal)
        (sitofp (F := Ideal) .f32 (constantI S_ 32 0#32)) pads_S40962x128_S43008x128_020460_000 h_S_ := by
  show StableHlo.after hostOps0_1 (W1 m ρ c) (Proc.devRef .tc main_v0) = _
  after_results
  rfl

/-- Its rows below 40962 are the mesh features' rows. -/
theorem v0_row (c : Dev nD) (r : Fin 40962) (r' : Fin 43008) (hr : r'.val = r.val) (k : Fin 128) :
    (W2 m ρ c (Proc.devRef .tc main_v0) : S43008x128.Idx → EReal) (ix2 r' k)
      = (m ((c : Thread nD τ).loc main_arg2) : S40962x128.Idx → EReal) (ix2 r k) := by
  rw [v0_eq]
  refine pad_apply_of_inside _ _ _ _ _ _ _ (ix2 r' k) (ix2 r k) fun a => ?_
  match a with
  | ⟨0, _⟩ => show r'.val = 0 + r.val * (0 + 1); omega
  | ⟨1, _⟩ => show k.val = 0 + k.val * (0 + 1); omega

/-- The source weights, as the first region finds them. -/
theorem arg6_at2 (c : Dev nD) : W2 m ρ c (Proc.devRef .tc main_arg6) = m ((c : Thread nD τ).loc main_arg6) := by
  show StableHlo.after hostOps0_1 (W1 m ρ c) (Proc.devRef .tc main_arg6) = _
  after_results

/-- Row r of the projected mesh features: the slice [0 : 40962] of the first region's output array. -/
theorem v2_rows (hpay : Reg0.PayLin) (c : Dev nD) (r : Fin 40962) (j : Fin 128) :
    (extractStridedSlice S40962x128 ![0, 0] (W3 m ρ c (Proc.devRef .tc main_v1) : S43008x128.Idx → EReal)
        slices_S43008x128_S40962x128_0_0 : S40962x128.Idx → EReal) (ix2 r j)
      = lin (row (m ((c : Thread nD τ).loc main_arg2) : S40962x128.Idx → EReal) r)
          (mat (m ((c : Thread nD τ).loc main_arg6) : S128x128.Idx → EReal)) j := by
  have hr : r.val < 43008 := by have := r.isLt; omega
  rw [extractStridedSlice_apply _ _ _ (ix2 r j) (ix2 (⟨r.val, hr⟩ : Fin 43008) j) (fun a => by
    match a with
    | ⟨0, _⟩ => show r.val = 0 + r.val; omega
    | ⟨1, _⟩ => show j.val = 0 + j.val; omega)]
  have eG : (W3 m ρ c (Proc.devRef .tc main_v1) : S43008x128.Idx → EReal) = Reg0.G (V2 m ρ) c :=
    (W3_arr m ρ c 2).trans (Reg0.final (V2 m ρ) hpay c)
  rw [eG]
  have e1 : row (W2 m ρ c (Proc.devRef .tc main_v0) : S43008x128.Idx → EReal) ⟨r.val, hr⟩
      = row (m ((c : Thread nD τ).loc main_arg2) : S40962x128.Idx → EReal) r :=
    funext fun k => v0_row m ρ c r ⟨r.val, hr⟩ rfl k
  have e2 : mat (W2 m ρ c (Proc.devRef .tc main_arg6) : S128x128.Idx → EReal)
      = mat (m ((c : Thread nD τ).loc main_arg6) : S128x128.Idx → EReal) := by rw [arg6_at2]
  show lin (row (W2 m ρ c (Proc.devRef .tc main_v0) : S43008x128.Idx → EReal) ⟨r.val, hr⟩)
      (mat (W2 m ρ c (Proc.devRef .tc main_arg6) : S128x128.Idx → EReal)) j = _
  rw [e1, e2]

/-! ## The grid projection -/

/-- The grid features, where the second region's padding stretch reads them. -/
theorem arg1_at4 (c : Dev nD) : W4 m ρ c (Proc.devRef .tc main_arg1) = m ((c : Thread nD τ).loc main_arg1) := by
  show StableHlo.after hostOps1 (W3 m ρ c) (Proc.devRef .tc main_arg1) = _
  after_results
  exact arg1_at3 m ρ c

/-- The padded grid array, as the second region finds it. -/
theorem v3_eq (c : Dev nD) : (W5 m ρ c (Proc.devRef .tc main_v3) : S200704x128.Idx → EReal)
    = pad S200704x128 ![0, 0] ![704, 0] ![0, 0] (m ((c : Thread nD τ).loc main_arg1) : S200000x128.Idx → EReal)
        (sitofp (F := Ideal) .f32 (constantI S_ 32 0#32)) pads_S200000x128_S200704x128_07040_000 h_S_ := by
  have e : (W5 m ρ c (Proc.devRef .tc main_v3) : S200704x128.Idx → EReal)
      = pad S200704x128 ![0, 0] ![704, 0] ![0, 0] (W3 m ρ c (Proc.devRef .tc main_arg1) : S200000x128.Idx → EReal)
          (sitofp (F := Ideal) .f32 (constantI S_ 32 0#32)) pads_S200000x128_S200704x128_07040_000 h_S_ := by
    show StableHlo.after hostOps1_1 (W4 m ρ c) (Proc.devRef .tc main_v3) = _
    after_results
    rfl
  rw [e, arg1_at3]

/-- Its rows below 200000 are the grid features' rows. -/
theorem v3_row (c : Dev nD) (r : Fin 200000) (r' : Fin 200704) (hr : r'.val = r.val) (k : Fin 128) :
    (W5 m ρ c (Proc.devRef .tc main_v3) : S200704x128.Idx → EReal) (ix2 r' k)
      = (m ((c : Thread nD τ).loc main_arg1) : S200000x128.Idx → EReal) (ix2 r k) := by
  rw [v3_eq]
  refine pad_apply_of_inside _ _ _ _ _ _ _ (ix2 r' k) (ix2 r k) fun a => ?_
  match a with
  | ⟨0, _⟩ => show r'.val = 0 + r.val * (0 + 1); omega
  | ⟨1, _⟩ => show k.val = 0 + k.val * (0 + 1); omega

/-- The destination weights, as the second region finds them. -/
theorem arg7_at5 (c : Dev nD) : W5 m ρ c (Proc.devRef .tc main_arg7) = m ((c : Thread nD τ).loc main_arg7) := by
  show StableHlo.after hostOps1_1 (W4 m ρ c) (Proc.devRef .tc main_arg7) = _
  after_results
  exact arg7_at3 m ρ c

/-- Row r of the projected grid features: the slice [0 : 200000] of the second region's output array. -/
theorem v5_rows (hpay : Reg1.PayLin) (c : Dev nD) (r : Fin 200000) (j : Fin 128) :
    (extractStridedSlice S200000x128 ![0, 0] (W6 m ρ c (Proc.devRef .tc main_v4) : S200704x128.Idx → EReal)
        slices_S200704x128_S200000x128_0_0 : S200000x128.Idx → EReal) (ix2 r j)
      = lin (row (m ((c : Thread nD τ).loc main_arg1) : S200000x128.Idx → EReal) r)
          (mat (m ((c : Thread nD τ).loc main_arg7) : S128x128.Idx → EReal)) j := by
  have hr : r.val < 200704 := by have := r.isLt; omega
  rw [extractStridedSlice_apply _ _ _ (ix2 r j) (ix2 (⟨r.val, hr⟩ : Fin 200704) j) (fun a => by
    match a with
    | ⟨0, _⟩ => show r.val = 0 + r.val; omega
    | ⟨1, _⟩ => show j.val = 0 + j.val; omega)]
  have eG : (W6 m ρ c (Proc.devRef .tc main_v4) : S200704x128.Idx → EReal) = Reg1.G (V5 m ρ) c :=
    (W6_arr m ρ c 2).trans (Reg1.final (V5 m ρ) hpay c)
  rw [eG]
  have e1 : row (W5 m ρ c (Proc.devRef .tc main_v3) : S200704x128.Idx → EReal) ⟨r.val, hr⟩
      = row (m ((c : Thread nD τ).loc main_arg1) : S200000x128.Idx → EReal) r :=
    funext fun k => v3_row m ρ c r ⟨r.val, hr⟩ rfl k
  have e2 : mat (W5 m ρ c (Proc.devRef .tc main_arg7) : S128x128.Idx → EReal)
      = mat (m ((c : Thread nD τ).loc main_arg7) : S128x128.Idx → EReal) := by rw [arg7_at5]
  show lin (row (W5 m ρ c (Proc.devRef .tc main_v3) : S200704x128.Idx → EReal) ⟨r.val, hr⟩)
      (mat (W5 m ρ c (Proc.devRef .tc main_arg7) : S128x128.Idx → EReal)) j = _
  rw [e1, e2]

/-! ## The two gathers -/

/-- The projected mesh features, where the gather reads them: the slice of the first region's output array,
    untouched by the second region and the stretches around it. -/
theorem v2_at6 (c : Dev nD) : (W6 m ρ c (Proc.devRef .tc main_v2) : S40962x128.Idx → EReal)
    = extractStridedSlice S40962x128 ![0, 0] (W3 m ρ c (Proc.devRef .tc main_v1) : S43008x128.Idx → EReal)
        slices_S43008x128_S40962x128_0_0 := by
  rw [W6_of_ne m ρ c main_v2 (by decide)]
  show StableHlo.after hostOps1_1 (W4 m ρ c) (Proc.devRef .tc main_v2) = _
  after_results

/-- The gathered source rows: rows of the projected mesh features at the wrapped source indices. -/
theorem v12_eq (c : Dev nD) : (W7 m ρ c (Proc.devRef .tc main_v12) : S600000x128.Idx → EReal)
    = Host.gather gather_S40962x128_S600000x1_S600000x128_1_0_n_n_0_1_1128
        (extractStridedSlice S40962x128 ![0, 0] (W3 m ρ c (Proc.devRef .tc main_v1) : S43008x128.Idx → EReal)
          slices_S43008x128_S40962x128_0_0)
        (broadcastInDim S600000x1 ![0] bcast_S600000_S600000x1_0
          (select (cmpi CmpIPredicate.slt (m ((c : Thread nD τ).loc main_arg3)) (broadcastInDim S600000 ![] bcast_S_S600000 (constantI S_ 32 0#32)))
            (addi (m ((c : Thread nD τ).loc main_arg3)) (broadcastInDim S600000 ![] bcast_S_S600000 (constantI S_ 32 40962#32)))
            (m ((c : Thread nD τ).loc main_arg3)))) := by
  show StableHlo.after hostOps2 (W6 m ρ c) (Proc.devRef .tc main_v12) = _
  after_results
  rw [arg3_at6, v2_at6]

/-- The gathered destination rows: rows of the projected grid features at the wrapped destination indices. -/
theorem v19_eq (c : Dev nD) : (W7 m ρ c (Proc.devRef .tc main_v19) : S600000x128.Idx → EReal)
    = Host.gather gather_S200000x128_S600000x1_S600000x128_1_0_n_n_0_1_1128
        (extractStridedSlice S200000x128 ![0, 0] (W6 m ρ c (Proc.devRef .tc main_v4) : S200704x128.Idx → EReal)
          slices_S200704x128_S200000x128_0_0)
        (broadcastInDim S600000x1 ![0] bcast_S600000_S600000x1_0
          (select (cmpi CmpIPredicate.slt (m ((c : Thread nD τ).loc main_arg4)) (broadcastInDim S600000 ![] bcast_S_S600000 (constantI S_ 32 0#32)))
            (addi (m ((c : Thread nD τ).loc main_arg4)) (broadcastInDim S600000 ![] bcast_S_S600000 (constantI S_ 32 200000#32)))
            (m ((c : Thread nD τ).loc main_arg4)))) := by
  show StableHlo.after hostOps2 (W6 m ρ c) (Proc.devRef .tc main_v19) = _
  after_results_simp
  rw [arg4_at6]

end Cert.EdgeNode.Fold

end
-- ==== Proof.KerReg2.lean ====
/-
  The edge update: what the region's output array holds.

  The three padded edge-indexed arrays (the edge features and the two gathered endpoint projections) have
  600064 = 293 x 2048 rows. Grid point t stages rows 2048 t … 2048 t + 2047 of each, the two whole weight matrices
  and the four whole bias / scale vectors, and writes back rows 2048 t … 2048 t + 2047 of the result. The body works row
  by row, so row r of the result is the edge-update function of row r of the three arrays, whichever point wrote
  it: the result array is ONE function of the arrays the region finds, and the 293 blocks cover it.
-/
import proofs.«179970_j42777874268719_1_alg».proof.Proof.Gen.KernelIdeal.Frame
import proofs.«179970_j42777874268719_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.EdgeNode.Reg2

open Cert.KernelIdeal Cert.KernelIdeal.Gen Cert.EdgeNode

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the 293 grid points: the row blocks move with the point, the weights and biases stay. -/
theorem idx : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 1) = 0
    ∧ win2_8.index t (0 : Fin 1) = 0
    ∧ win2_9.index t (0 : Fin 2) = t.val
    ∧ win2_9.index t (1 : Fin 2) = 0 :=
  (by decide +kernel : ∀ t : Fin grid2.N, _)

/-- Window 0's block at point t is rows 2048 t + p of its array. -/
theorem blk0 (c : Dev nD) (t : Fin cfg2.N) (p : Fin 2048) (k : Fin 128) (r : Fin 600064)
    (hr : r.val = t.val * 2048 + p.val) :
    (iblk2 V c 0 t : S2048x128.Idx → EReal) (ix2 p k) = (V c main_v20 : S600064x128.Idx → EReal) (ix2 r k) := by
  obtain ⟨e0, e1, -⟩ := idx t
  unfold iblk2
  rw [View.read_apply]
  show (V c main_v20 : S600064x128.Idx → EReal) _ = _
  congr 1
  funext a
  apply Fin.ext
  match a with
  | ⟨0, _⟩ => show win2_0.index t 0 * 2048 + 1 * p.val = r.val; rw [e0, hr]; omega
  | ⟨1, _⟩ => show win2_0.index t 1 * 128 + 1 * k.val = k.val; rw [e1]; omega

/-- Window 1's block at point t is rows 2048 t + p of its array. -/
theorem blk1 (c : Dev nD) (t : Fin cfg2.N) (p : Fin 2048) (k : Fin 128) (r : Fin 600064)
    (hr : r.val = t.val * 2048 + p.val) :
    (iblk2 V c 1 t : S2048x128.Idx → EReal) (ix2 p k) = (V c main_v21 : S600064x128.Idx → EReal) (ix2 r k) := by
  obtain ⟨-, -, e2, e3, -⟩ := idx t
  unfold iblk2
  rw [View.read_apply]
  show (V c main_v21 : S600064x128.Idx → EReal) _ = _
  congr 1
  funext a
  apply Fin.ext
  match a with
  | ⟨0, _⟩ => show win2_1.index t 0 * 2048 + 1 * p.val = r.val; rw [e2, hr]; omega
  | ⟨1, _⟩ => show win2_1.index t 1 * 128 + 1 * k.val = k.val; rw [e3]; omega

/-- Window 2's block at point t is rows 2048 t + p of its array. -/
theorem blk2 (c : Dev nD) (t : Fin cfg2.N) (p : Fin 2048) (k : Fin 128) (r : Fin 600064)
    (hr : r.val = t.val * 2048 + p.val) :
    (iblk2 V c 2 t : S2048x128.Idx → EReal) (ix2 p k) = (V c main_v22 : S600064x128.Idx → EReal) (ix2 r k) := by
  obtain ⟨-, -, -, -, e4, e5, -⟩ := idx t
  unfold iblk2
  rw [View.read_apply]
  show (V c main_v22 : S600064x128.Idx → EReal) _ = _
  congr 1
  funext a
  apply Fin.ext
  match a with
  | ⟨0, _⟩ => show win2_2.index t 0 * 2048 + 1 * p.val = r.val; rw [e4, hr]; omega
  | ⟨1, _⟩ => show win2_2.index t 1 * 128 + 1 * k.val = k.val; rw [e5]; omega

/-- Window 3's block at every point is its whole 128 x 128 array. -/
theorem blk3 (c : Dev nD) (t : Fin cfg2.N) (k j : Fin 128) :
    (iblk2 V c 3 t : S128x128.Idx → EReal) (ix2 k j) = (V c main_arg5 : S128x128.Idx → EReal) (ix2 k j) := by
  obtain ⟨-, -, -, -, -, -, e6, e7, -⟩ := idx t
  unfold iblk2
  rw [View.read_apply]
  show (V c main_arg5 : S128x128.Idx → EReal) _ = _
  congr 1
  funext a
  apply Fin.ext
  match a with
  | ⟨0, _⟩ => show win2_3.index t 0 * 128 + 1 * k.val = k.val; rw [e6]; omega
  | ⟨1, _⟩ => show win2_3.index t 1 * 128 + 1 * j.val = j.val; rw [e7]; omega

/-- Window 4's block at every point is its whole 128-entry array. -/
theorem blk4 (c : Dev nD) (t : Fin cfg2.N) (k : Fin 128) :
    (iblk2 V c 4 t : S128.Idx → EReal) (ix1 k) = (V c main_arg8 : S128.Idx → EReal) (ix1 k) := by
  obtain ⟨-, -, -, -, -, -, -, -, e8, -⟩ := idx t
  unfold iblk2
  rw [View.read_apply]
  show (V c main_arg8 : S128.Idx → EReal) _ = _
  congr 1
  funext a
  apply Fin.ext
  match a with
  | ⟨0, _⟩ => show win2_4.index t 0 * 128 + 1 * k.val = k.val; rw [e8]; omega

/-- Window 5's block at every point is its whole 128 x 128 array. -/
theorem blk5 (c : Dev nD) (t : Fin cfg2.N) (k j : Fin 128) :
    (iblk2 V c 5 t : S128x128.Idx → EReal) (ix2 k j) = (V c main_arg9 : S128x128.Idx → EReal) (ix2 k j) := by
  obtain ⟨-, -, -, -, -, -, -, -, -, e9, e10, -⟩ := idx t
  unfold iblk2
  rw [View.read_apply]
  show (V c main_arg9 : S128x128.Idx → EReal) _ = _
  congr 1
  funext a
  apply Fin.ext
  match a with
  | ⟨0, _⟩ => show win2_5.index t 0 * 128 + 1 * k.val = k.val; rw [e9]; omega
  | ⟨1, _⟩ => show win2_5.index t 1 * 128 + 1 * j.val = j.val; rw [e10]; omega

/-- Window 6's block at every point is its whole 128-entry array. -/
theorem blk6 (c : Dev nD) (t : Fin cfg2.N) (k : Fin 128) :
    (iblk2 V c 6 t : S128.Idx → EReal) (ix1 k) = (V c main_arg10 : S128.Idx → EReal) (ix1 k) := by
  obtain ⟨-, -, -, -, -, -, -, -, -, -, -, e11, -⟩ := idx t
  unfold iblk2
  rw [View.read_apply]
  show (V c main_arg10 : S128.Idx → EReal) _ = _
  congr 1
  funext a
  apply Fin.ext
  match a with
  | ⟨0, _⟩ => show win2_6.index t 0 * 128 + 1 * k.val = k.val; rw [e11]; omega

/-- Window 7's block at every point is its whole 128-entry array. -/
theorem blk7 (c : Dev nD) (t : Fin cfg2.N) (k : Fin 128) :
    (iblk2 V c 7 t : S128.Idx → EReal) (ix1 k) = (V c main_arg11 : S128.Idx → EReal) (ix1 k) := by
  obtain ⟨-, -, -, -, -, -, -, -, -, -, -, -, e12, -⟩ := idx t
  unfold iblk2
  rw [View.read_apply]
  show (V c main_arg11 : S128.Idx → EReal) _ = _
  congr 1
  funext a
  apply Fin.ext
  match a with
  | ⟨0, _⟩ => show win2_7.index t 0 * 128 + 1 * k.val = k.val; rw [e12]; omega

/-- Window 8's block at every point is its whole 128-entry array. -/
theorem blk8 (c : Dev nD) (t : Fin cfg2.N) (k : Fin 128) :
    (iblk2 V c 8 t : S128.Idx → EReal) (ix1 k) = (V c main_arg12 : S128.Idx → EReal) (ix1 k) := by
  obtain ⟨-, -, -, -, -, -, -, -, -, -, -, -, -, e13, -⟩ := idx t
  unfold iblk2
  rw [View.read_apply]
  show (V c main_arg12 : S128.Idx → EReal) _ = _
  congr 1
  funext a
  apply Fin.ext
  match a with
  | ⟨0, _⟩ => show win2_8.index t 0 * 128 + 1 * k.val = k.val; rw [e13]; omega

/-- What the output array ends holding: the edge-update function of each row of the three staged arrays. -/
def G (c : Dev nD) : S600064x128.Idx → EReal := fun i =>
  edgeRow (row (V c main_v20 : S600064x128.Idx → EReal) ⟨(i 0).val, idx2_lt0 i⟩) (row (V c main_v21 : S600064x128.Idx → EReal) ⟨(i 0).val, idx2_lt0 i⟩)
    (row (V c main_v22 : S600064x128.Idx → EReal) ⟨(i 0).val, idx2_lt0 i⟩) (mat (V c main_arg5 : S128x128.Idx → EReal))
    (vec (V c main_arg8 : S128.Idx → EReal)) (mat (V c main_arg9 : S128x128.Idx → EReal)) (vec (V c main_arg10 : S128.Idx → EReal))
    (vec (V c main_arg11 : S128.Idx → EReal)) (vec (V c main_arg12 : S128.Idx → EReal)) ⟨(i 1).val, idx2_lt1 i⟩

/-- The hypothesis the body's arithmetic supplies: the stored value at (p, j), as a function of the staged blocks' rows. -/
abbrev PayEdge : Prop := ∀ (v0 v6 v9 : Vec Ideal S2048x128 .f32) (v3 v19 : Vec Ideal S128x128 .f32) (v12 v22 v42 v46 : Vec Ideal S128 .f32)
    (p : Fin 2048) (j : Fin 128),
    k2_pay1 (F := Ideal) (k2_pay2 v0 v3 v6 v9 v12 v19 v22) (k2_pay3 v0 v3 v6 v9 v12 v19 v22) v42 v46 (ix2 p j)
      = edgeRow (row v0 p) (row v6 p) (row v9 p) (mat v3) (vec v12) (mat v19) (vec v22) (vec v42) (vec v46) j

/-- What point t writes back is block t of G. -/
theorem flushed_eq (hpay : PayEdge) (c : Dev nD) (t : Fin cfg2.N) :
    (dat2 V c).flushed 9 t = ((cfg2.win 9).blk t).view.read (Elt Ideal) (G V c) := by
  have hN : cfg2.N = 293 := N_2
  obtain ⟨-, -, -, -, -, -, -, -, -, -, -, -, -, -, e14, e15⟩ := idx t
  show (cfg2.win 9).cut (grid2.coords t) ((dat2 V c).after 9 t) = _
  rw [after2_9]
  unfold out2_9
  rw [View.canon_unit_zero hz]
  simp only [View.ld_unit_zero (S := S2048x128) hz, View.ld_unit_zero (S := S128x128) hz, View.ld_unit_zero (S := S128) hz1]
  funext y
  obtain ⟨p, j, rfl⟩ : ∃ (p : Fin 2048) (j : Fin 128), y = ix2 p j := ⟨y 0, y 1, eq_ix2 y⟩
  refine (hpay (iblk2 V c 0 t) (iblk2 V c 1 t) (iblk2 V c 2 t) (iblk2 V c 3 t) (iblk2 V c 5 t) (iblk2 V c 4 t) (iblk2 V c 6 t) (iblk2 V c 7 t) (iblk2 V c 8 t) p j).trans ?_
  rw [View.read_apply]
  have ht : t.val < 293 := hN ▸ t.isLt
  have h0 : ((((cfg2.win 9).blk t).view.emb (ix2 p j)) 0).val = t.val * 2048 + p.val := by
    show win2_9.index t 0 * 2048 + 1 * p.val = _; rw [e14]; omega
  have h1 : ((((cfg2.win 9).blk t).view.emb (ix2 p j)) 1).val = j.val := by
    show win2_9.index t 1 * 128 + 1 * j.val = _; rw [e15]; omega
  have q0 : row (iblk2 V c 0 t : S2048x128.Idx → EReal) p
      = row (V c main_v20 : S600064x128.Idx → EReal) ⟨_, idx2_lt0 (((cfg2.win 9).blk t).view.emb (ix2 p j))⟩ := funext fun k => blk0 V c t p k _ h0
  have q1 : row (iblk2 V c 1 t : S2048x128.Idx → EReal) p
      = row (V c main_v21 : S600064x128.Idx → EReal) ⟨_, idx2_lt0 (((cfg2.win 9).blk t).view.emb (ix2 p j))⟩ := funext fun k => blk1 V c t p k _ h0
  have q2 : row (iblk2 V c 2 t : S2048x128.Idx → EReal) p
      = row (V c main_v22 : S600064x128.Idx → EReal) ⟨_, idx2_lt0 (((cfg2.win 9).blk t).view.emb (ix2 p j))⟩ := funext fun k => blk2 V c t p k _ h0
  have q3 : mat (iblk2 V c 3 t : S128x128.Idx → EReal) = mat (V c main_arg5 : S128x128.Idx → EReal) :=
    funext fun k => funext fun j' => blk3 V c t k j'
  have q4 : vec (iblk2 V c 4 t : S128.Idx → EReal) = vec (V c main_arg8 : S128.Idx → EReal) :=
    funext fun k => blk4 V c t k
  have q5 : mat (iblk2 V c 5 t : S128x128.Idx → EReal) = mat (V c main_arg9 : S128x128.Idx → EReal) :=
    funext fun k => funext fun j' => blk5 V c t k j'
  have q6 : vec (iblk2 V c 6 t : S128.Idx → EReal) = vec (V c main_arg10 : S128.Idx → EReal) :=
    funext fun k => blk6 V c t k
  have q7 : vec (iblk2 V c 7 t : S128.Idx → EReal) = vec (V c main_arg11 : S128.Idx → EReal) :=
    funext fun k => blk7 V c t k
  have q8 : vec (iblk2 V c 8 t : S128.Idx → EReal) = vec (V c main_arg12 : S128.Idx → EReal) :=
    funext fun k => blk8 V c t k
  unfold G
  rw [show (⟨_, idx2_lt1 (((cfg2.win 9).blk t).view.emb (ix2 p j))⟩ : Fin 128) = j from Fin.ext h1, q0, q1, q2, q3, q4, q5, q6, q7, q8]
  rfl

/-- An index of the array is in point t's block iff each coordinate is in the block's range on its axis. -/
theorem mem_blk (t : Fin cfg2.N) (i : S600064x128.Idx) :
    i ∈ ((cfg2.win 9).blk t).view.set ↔ ∀ a : Fin 2, win2_9.index t a * S2048x128.size a ≤ (i a).val ∧ (i a).val < win2_9.index t a * S2048x128.size a + S2048x128.size a := by
  show i ∈ ((View.whole main_v23).slice (win2_9.rect t)).set ↔ _
  rw [View.set_slice_whole, Rect.mem_set_unit]
  exact Iff.rfl

/-- Row r lies in the block of point r / 2048. -/
theorem cover (i : S600064x128.Idx) : ∃ t : Fin cfg2.N, (cfg2.win 9).flush t = true ∧ i ∈ ((cfg2.win 9).blk t).view.set := by
  have hN : cfg2.N = 293 := N_2
  have hi0 : (i 0).val < 600064 := (i 0).isLt
  have hi1 : (i 1).val < 128 := (i 1).isLt
  refine ⟨⟨(i 0).val / 2048, by rw [hN]; omega⟩, flush2_9 _, ?_⟩
  obtain ⟨-, -, -, -, -, -, -, -, -, -, -, -, -, -, e14, e15⟩ := idx ⟨(i 0).val / 2048, by rw [hN]; omega⟩
  rw [mem_blk]
  intro a
  match a with
  | ⟨0, _⟩ => show win2_9.index _ (0 : Fin 2) * 2048 ≤ (i 0).val ∧ (i 0).val < win2_9.index _ (0 : Fin 2) * 2048 + 2048; rw [e14]; show (i 0).val / 2048 * 2048 ≤ _ ∧ _ < (i 0).val / 2048 * 2048 + 2048; omega
  | ⟨1, _⟩ => show win2_9.index _ (1 : Fin 2) * 128 ≤ (i 1).val ∧ (i 1).val < win2_9.index _ (1 : Fin 2) * 128 + 128; rw [e15]; omega

/-- THE ARRAY after the region: G. -/
theorem final (hpay : PayEdge) (c : Dev nD) : (dat2 V c).arrAt 9 cfg2.N = G V c :=
  (dat2 V c).arrAt_eq_of_cover 9 (G V c) (fun t _ => flushed_eq V hpay c t) (cover)

end Cert.EdgeNode.Reg2

end
-- ==== Proof.KerFoldC.lean ====
/-
  The edge update and the aggregation, from the gathered arrays to the per-node sums.

  The edge region finds three zero-padded edge-indexed arrays — the edge features, the gathered source rows, the
  gathered destination rows — whose rows below 600000 are the unpadded arrays' rows, and the weights and biases
  as launched. Its output, sliced back to 600000 rows, is therefore, row by row, the edge-update function of the
  edge's feature row and its two gathered rows. The aggregation then scatter-adds those rows into a zero array
  at the destination indices.
-/
import proofs.«179970_j42777874268719_1_alg».proof.Proof.KerReg2
import proofs.«179970_j42777874268719_1_alg».proof.Proof.KerFoldA
import Idealize.ShloMosaic.Lib.KernelVsHost

set_option maxRecDepth 16384

noncomputable section

namespace Cert.EdgeNode.Fold

open Cert.KernelIdeal Cert.KernelIdeal.Gen Cert.EdgeNode
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## What the edge region finds -/

theorem arg5_at12 (c : Dev nD) : W12 m ρ c (Proc.devRef .tc main_arg5) = m ((c : Thread nD τ).loc main_arg5) := by
  show StableHlo.after hostOps2_5 (W11 m ρ c) (Proc.devRef .tc main_arg5) = _
  after_results
  exact arg5_at6 m ρ c

theorem arg8_at12 (c : Dev nD) : W12 m ρ c (Proc.devRef .tc main_arg8) = m ((c : Thread nD τ).loc main_arg8) := by
  show StableHlo.after hostOps2_5 (W11 m ρ c) (Proc.devRef .tc main_arg8) = _
  after_results
  exact arg8_at6 m ρ c

theorem arg9_at12 (c : Dev nD) : W12 m ρ c (Proc.devRef .tc main_arg9) = m ((c : Thread nD τ).loc main_arg9) := by
  show StableHlo.after hostOps2_5 (W11 m ρ c) (Proc.devRef .tc main_arg9) = _
  after_results
  exact arg9_at6 m ρ c

theorem arg10_at12 (c : Dev nD) : W12 m ρ c (Proc.devRef .tc main_arg10) = m ((c : Thread nD τ).loc main_arg10) := by
  show StableHlo.after hostOps2_5 (W11 m ρ c) (Proc.devRef .tc main_arg10) = _
  after_results
  exact arg10_at6 m ρ c

theorem arg11_at12 (c : Dev nD) : W12 m ρ c (Proc.devRef .tc main_arg11) = m ((c : Thread nD τ).loc main_arg11) := by
  show StableHlo.after hostOps2_5 (W11 m ρ c) (Proc.devRef .tc main_arg11) = _
  after_results
  exact arg11_at6 m ρ c

theorem arg12_at12 (c : Dev nD) : W12 m ρ c (Proc.devRef .tc main_arg12) = m ((c : Thread nD τ).loc main_arg12) := by
  show StableHlo.after hostOps2_5 (W11 m ρ c) (Proc.devRef .tc main_arg12) = _
  after_results
  exact arg12_at6 m ρ c

/-- The padded edge features. -/
theorem v20_eq (c : Dev nD) : (W12 m ρ c (Proc.devRef .tc main_v20) : S600064x128.Idx → EReal)
    = pad S600064x128 ![0, 0] ![64, 0] ![0, 0] (m ((c : Thread nD τ).loc main_arg0) : S600000x128.Idx → EReal)
        (sitofp (F := Ideal) .f32 (constantI S_ 32 0#32)) pads_S600000x128_S600064x128_0640_000 h_S_ := by
  have e : (W12 m ρ c (Proc.devRef .tc main_v20) : S600064x128.Idx → EReal)
      = pad S600064x128 ![0, 0] ![64, 0] ![0, 0] (W6 m ρ c (Proc.devRef .tc main_arg0) : S600000x128.Idx → EReal)
          (sitofp (F := Ideal) .f32 (constantI S_ 32 0#32)) pads_S600000x128_S600064x128_0640_000 h_S_ := by
    show StableHlo.after hostOps2_5 (W11 m ρ c) (Proc.devRef .tc main_v20) = _
    after_results
    rfl
  rw [e, arg0_at6]

/-- The two later padding stretches, from ANY contents Z after the gathers: they pad the two gathered arrays. -/
theorem pad_src (Z : Valuation τ sig (Elt Ideal)) :
    (StableHlo.after hostOps2_5 (StableHlo.after hostOps2_4 (StableHlo.after hostOps2_3 (StableHlo.after hostOps2_2
        (StableHlo.after hostOps2_1 Z)))) (Proc.devRef .tc main_v21) : S600064x128.Idx → EReal)
      = pad S600064x128 ![0, 0] ![64, 0] ![0, 0] (Z (Proc.devRef .tc main_v12) : S600000x128.Idx → EReal)
          (sitofp (F := Ideal) .f32 (constantI S_ 32 0#32)) pads_S600000x128_S600064x128_0640_000 h_S_ := by
  after_results
  rfl

theorem pad_dst (Z : Valuation τ sig (Elt Ideal)) :
    (StableHlo.after hostOps2_5 (StableHlo.after hostOps2_4 (StableHlo.after hostOps2_3 (StableHlo.after hostOps2_2
        (StableHlo.after hostOps2_1 Z)))) (Proc.devRef .tc main_v22) : S600064x128.Idx → EReal)
      = pad S600064x128 ![0, 0] ![64, 0] ![0, 0] (Z (Proc.devRef .tc main_v19) : S600000x128.Idx → EReal)
          (sitofp (F := Ideal) .f32 (constantI S_ 32 0#32)) pads_S600000x128_S600064x128_0640_000 h_S_ := by
  after_results
  rfl

/-- A row below 600000 of a zero-padded 600000-row array is the array's row. -/
theorem pad_row (x : S600000x128.Idx → EReal) (v : S_.Idx → EReal) (r : Fin 600000) (r' : Fin 600064) (hr : r'.val = r.val)
    (k : Fin 128) :
    pad S600064x128 ![0, 0] ![64, 0] ![0, 0] x v pads_S600000x128_S600064x128_0640_000 h_S_ (ix2 r' k) = x (ix2 r k) := by
  refine pad_apply_of_inside _ _ _ _ _ _ _ (ix2 r' k) (ix2 r k) fun a => ?_
  match a with
  | ⟨0, _⟩ => show r'.val = 0 + r.val * (0 + 1); omega
  | ⟨1, _⟩ => show k.val = 0 + k.val * (0 + 1); omega

theorem v20_row (c : Dev nD) (r : Fin 600000) (r' : Fin 600064) (hr : r'.val = r.val) (k : Fin 128) :
    (W12 m ρ c (Proc.devRef .tc main_v20) : S600064x128.Idx → EReal) (ix2 r' k) = (m ((c : Thread nD τ).loc main_arg0) : S600000x128.Idx → EReal) (ix2 r k) := by
  rw [v20_eq]; exact pad_row _ _ r r' hr k

theorem v21_row (c : Dev nD) (r : Fin 600000) (r' : Fin 600064) (hr : r'.val = r.val) (k : Fin 128) :
    (W12 m ρ c (Proc.devRef .tc main_v21) : S600064x128.Idx → EReal) (ix2 r' k)
      = (W7 m ρ c (Proc.devRef .tc main_v12) : S600000x128.Idx → EReal) (ix2 r k) := by
  rw [show (W12 m ρ c (Proc.devRef .tc main_v21) : S600064x128.Idx → EReal) = _ from pad_src (W7 m ρ c)]
  exact pad_row _ _ r r' hr k

theorem v22_row (c : Dev nD) (r : Fin 600000) (r' : Fin 600064) (hr : r'.val = r.val) (k : Fin 128) :
    (W12 m ρ c (Proc.devRef .tc main_v22) : S600064x128.Idx → EReal) (ix2 r' k)
      = (W7 m ρ c (Proc.devRef .tc main_v19) : S600000x128.Idx → EReal) (ix2 r k) := by
  rw [show (W12 m ρ c (Proc.devRef .tc main_v22) : S600064x128.Idx → EReal) = _ from pad_dst (W7 m ρ c)]
  exact pad_row _ _ r r' hr k

/-! ## The edge update, row by row -/

/-- Row r of the new edge features: the slice [0 : 600000] of the edge region's output array. -/
theorem v24_rows (hpay : Reg2.PayEdge) (c : Dev nD) (r : Fin 600000) (j : Fin 128) :
    (extractStridedSlice S600000x128 ![0, 0] (W13 m ρ c (Proc.devRef .tc main_v23) : S600064x128.Idx → EReal)
        slices_S600064x128_S600000x128_0_0 : S600000x128.Idx → EReal) (ix2 r j)
      = edgeRow (row (m ((c : Thread nD τ).loc main_arg0) : S600000x128.Idx → EReal) r)
          (row (W7 m ρ c (Proc.devRef .tc main_v12) : S600000x128.Idx → EReal) r)
          (row (W7 m ρ c (Proc.devRef .tc main_v19) : S600000x128.Idx → EReal) r)
          (mat (m ((c : Thread nD τ).loc main_arg5) : S128x128.Idx → EReal)) (vec (m ((c : Thread nD τ).loc main_arg8) : S128.Idx → EReal)) (mat (m ((c : Thread nD τ).loc main_arg9) : S128x128.Idx → EReal)) (vec (m ((c : Thread nD τ).loc main_arg10) : S128.Idx → EReal))
          (vec (m ((c : Thread nD τ).loc main_arg11) : S128.Idx → EReal)) (vec (m ((c : Thread nD τ).loc main_arg12) : S128.Idx → EReal)) j := by
  have hr : r.val < 600064 := by have := r.isLt; omega
  rw [extractStridedSlice_apply _ _ _ (ix2 r j) (ix2 (⟨r.val, hr⟩ : Fin 600064) j) (fun a => by
    match a with
    | ⟨0, _⟩ => show r.val = 0 + r.val; omega
    | ⟨1, _⟩ => show j.val = 0 + j.val; omega)]
  have eG : (W13 m ρ c (Proc.devRef .tc main_v23) : S600064x128.Idx → EReal) = Reg2.G (V12 m ρ) c :=
    (W13_arr m ρ c 9).trans (Reg2.final (V12 m ρ) hpay c)
  rw [eG]
  have e0 : row (W12 m ρ c (Proc.devRef .tc main_v20) : S600064x128.Idx → EReal) ⟨r.val, hr⟩ = row (m ((c : Thread nD τ).loc main_arg0) : S600000x128.Idx → EReal) r :=
    funext fun k => v20_row m ρ c r ⟨r.val, hr⟩ rfl k
  have e1 : row (W12 m ρ c (Proc.devRef .tc main_v21) : S600064x128.Idx → EReal) ⟨r.val, hr⟩
      = row (W7 m ρ c (Proc.devRef .tc main_v12) : S600000x128.Idx → EReal) r := funext fun k => v21_row m ρ c r ⟨r.val, hr⟩ rfl k
  have e2 : row (W12 m ρ c (Proc.devRef .tc main_v22) : S600064x128.Idx → EReal) ⟨r.val, hr⟩
      = row (W7 m ρ c (Proc.devRef .tc main_v19) : S600000x128.Idx → EReal) r := funext fun k => v22_row m ρ c r ⟨r.val, hr⟩ rfl k
  show edgeRow (row (W12 m ρ c (Proc.devRef .tc main_v20) : S600064x128.Idx → EReal) ⟨r.val, hr⟩)
      (row (W12 m ρ c (Proc.devRef .tc main_v21) : S600064x128.Idx → EReal) ⟨r.val, hr⟩)
      (row (W12 m ρ c (Proc.devRef .tc main_v22) : S600064x128.Idx → EReal) ⟨r.val, hr⟩)
      (mat (W12 m ρ c (Proc.devRef .tc main_arg5) : S128x128.Idx → EReal)) (vec (W12 m ρ c (Proc.devRef .tc main_arg8) : S128.Idx → EReal))
      (mat (W12 m ρ c (Proc.devRef .tc main_arg9) : S128x128.Idx → EReal)) (vec (W12 m ρ c (Proc.devRef .tc main_arg10) : S128.Idx → EReal))
      (vec (W12 m ρ c (Proc.devRef .tc main_arg11) : S128.Idx → EReal)) (vec (W12 m ρ c (Proc.devRef .tc main_arg12) : S128.Idx → EReal)) j = _
  rw [e0, e1, e2, arg5_at12, arg8_at12, arg9_at12, arg10_at12, arg11_at12, arg12_at12]

/-! ## The aggregation -/

/-- The per-node sums: the new edge rows scatter-added into a zero array at the destination indices. -/
theorem v27_eq (c : Dev nD) : (W14 m ρ c (Proc.devRef .tc main_v27) : S200000x128.Idx → EReal)
    = Host.scatterAdd scatter_S200000x128_S600000x1_S600000x128_1_0_0_1
        (broadcastInDim S200000x128 ![] bcast_S_S200000x128 (constant (F := Ideal) S_ .f32 0x00000000#32))
        (broadcastInDim S600000x1 ![0] bcast_S600000_S600000x1_0 (m ((c : Thread nD τ).loc main_arg4)))
        (extractStridedSlice S600000x128 ![0, 0] (W13 m ρ c (Proc.devRef .tc main_v23) : S600064x128.Idx → EReal)
          slices_S600064x128_S600000x128_0_0) := by
  show StableHlo.after hostOps3 (W13 m ρ c) (Proc.devRef .tc main_v27) = _
  after_results
  rw [arg4_at13]

end Cert.EdgeNode.Fold

end
-- ==== Proof.KerReg3.lean ====
/-
  The node update: what the region's output array holds.

  The two padded node-indexed arrays (the node features and the aggregated edge features) have
  200704 = 98 x 2048 rows. Grid point t stages rows 2048 t … 2048 t + 2047 of each, the three whole weight matrices
  (the first layer's top and bottom halves and the second layer) and the four whole bias / scale vectors, and
  writes back rows 2048 t … 2048 t + 2047 of the result. The body works row by row, so row r of the result is the
  node-update function of row r of the two arrays, whichever point wrote it: the result array is ONE function of
  the arrays the region finds, and the 98 blocks cover it.
-/
import proofs.«179970_j42777874268719_1_alg».proof.Proof.Gen.KernelIdeal.Frame
import proofs.«179970_j42777874268719_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.EdgeNode.Reg3

open Cert.KernelIdeal Cert.KernelIdeal.Gen Cert.EdgeNode

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the 98 grid points: the row blocks move with the point, the weights and biases stay. -/
theorem idx : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 1) = 0
    ∧ win3_5.index t (0 : Fin 2) = 0
    ∧ win3_5.index t (1 : Fin 2) = 0
    ∧ win3_6.index t (0 : Fin 1) = 0
    ∧ win3_7.index t (0 : Fin 1) = 0
    ∧ win3_8.index t (0 : Fin 1) = 0
    ∧ win3_9.index t (0 : Fin 2) = t.val
    ∧ win3_9.index t (1 : Fin 2) = 0 :=
  (by decide +kernel : ∀ t : Fin grid3.N, _)

/-- Window 0's block at point t is rows 2048 t + p of its array. -/
theorem blk0 (c : Dev nD) (t : Fin cfg3.N) (p : Fin 2048) (k : Fin 128) (r : Fin 200704)
    (hr : r.val = t.val * 2048 + p.val) :
    (iblk3 V c 0 t : S2048x128.Idx → EReal) (ix2 p k) = (V c main_v30 : S200704x128.Idx → EReal) (ix2 r k) := by
  obtain ⟨e0, e1, -⟩ := idx t
  unfold iblk3
  rw [View.read_apply]
  show (V c main_v30 : S200704x128.Idx → EReal) _ = _
  congr 1
  funext a
  apply Fin.ext
  match a with
  | ⟨0, _⟩ => show win3_0.index t 0 * 2048 + 1 * p.val = r.val; rw [e0, hr]; omega
  | ⟨1, _⟩ => show win3_0.index t 1 * 128 + 1 * k.val = k.val; rw [e1]; omega

/-- Window 1's block at point t is rows 2048 t + p of its array. -/
theorem blk1 (c : Dev nD) (t : Fin cfg3.N) (p : Fin 2048) (k : Fin 128) (r : Fin 200704)
    (hr : r.val = t.val * 2048 + p.val) :
    (iblk3 V c 1 t : S2048x128.Idx → EReal) (ix2 p k) = (V c main_v31 : S200704x128.Idx → EReal) (ix2 r k) := by
  obtain ⟨-, -, e2, e3, -⟩ := idx t
  unfold iblk3
  rw [View.read_apply]
  show (V c main_v31 : S200704x128.Idx → EReal) _ = _
  congr 1
  funext a
  apply Fin.ext
  match a with
  | ⟨0, _⟩ => show win3_1.index t 0 * 2048 + 1 * p.val = r.val; rw [e2, hr]; omega
  | ⟨1, _⟩ => show win3_1.index t 1 * 128 + 1 * k.val = k.val; rw [e3]; omega

/-- Window 2's block at every point is its whole 128 x 128 array. -/
theorem blk2 (c : Dev nD) (t : Fin cfg3.N) (k j : Fin 128) :
    (iblk3 V c 2 t : S128x128.Idx → EReal) (ix2 k j) = (V c main_v28 : S128x128.Idx → EReal) (ix2 k j) := by
  obtain ⟨-, -, -, -, e4, e5, -⟩ := idx t
  unfold iblk3
  rw [View.read_apply]
  show (V c main_v28 : S128x128.Idx → EReal) _ = _
  congr 1
  funext a
  apply Fin.ext
  match a with
  | ⟨0, _⟩ => show win3_2.index t 0 * 128 + 1 * k.val = k.val; rw [e4]; omega
  | ⟨1, _⟩ => show win3_2.index t 1 * 128 + 1 * j.val = j.val; rw [e5]; omega

/-- Window 3's block at every point is its whole 128 x 128 array. -/
theorem blk3 (c : Dev nD) (t : Fin cfg3.N) (k j : Fin 128) :
    (iblk3 V c 3 t : S128x128.Idx → EReal) (ix2 k j) = (V c main_v29 : S128x128.Idx → EReal) (ix2 k j) := by
  obtain ⟨-, -, -, -, -, -, e6, e7, -⟩ := idx t
  unfold iblk3
  rw [View.read_apply]
  show (V c main_v29 : S128x128.Idx → EReal) _ = _
  congr 1
  funext a
  apply Fin.ext
  match a with
  | ⟨0, _⟩ => show win3_3.index t 0 * 128 + 1 * k.val = k.val; rw [e6]; omega
  | ⟨1, _⟩ => show win3_3.index t 1 * 128 + 1 * j.val = j.val; rw [e7]; omega

/-- Window 4's block at every point is its whole 128-entry array. -/
theorem blk4 (c : Dev nD) (t : Fin cfg3.N) (k : Fin 128) :
    (iblk3 V c 4 t : S128.Idx → EReal) (ix1 k) = (V c main_arg14 : S128.Idx → EReal) (ix1 k) := by
  obtain ⟨-, -, -, -, -, -, -, -, e8, -⟩ := idx t
  unfold iblk3
  rw [View.read_apply]
  show (V c main_arg14 : S128.Idx → EReal) _ = _
  congr 1
  funext a
  apply Fin.ext
  match a with
  | ⟨0, _⟩ => show win3_4.index t 0 * 128 + 1 * k.val = k.val; rw [e8]; omega

/-- Window 5's block at every point is its whole 128 x 128 array. -/
theorem blk5 (c : Dev nD) (t : Fin cfg3.N) (k j : Fin 128) :
    (iblk3 V c 5 t : S128x128.Idx → EReal) (ix2 k j) = (V c main_arg15 : S128x128.Idx → EReal) (ix2 k j) := by
  obtain ⟨-, -, -, -, -, -, -, -, -, e9, e10, -⟩ := idx t
  unfold iblk3
  rw [View.read_apply]
  show (V c main_arg15 : S128x128.Idx → EReal) _ = _
  congr 1
  funext a
  apply Fin.ext
  match a with
  | ⟨0, _⟩ => show win3_5.index t 0 * 128 + 1 * k.val = k.val; rw [e9]; omega
  | ⟨1, _⟩ => show win3_5.index t 1 * 128 + 1 * j.val = j.val; rw [e10]; omega

/-- Window 6's block at every point is its whole 128-entry array. -/
theorem blk6 (c : Dev nD) (t : Fin cfg3.N) (k : Fin 128) :
    (iblk3 V c 6 t : S128.Idx → EReal) (ix1 k) = (V c main_arg16 : S128.Idx → EReal) (ix1 k) := by
  obtain ⟨-, -, -, -, -, -, -, -, -, -, -, e11, -⟩ := idx t
  unfold iblk3
  rw [View.read_apply]
  show (V c main_arg16 : S128.Idx → EReal) _ = _
  congr 1
  funext a
  apply Fin.ext
  match a with
  | ⟨0, _⟩ => show win3_6.index t 0 * 128 + 1 * k.val = k.val; rw [e11]; omega

/-- Window 7's block at every point is its whole 128-entry array. -/
theorem blk7 (c : Dev nD) (t : Fin cfg3.N) (k : Fin 128) :
    (iblk3 V c 7 t : S128.Idx → EReal) (ix1 k) = (V c main_arg17 : S128.Idx → EReal) (ix1 k) := by
  obtain ⟨-, -, -, -, -, -, -, -, -, -, -, -, e12, -⟩ := idx t
  unfold iblk3
  rw [View.read_apply]
  show (V c main_arg17 : S128.Idx → EReal) _ = _
  congr 1
  funext a
  apply Fin.ext
  match a with
  | ⟨0, _⟩ => show win3_7.index t 0 * 128 + 1 * k.val = k.val; rw [e12]; omega

/-- Window 8's block at every point is its whole 128-entry array. -/
theorem blk8 (c : Dev nD) (t : Fin cfg3.N) (k : Fin 128) :
    (iblk3 V c 8 t : S128.Idx → EReal) (ix1 k) = (V c main_arg18 : S128.Idx → EReal) (ix1 k) := by
  obtain ⟨-, -, -, -, -, -, -, -, -, -, -, -, -, e13, -⟩ := idx t
  unfold iblk3
  rw [View.read_apply]
  show (V c main_arg18 : S128.Idx → EReal) _ = _
  congr 1
  funext a
  apply Fin.ext
  match a with
  | ⟨0, _⟩ => show win3_8.index t 0 * 128 + 1 * k.val = k.val; rw [e13]; omega

/-- What the output array ends holding: the node-update function of each row of the two staged arrays. -/
def G (c : Dev nD) : S200704x128.Idx → EReal := fun i =>
  nodeRow (row (V c main_v30 : S200704x128.Idx → EReal) ⟨(i 0).val, idx2_lt0 i⟩) (row (V c main_v31 : S200704x128.Idx → EReal) ⟨(i 0).val, idx2_lt0 i⟩)
    (mat (V c main_v28 : S128x128.Idx → EReal)) (mat (V c main_v29 : S128x128.Idx → EReal))
    (vec (V c main_arg14 : S128.Idx → EReal)) (mat (V c main_arg15 : S128x128.Idx → EReal)) (vec (V c main_arg16 : S128.Idx → EReal))
    (vec (V c main_arg17 : S128.Idx → EReal)) (vec (V c main_arg18 : S128.Idx → EReal)) ⟨(i 1).val, idx2_lt1 i⟩

/-- The hypothesis the body's arithmetic supplies: the stored value at (p, j), as a function of the staged blocks' rows. -/
abbrev PayNode : Prop := ∀ (v0 v2 : Vec Ideal S2048x128 .f32) (v6 v9 v22 : Vec Ideal S128x128 .f32) (v15 v25 v45 v49 : Vec Ideal S128 .f32)
    (p : Fin 2048) (j : Fin 128),
    k3_pay1 (F := Ideal) (k3_pay2 v0) (k3_pay3 v0 v2 v6 v9 v15 v22 v25) (k3_pay4 v0 v2 v6 v9 v15 v22 v25) v45 v49 (ix2 p j)
      = nodeRow (row v0 p) (row v2 p) (mat v6) (mat v9) (vec v15) (mat v22) (vec v25) (vec v45) (vec v49) j

/-- What point t writes back is block t of G. -/
theorem flushed_eq (hpay : PayNode) (c : Dev nD) (t : Fin cfg3.N) :
    (dat3 V c).flushed 9 t = ((cfg3.win 9).blk t).view.read (Elt Ideal) (G V c) := by
  have hN : cfg3.N = 98 := N_3
  obtain ⟨-, -, -, -, -, -, -, -, -, -, -, -, -, -, e14, e15⟩ := idx t
  show (cfg3.win 9).cut (grid3.coords t) ((dat3 V c).after 9 t) = _
  rw [after3_9]
  unfold out3_9
  rw [View.canon_unit_zero hz]
  simp only [View.ld_unit_zero (S := S2048x128) hz, View.ld_unit_zero (S := S128x128) hz, View.ld_unit_zero (S := S128) hz1]
  funext y
  obtain ⟨p, j, rfl⟩ : ∃ (p : Fin 2048) (j : Fin 128), y = ix2 p j := ⟨y 0, y 1, eq_ix2 y⟩
  refine (hpay (iblk3 V c 0 t) (iblk3 V c 1 t) (iblk3 V c 2 t) (iblk3 V c 3 t) (iblk3 V c 5 t) (iblk3 V c 4 t) (iblk3 V c 6 t) (iblk3 V c 7 t) (iblk3 V c 8 t) p j).trans ?_
  rw [View.read_apply]
  have ht : t.val < 98 := hN ▸ t.isLt
  have h0 : ((((cfg3.win 9).blk t).view.emb (ix2 p j)) 0).val = t.val * 2048 + p.val := by
    show win3_9.index t 0 * 2048 + 1 * p.val = _; rw [e14]; omega
  have h1 : ((((cfg3.win 9).blk t).view.emb (ix2 p j)) 1).val = j.val := by
    show win3_9.index t 1 * 128 + 1 * j.val = _; rw [e15]; omega
  have q0 : row (iblk3 V c 0 t : S2048x128.Idx → EReal) p
      = row (V c main_v30 : S200704x128.Idx → EReal) ⟨_, idx2_lt0 (((cfg3.win 9).blk t).view.emb (ix2 p j))⟩ := funext fun k => blk0 V c t p k _ h0
  have q1 : row (iblk3 V c 1 t : S2048x128.Idx → EReal) p
      = row (V c main_v31 : S200704x128.Idx → EReal) ⟨_, idx2_lt0 (((cfg3.win 9).blk t).view.emb (ix2 p j))⟩ := funext fun k => blk1 V c t p k _ h0
  have q2 : mat (iblk3 V c 2 t : S128x128.Idx → EReal) = mat (V c main_v28 : S128x128.Idx → EReal) :=
    funext fun k => funext fun j' => blk2 V c t k j'
  have q3 : mat (iblk3 V c 3 t : S128x128.Idx → EReal) = mat (V c main_v29 : S128x128.Idx → EReal) :=
    funext fun k => funext fun j' => blk3 V c t k j'
  have q4 : vec (iblk3 V c 4 t : S128.Idx → EReal) = vec (V c main_arg14 : S128.Idx → EReal) :=
    funext fun k => blk4 V c t k
  have q5 : mat (iblk3 V c 5 t : S128x128.Idx → EReal) = mat (V c main_arg15 : S128x128.Idx → EReal) :=
    funext fun k => funext fun j' => blk5 V c t k j'
  have q6 : vec (iblk3 V c 6 t : S128.Idx → EReal) = vec (V c main_arg16 : S128.Idx → EReal) :=
    funext fun k => blk6 V c t k
  have q7 : vec (iblk3 V c 7 t : S128.Idx → EReal) = vec (V c main_arg17 : S128.Idx → EReal) :=
    funext fun k => blk7 V c t k
  have q8 : vec (iblk3 V c 8 t : S128.Idx → EReal) = vec (V c main_arg18 : S128.Idx → EReal) :=
    funext fun k => blk8 V c t k
  unfold G
  rw [show (⟨_, idx2_lt1 (((cfg3.win 9).blk t).view.emb (ix2 p j))⟩ : Fin 128) = j from Fin.ext h1, q0, q1, q2, q3, q4, q5, q6, q7, q8]
  rfl

/-- An index of the array is in point t's block iff each coordinate is in the block's range on its axis. -/
theorem mem_blk (t : Fin cfg3.N) (i : S200704x128.Idx) :
    i ∈ ((cfg3.win 9).blk t).view.set ↔ ∀ a : Fin 2, win3_9.index t a * S2048x128.size a ≤ (i a).val ∧ (i a).val < win3_9.index t a * S2048x128.size a + S2048x128.size a := by
  show i ∈ ((View.whole main_v32).slice (win3_9.rect t)).set ↔ _
  rw [View.set_slice_whole, Rect.mem_set_unit]
  exact Iff.rfl

/-- Row r lies in the block of point r / 2048. -/
theorem cover (i : S200704x128.Idx) : ∃ t : Fin cfg3.N, (cfg3.win 9).flush t = true ∧ i ∈ ((cfg3.win 9).blk t).view.set := by
  have hN : cfg3.N = 98 := N_3
  have hi0 : (i 0).val < 200704 := (i 0).isLt
  have hi1 : (i 1).val < 128 := (i 1).isLt
  refine ⟨⟨(i 0).val / 2048, by rw [hN]; omega⟩, flush3_9 _, ?_⟩
  obtain ⟨-, -, -, -, -, -, -, -, -, -, -, -, -, -, e14, e15⟩ := idx ⟨(i 0).val / 2048, by rw [hN]; omega⟩
  rw [mem_blk]
  intro a
  match a with
  | ⟨0, _⟩ => show win3_9.index _ (0 : Fin 2) * 2048 ≤ (i 0).val ∧ (i 0).val < win3_9.index _ (0 : Fin 2) * 2048 + 2048; rw [e14]; show (i 0).val / 2048 * 2048 ≤ _ ∧ _ < (i 0).val / 2048 * 2048 + 2048; omega
  | ⟨1, _⟩ => show win3_9.index _ (1 : Fin 2) * 128 ≤ (i 1).val ∧ (i 1).val < win3_9.index _ (1 : Fin 2) * 128 + 128; rw [e15]; omega

/-- THE ARRAY after the region: G. -/
theorem final (hpay : PayNode) (c : Dev nD) : (dat3 V c).arrAt 9 cfg3.N = G V c :=
  (dat3 V c).arrAt_eq_of_cover 9 (G V c) (fun t _ => flushed_eq V hpay c t) (cover)

end Cert.EdgeNode.Reg3

end
-- ==== Proof.KerFoldD.lean ====
/-
  The node stage, from the third region's end to the node features the program returns.

  The node region finds two zero-padded node-indexed arrays (the node features and the aggregated edge features), the
  two halves of the first layer's weight matrix, and the remaining weights, biases and scales as launched. A row
  below the original row count of a zero-padded array is the original array's row; rows 0..127 and 128..255 of the
  256 x 128 weight matrix are its top and bottom halves. The region leaves, row by row, the node update of the
  rows it finds, and the slice that follows keeps the original rows. So row r of the result is the node update of
  row r of the node features and row r of the aggregated edge features.
-/
import proofs.«179970_j42777874268719_1_alg».proof.Proof.KerReg3
import proofs.«179970_j42777874268719_1_alg».proof.Proof.KerFoldA
import Idealize.ShloMosaic.Lib.KernelVsHost
import Idealize.ShloMosaic.Lib.ValueLayout

set_option maxRecDepth 16384

noncomputable section

namespace Cert.EdgeNode.Fold

open Cert.KernelIdeal Cert.KernelIdeal.Gen Cert.EdgeNode
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The two padded node-indexed arrays -/

/-- The padded node features, as the node region finds them. -/
theorem node_v30_eq (c : Dev nD) : (W17 m ρ c (Proc.devRef .tc main_v30) : S200704x128.Idx → EReal)
    = pad S200704x128 ![0, 0] ![704, 0] ![0, 0] (m ((c : Thread nD τ).loc main_arg1) : S200000x128.Idx → EReal)
        (sitofp (F := Ideal) .f32 (constantI S_ 32 0#32)) pads_S200000x128_S200704x128_07040_000 h_S_ := by
  have e : (W17 m ρ c (Proc.devRef .tc main_v30) : S200704x128.Idx → EReal)
      = pad S200704x128 ![0, 0] ![704, 0] ![0, 0] (W13 m ρ c (Proc.devRef .tc main_arg1) : S200000x128.Idx → EReal)
          (sitofp (F := Ideal) .f32 (constantI S_ 32 0#32)) pads_S200000x128_S200704x128_07040_000 h_S_ := by
    show StableHlo.after hostOps3_3 (W16 m ρ c) (Proc.devRef .tc main_v30) = _
    after_results
    rfl
  rw [e, arg1_at13]

/-- Its rows below 200000 are the node features' rows. -/
theorem node_v30_row (c : Dev nD) (r : Fin 200000) (r' : Fin 200704) (hr : r'.val = r.val) (k : Fin 128) :
    (W17 m ρ c (Proc.devRef .tc main_v30) : S200704x128.Idx → EReal) (ix2 r' k)
      = (m ((c : Thread nD τ).loc main_arg1) : S200000x128.Idx → EReal) (ix2 r k) := by
  rw [node_v30_eq]
  refine pad_apply_of_inside _ _ _ _ _ _ _ (ix2 r' k) (ix2 r k) fun a => ?_
  match a with
  | ⟨0, _⟩ => show r'.val = 0 + r.val * (0 + 1); omega
  | ⟨1, _⟩ => show k.val = 0 + k.val * (0 + 1); omega

/-- The two padding stretches before the node region, from any contents: the second padded array is the zero-pad of
    whatever the aggregated-features buffer held before them. -/
theorem node_pad_after (Z : Valuation τ sig (Elt Ideal)) :
    (StableHlo.after hostOps3_3 (StableHlo.after hostOps3_2 (StableHlo.after hostOps3_1 Z)) (Proc.devRef .tc main_v31) : S200704x128.Idx → EReal)
      = pad S200704x128 ![0, 0] ![704, 0] ![0, 0] (Z (Proc.devRef .tc main_v27) : S200000x128.Idx → EReal)
          (sitofp (F := Ideal) .f32 (constantI S_ 32 0#32)) pads_S200000x128_S200704x128_07040_000 h_S_ := by
  after_results
  rfl

/-- The padded aggregated edge features, as the node region finds them: the aggregated features stay folded. -/
theorem node_v31_eq (c : Dev nD) : (W17 m ρ c (Proc.devRef .tc main_v31) : S200704x128.Idx → EReal)
    = pad S200704x128 ![0, 0] ![704, 0] ![0, 0] (W14 m ρ c (Proc.devRef .tc main_v27) : S200000x128.Idx → EReal)
        (sitofp (F := Ideal) .f32 (constantI S_ 32 0#32)) pads_S200000x128_S200704x128_07040_000 h_S_ :=
  node_pad_after (W14 m ρ c)

/-- Its rows below 200000 are the aggregated edge features' rows. -/
theorem node_v31_row (c : Dev nD) (r : Fin 200000) (r' : Fin 200704) (hr : r'.val = r.val) (k : Fin 128) :
    (W17 m ρ c (Proc.devRef .tc main_v31) : S200704x128.Idx → EReal) (ix2 r' k)
      = (W14 m ρ c (Proc.devRef .tc main_v27) : S200000x128.Idx → EReal) (ix2 r k) := by
  rw [node_v31_eq]
  refine pad_apply_of_inside _ _ _ _ _ _ _ (ix2 r' k) (ix2 r k) fun a => ?_
  match a with
  | ⟨0, _⟩ => show r'.val = 0 + r.val * (0 + 1); omega
  | ⟨1, _⟩ => show k.val = 0 + k.val * (0 + 1); omega

/-! ## The two halves of the first layer's weight matrix -/

/-- The top half, as the node region finds it: rows 0..127 of the 256 x 128 weight matrix. -/
theorem node_v28_mat (c : Dev nD) : mat (W17 m ρ c (Proc.devRef .tc main_v28) : S128x128.Idx → EReal)
    = topRows (mat2 (m ((c : Thread nD τ).loc main_arg13) : S256x128.Idx → EReal)) := by
  have e : (W17 m ρ c (Proc.devRef .tc main_v28) : S128x128.Idx → EReal)
      = extractStridedSlice S128x128 ![0, 0] (W13 m ρ c (Proc.devRef .tc main_arg13) : S256x128.Idx → EReal)
          slices_S256x128_S128x128_0_0 := by
    show StableHlo.after hostOps3_3 (W16 m ρ c) (Proc.devRef .tc main_v28) = _
    after_results
  funext k j
  show (W17 m ρ c (Proc.devRef .tc main_v28) : S128x128.Idx → EReal) (ix2 k j) = _
  rw [e, arg13_at13]
  exact slice2_axis0_apply 0 _ slices_S256x128_S128x128_0_0 k j _ (by show k.val = 0 + k.val; omega)

/-- The bottom half, as the node region finds it: rows 128..255 of the 256 x 128 weight matrix. -/
theorem node_v29_mat (c : Dev nD) : mat (W17 m ρ c (Proc.devRef .tc main_v29) : S128x128.Idx → EReal)
    = botRows (mat2 (m ((c : Thread nD τ).loc main_arg13) : S256x128.Idx → EReal)) := by
  have e : (W17 m ρ c (Proc.devRef .tc main_v29) : S128x128.Idx → EReal)
      = extractStridedSlice S128x128 ![128, 0] (W13 m ρ c (Proc.devRef .tc main_arg13) : S256x128.Idx → EReal)
          slices_S256x128_S128x128_128_0 := by
    show StableHlo.after hostOps3_3 (W16 m ρ c) (Proc.devRef .tc main_v29) = _
    after_results
  funext k j
  show (W17 m ρ c (Proc.devRef .tc main_v29) : S128x128.Idx → EReal) (ix2 k j) = _
  rw [e, arg13_at13]
  exact slice2_axis0_apply 128 _ slices_S256x128_S128x128_128_0 k j _ rfl

/-! ## The remaining weights, biases and scales: as launched -/

theorem node_arg14_at17 (c : Dev nD) : W17 m ρ c (Proc.devRef .tc main_arg14) = m ((c : Thread nD τ).loc main_arg14) := by
  show StableHlo.after hostOps3_3 (W16 m ρ c) (Proc.devRef .tc main_arg14) = _
  after_results
  exact arg14_at13 m ρ c

theorem node_arg15_at17 (c : Dev nD) : W17 m ρ c (Proc.devRef .tc main_arg15) = m ((c : Thread nD τ).loc main_arg15) := by
  show StableHlo.after hostOps3_3 (W16 m ρ c) (Proc.devRef .tc main_arg15) = _
  after_results
  exact arg15_at13 m ρ c

theorem node_arg16_at17 (c : Dev nD) : W17 m ρ c (Proc.devRef .tc main_arg16) = m ((c : Thread nD τ).loc main_arg16) := by
  show StableHlo.after hostOps3_3 (W16 m ρ c) (Proc.devRef .tc main_arg16) = _
  after_results
  exact arg16_at13 m ρ c

theorem node_arg17_at17 (c : Dev nD) : W17 m ρ c (Proc.devRef .tc main_arg17) = m ((c : Thread nD τ).loc main_arg17) := by
  show StableHlo.after hostOps3_3 (W16 m ρ c) (Proc.devRef .tc main_arg17) = _
  after_results
  exact arg17_at13 m ρ c

theorem node_arg18_at17 (c : Dev nD) : W17 m ρ c (Proc.devRef .tc main_arg18) = m ((c : Thread nD τ).loc main_arg18) := by
  show StableHlo.after hostOps3_3 (W16 m ρ c) (Proc.devRef .tc main_arg18) = _
  after_results
  exact arg18_at13 m ρ c

/-! ## The node features the program returns -/

/-- Row r of the new node features (after the region and the slice): the node update of row r of the node features and
    row r of the aggregated edge features. -/
theorem v33_rows (hpay : Reg3.PayNode) (c : Dev nD) (r : Fin 200000) (j : Fin 128) :
    (W19 m ρ c (Proc.devRef .tc main_v33) : S200000x128.Idx → EReal) (ix2 r j)
      = nodeRow (row (m ((c : Thread nD τ).loc main_arg1) : S200000x128.Idx → EReal) r)
          (row (W14 m ρ c (Proc.devRef .tc main_v27) : S200000x128.Idx → EReal) r)
          (topRows (mat2 (m ((c : Thread nD τ).loc main_arg13) : S256x128.Idx → EReal)))
          (botRows (mat2 (m ((c : Thread nD τ).loc main_arg13) : S256x128.Idx → EReal)))
          (vec (m ((c : Thread nD τ).loc main_arg14) : S128.Idx → EReal)) (mat (m ((c : Thread nD τ).loc main_arg15) : S128x128.Idx → EReal))
          (vec (m ((c : Thread nD τ).loc main_arg16) : S128.Idx → EReal)) (vec (m ((c : Thread nD τ).loc main_arg17) : S128.Idx → EReal))
          (vec (m ((c : Thread nD τ).loc main_arg18) : S128.Idx → EReal)) j := by
  have e : (W19 m ρ c (Proc.devRef .tc main_v33) : S200000x128.Idx → EReal)
      = extractStridedSlice S200000x128 ![0, 0] (W18 m ρ c (Proc.devRef .tc main_v32) : S200704x128.Idx → EReal)
          slices_S200704x128_S200000x128_0_0 := by
    show StableHlo.after hostOps4 (W18 m ρ c) (Proc.devRef .tc main_v33) = _
    after_results
  have hr : r.val < 200704 := by have := r.isLt; omega
  rw [e, extractStridedSlice_apply _ _ _ (ix2 r j) (ix2 (⟨r.val, hr⟩ : Fin 200704) j) (fun a => by
    match a with
    | ⟨0, _⟩ => show r.val = 0 + r.val; omega
    | ⟨1, _⟩ => show j.val = 0 + j.val; omega)]
  have eG : (W18 m ρ c (Proc.devRef .tc main_v32) : S200704x128.Idx → EReal) = Reg3.G (V17 m ρ) c :=
    (W18_arr m ρ c 9).trans (Reg3.final (V17 m ρ) hpay c)
  rw [eG]
  have e30 : row (W17 m ρ c (Proc.devRef .tc main_v30) : S200704x128.Idx → EReal) ⟨r.val, hr⟩
      = row (m ((c : Thread nD τ).loc main_arg1) : S200000x128.Idx → EReal) r :=
    funext fun k => node_v30_row m ρ c r ⟨r.val, hr⟩ rfl k
  have e31 : row (W17 m ρ c (Proc.devRef .tc main_v31) : S200704x128.Idx → EReal) ⟨r.val, hr⟩
      = row (W14 m ρ c (Proc.devRef .tc main_v27) : S200000x128.Idx → EReal) r :=
    funext fun k => node_v31_row m ρ c r ⟨r.val, hr⟩ rfl k
  have e14 : vec (W17 m ρ c (Proc.devRef .tc main_arg14) : S128.Idx → EReal)
      = vec (m ((c : Thread nD τ).loc main_arg14) : S128.Idx → EReal) := by rw [node_arg14_at17]
  have e15 : mat (W17 m ρ c (Proc.devRef .tc main_arg15) : S128x128.Idx → EReal)
      = mat (m ((c : Thread nD τ).loc main_arg15) : S128x128.Idx → EReal) := by rw [node_arg15_at17]
  have e16 : vec (W17 m ρ c (Proc.devRef .tc main_arg16) : S128.Idx → EReal)
      = vec (m ((c : Thread nD τ).loc main_arg16) : S128.Idx → EReal) := by rw [node_arg16_at17]
  have e17 : vec (W17 m ρ c (Proc.devRef .tc main_arg17) : S128.Idx → EReal)
      = vec (m ((c : Thread nD τ).loc main_arg17) : S128.Idx → EReal) := by rw [node_arg17_at17]
  have e18 : vec (W17 m ρ c (Proc.devRef .tc main_arg18) : S128.Idx → EReal)
      = vec (m ((c : Thread nD τ).loc main_arg18) : S128.Idx → EReal) := by rw [node_arg18_at17]
  show nodeRow (row (W17 m ρ c (Proc.devRef .tc main_v30) : S200704x128.Idx → EReal) ⟨r.val, hr⟩)
      (row (W17 m ρ c (Proc.devRef .tc main_v31) : S200704x128.Idx → EReal) ⟨r.val, hr⟩)
      (mat (W17 m ρ c (Proc.devRef .tc main_v28) : S128x128.Idx → EReal))
      (mat (W17 m ρ c (Proc.devRef .tc main_v29) : S128x128.Idx → EReal))
      (vec (W17 m ρ c (Proc.devRef .tc main_arg14) : S128.Idx → EReal))
      (mat (W17 m ρ c (Proc.devRef .tc main_arg15) : S128x128.Idx → EReal))
      (vec (W17 m ρ c (Proc.devRef .tc main_arg16) : S128.Idx → EReal))
      (vec (W17 m ρ c (Proc.devRef .tc main_arg17) : S128.Idx → EReal))
      (vec (W17 m ρ c (Proc.devRef .tc main_arg18) : S128.Idx → EReal)) j = _
  rw [e30, e31, node_v28_mat, node_v29_mat, e14, e15, e16, e17, e18]

end Cert.EdgeNode.Fold

end
-- ==== Proof.Bridge.lean ====
/-
  The two idealized programs compute one function: the kernel's result array IS the reference's last stage
  applied to the kernel's own argument arrays.

  Stage by stage, in the reference's order. The two projections: row r of each projected array is the row times
  the weight matrix, on both sides. The two gathers and the aggregation are the SAME host operations applied to
  equal operands, so they are carried across whole, never opened. The edge update and the node update: each row of
  the kernel's array is the row function of the rows it is computed from, and so is each row of the reference's
  stage; the node update's first layer is one 256-wide product on the reference's side and two 128-wide products
  on the kernel's, equal by splitting the sum.
-/
import proofs.«179970_j42777874268719_1_alg».proof.Proof.Gen.ReferenceIdeal.Read
import proofs.«179970_j42777874268719_1_alg».proof.Proof.KerRows
import proofs.«179970_j42777874268719_1_alg».proof.Proof.RefRows
import proofs.«179970_j42777874268719_1_alg».proof.Proof.HostChains
import proofs.«179970_j42777874268719_1_alg».proof.Proof.KerFoldB
import proofs.«179970_j42777874268719_1_alg».proof.Proof.KerFoldC
import proofs.«179970_j42777874268719_1_alg».proof.Proof.KerFoldD

set_option maxRecDepth 16384

noncomputable section

namespace Cert.EdgeNode.Bridge

open Cert.KernelIdeal Cert.KernelIdeal.Gen Cert.EdgeNode Cert.EdgeNode.Fold
open Idealize.ShloMosaic Idealize.ShloMosaic.TcCoe Idealize.SL.Sem Idealize.ShloMosaic.ValueIdx

variable (m : (ℓ : Loc nD τ sig) → Buf (Elt Ideal) ℓ) (ρ : Dev nD → PrngReg)

/-- The projected mesh features are the reference's first product. -/
theorem proj_mesh (c : Dev nD) :
    (extractStridedSlice S40962x128 ![0, 0] (W3 m ρ c (Proc.devRef .tc main_v1) : S43008x128.Idx → EReal)
        slices_S43008x128_S40962x128_0_0 : S40962x128.Idx → EReal)
    = Cert.ReferenceIdeal.Read.val_main_v1 (F := Ideal) (m ((c : Thread nD τ).loc main_arg2)) (m ((c : Thread nD τ).loc main_arg6)) := by
  funext i
  obtain ⟨r, j, rfl⟩ : ∃ (r : Fin 40962) (j : Fin 128), i = ix2 r j := ⟨i 0, i 1, eq_ix2 i⟩
  rw [v2_rows m ρ Ker.pay_lin0 c r j]
  exact (Ref.ref_lin_mesh _ _ r j).symm

/-- The projected grid features are the reference's second product. -/
theorem proj_grid (c : Dev nD) :
    (extractStridedSlice S200000x128 ![0, 0] (W6 m ρ c (Proc.devRef .tc main_v4) : S200704x128.Idx → EReal)
        slices_S200704x128_S200000x128_0_0 : S200000x128.Idx → EReal)
    = Cert.ReferenceIdeal.Read.val_main_v10 (F := Ideal) (m ((c : Thread nD τ).loc main_arg1)) (m ((c : Thread nD τ).loc main_arg7)) := by
  funext i
  obtain ⟨r, j, rfl⟩ : ∃ (r : Fin 200000) (j : Fin 128), i = ix2 r j := ⟨i 0, i 1, eq_ix2 i⟩
  rw [v5_rows m ρ Ker.pay_lin1 c r j]
  exact (Ref.ref_lin_grid _ _ r j).symm

/-- The gathered source rows are the reference's. -/
theorem gath_src (c : Dev nD) : (W7 m ρ c (Proc.devRef .tc main_v12) : S600000x128.Idx → EReal)
    = Cert.ReferenceIdeal.Read.val_main_v8 (F := Ideal) (m ((c : Thread nD τ).loc main_arg2)) (m ((c : Thread nD τ).loc main_arg3)) (m ((c : Thread nD τ).loc main_arg6)) := by
  rw [v12_eq, proj_mesh]
  exact Chain.gather_src' _ _ _

/-- The gathered destination rows are the reference's. -/
theorem gath_dst (c : Dev nD) : (W7 m ρ c (Proc.devRef .tc main_v19) : S600000x128.Idx → EReal)
    = Cert.ReferenceIdeal.Read.val_main_v17 (F := Ideal) (m ((c : Thread nD τ).loc main_arg1)) (m ((c : Thread nD τ).loc main_arg4)) (m ((c : Thread nD τ).loc main_arg7)) := by
  rw [v19_eq, proj_grid]
  exact Chain.gather_dst' _ _ _

/-- The new edge features are the reference's. -/
theorem edge_rows (c : Dev nD) :
    (extractStridedSlice S600000x128 ![0, 0] (W13 m ρ c (Proc.devRef .tc main_v23) : S600064x128.Idx → EReal)
        slices_S600064x128_S600000x128_0_0 : S600000x128.Idx → EReal)
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨r, j, rfl⟩ : ∃ (r : Fin 600000) (j : Fin 128), i = ix2 r j := ⟨i 0, i 1, eq_ix2 i⟩
  rw [v24_rows m ρ Ker.pay_edge c r j, gath_src, gath_dst]
  exact (Ref.ref_edge _ _ _ _ _ _ _ _ _ _ _ _ _ r j).symm

/-- The per-node sums are the reference's. -/
theorem agg (c : Dev nD) : (W14 m ρ c (Proc.devRef .tc main_v27) : S200000x128.Idx → EReal)
    = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [v27_eq, edge_rows]
  exact Chain.scatter_agg' _ _ _ _ _ _ _ _ _ _ _ _ _

/-- THE RESULT: the kernel's result array is the reference's last stage of the kernel's arguments. -/
theorem result_eq (c : Dev nD) : (W19 m ρ c (Proc.devRef .tc main_v33) : S200000x128.Idx → EReal)
    = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  funext i
  obtain ⟨r, j, rfl⟩ : ∃ (r : Fin 200000) (j : Fin 128), i = ix2 r j := ⟨i 0, i 1, eq_ix2 i⟩
  rw [v33_rows m ρ Ker.pay_node c r j, agg]
  exact (Ref.ref_node _ _ _ _ _ _ _ _ _ _ _ _ _ _ _ _ _ _ _ r j).symm

end Cert.EdgeNode.Bridge

end
-- ==== Proof.lean ====
/-
  One round of edge-to-node message passing on a mesh-to-grid graph: a tiled accelerator program against its
  plain reference, read on the extended reals.

  Both programs compute, for every grid node, a layer-normalised two-layer update of the node's features and
  the sum of its incoming edges' new features, plus the node's features; an edge's new feature is a
  layer-normalised two-layer update of its own feature and the projected features of its two endpoints.

  The accelerator program does the four dense stages — the two endpoint projections, the edge update, the node
  update — row block by row block over zero-padded arrays, and leaves the row gathers and the row scatter-add
  to the host, exactly as the reference does them. On the extended reals rounding to a narrower float is the
  identity, a blocked matrix product is the matrix product, and the logistic function is 1 / (1 + e^(-x)) however
  it is spelt, so every stage computes, row by row, the same function as the reference's; the one rearrangement,
  the node update's first layer as two 128-wide products instead of one 256-wide product of the concatenated
  row, is the splitting of a finite sum. No step needs the inputs to be finite, and the integer index arrays are
  arbitrary: the gathers clamp and the scatter drops what is out of range, identically on both sides.

  The frames of the two accelerator programs are the generated ones; the reference's frame is its generated run
  with the result dropped; the idealization rewrote nothing, so it preserves trivially.
-/
import proofs.«179970_j42777874268719_1_alg».proof.Defs
import proofs.«179970_j42777874268719_1_alg».proof.Proof.Gen.Kernel
import proofs.«179970_j42777874268719_1_alg».proof.Proof.Gen.Kernel.Frame
import proofs.«179970_j42777874268719_1_alg».proof.Proof.Gen.KernelIdeal
import proofs.«179970_j42777874268719_1_alg».proof.Proof.Gen.KernelIdeal.Frame
import proofs.«179970_j42777874268719_1_alg».proof.Proof.Gen.ReferenceIdeal
import proofs.«179970_j42777874268719_1_alg».proof.Proof.Gen.ReferenceIdeal.Run
import proofs.«179970_j42777874268719_1_alg».proof.Proof.Gen.ReferenceIdeal.Read
import proofs.«179970_j42777874268719_1_alg».proof.Proof.Gen.Pre_finite_inputs
import proofs.«179970_j42777874268719_1_alg».proof.Proof.KerRun
import proofs.«179970_j42777874268719_1_alg».proof.Proof.Bridge
import Idealize.ShloMosaic.Adequacy
import Idealize.ShloMosaic.Init

noncomputable section

namespace Cert.Proof

open Idealize.ShloMosaic Idealize.ShloMosaic.TcCoe Idealize.SL.Sem

/-- The accelerator program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with equal results: the kernel's
    result array is the reference's last stage applied to the kernel's arguments, and the reference's is that
    stage applied to its own, which agree. -/
theorem algebraic : Cert.algebraic_KernelIdeal_ReferenceIdeal := by
  intro m ρ m' ρ' _ hagree
  refine ⟨fun c => Cert.KernelIdeal.Gen.W19 m ρ c (Proc.devRef .tc Cert.KernelIdeal.main_v33),
    Cert.EdgeNode.Run.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v84_eq, h0, h1, h2, h3, h4, h5, h6, h7, h8, h9, h10, h11, h12, h13, h14, h15, h16, h17, h18]
  exact (Cert.EdgeNode.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
